-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4096x1024 .f32) (main_arg1 : FVec F S1024x1024 .f32) (main_arg2 : FVec F S1024x1024 .f32) (main_arg3 : FVec F S1024x1024 .f32) (main_arg4 : FVec F S1024 .f32) (main_arg5 : FVec F S1024 .f32) (main_arg6 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S256x1024 : Shape := ⟨2, ![256, 1024]⟩
abbrev S256x3072 : Shape := ⟨2, ![256, 3072]⟩
abbrev S512x1024 : Shape := ⟨2, ![512, 1024]⟩
abbrev S1024x1 : Shape := ⟨2, ![1024, 1]⟩
abbrev S1024x512 : Shape := ⟨2, ![1024, 512]⟩

abbrev nBuf : Space → Nat
  | .hbm => 14
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x3072, .f32⟩
  | .hbm, ⟨8, _⟩ => ⟨S3072, .f32⟩
  | .hbm, ⟨9, _⟩ => ⟨S1x3072, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1024x3072, .f32⟩
  | .local _ .vmem, ⟨3, _⟩ => ⟨S1x3072, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_24 : BitVec 32 := 0#32
  let v44 : BitVec 1 := Scalar.cmpi .ne v43 c0_i32_24
  v44

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  packedbf16_S256x1024_S256x1024_0_0 : (Rect.unit (s := S256x1024) ![0, 0] S256x1024.size inb_S256x1024_S256x1024_0_0).PackedRows (EltTy.packing .bf16)
  slices_S256x3072_o0_1024_S256x1024 : S256x3072.Slices ![0, 1024] S256x1024
  slices_S256x3072_o0_2048_S256x1024 : S256x3072.Slices ![0, 2048] S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S256x1024_S1024x3072_S256x3072_1_0_0_1_n_n_wf : DotDims.WF S256x1024 S1024x3072 S256x3072 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .f32 = 32 ∨ (Rect.block (s := S1024x3072) S1024x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .bf16 = 32 ∨ (Rect.block (s := S4096x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .bf16 = 32 ∨ (Rect.block (s := S4096x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .bf16 = 32 ∨ (Rect.block (s := S4096x1024) S256x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .bf16 = 32 ∨ (Rect.block (s := S4096x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .f32 = 32 ∨ (Rect.block (s := S4096x1024) S1024x1024.size (cc1_transform_3 i) (hinb1_3 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v3_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S1024x4096, .f32⟩
  | .hbm, ⟨20, _⟩ => ⟨S4096x4096, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KR0.lean ====
/- REGION 0's half of the frame proof of `Kernel`: the first pallas_call (the fused Q|K|V projection,
   kernel `cc0__qkv_kernel`, pipeline `cfg0`), at a PARAMETER `V` — the TensorCore's buffer contents when the region
   is entered. Each window's block at a point (`iblk0`), what the body leaves in each output window's buffer
   (`out0_3`, `out0_4`, `out0_5`: the one store as a piece covering the whole buffer), the body's triple
   (`sound_kernel0`), the proof data (`dat0`) and the body obligation (`body_obligation0`), at any `F`. -/
import proofs.«146679_j72584947302555_2_alg».proof.Proof.Gen.Kernel.Launch
import proofs.«146679_j72584947302555_2_alg».proof.Proof.Gen.Kernel.Skeleton
import proofs.«146679_j72584947302555_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of production extents (256×1024, 1024×3072)
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data
    whose array is `V`'s (`hA`) and whose body leaves the block in place (`hafter`): unfetched, the index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the concatenated weights, one block for the whole grid): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the concatenated biases, one block for the whole grid): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S256x1024 := Rect.unit (s := S256x1024) ![0, 0] S256x1024.size inb_S256x1024_S256x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-! ## What the body leaves in each output window's buffer -/

/-- Window 3's staging buffer after the body, from the input windows' blocks: its one store as a piece — columns
    0..1023 of the rounded `x·Wcat + bcat` (the Q slice). -/
def out0_3 (x0 : Vec F S256x1024 .f32) (x1 : Vec F S1024x3072 .f32) (x2 : Vec F S1x3072 .f32) : Vec F S256x1024 .bf16 :=
  View.canon [⟨r0_x, k0_pay2 (View.ld x0 r0_x) (View.ld x1 r0_w) (View.ld x2 r0_b)⟩]

/-- Window 4's: columns 1024..2047 (the K slice). -/
def out0_4 (x0 : Vec F S256x1024 .f32) (x1 : Vec F S1024x3072 .f32) (x2 : Vec F S1x3072 .f32) : Vec F S256x1024 .bf16 :=
  View.canon [⟨r0_x, k0_pay3 (View.ld x0 r0_x) (View.ld x1 r0_w) (View.ld x2 r0_b)⟩]

/-- Window 5's: columns 2048..3071 (the V slice). -/
def out0_5 (x0 : Vec F S256x1024 .f32) (x1 : Vec F S1024x3072 .f32) (x2 : Vec F S1x3072 .f32) : Vec F S256x1024 .bf16 :=
  View.canon [⟨r0_x, k0_pay4 (View.ld x0 r0_x) (View.ld x1 r0_w) (View.ld x2 r0_b)⟩]

/-- One store through the whole-buffer rectangle tiles the buffer, so it covers it. -/
theorem cover0_o (p0 : Vec F S256x1024 .bf16) (y : S256x1024.Idx) :
    ∃ pc ∈ ([⟨r0_x, p0⟩] : List (View.Piece (Elt F) S256x1024 .bf16)), y ∈ pc.1.set :=
  View.cover_of_tiled [⟨r0_x, p0⟩] S256x1024.size (by rfl) y

/-! ## The body's triple -/

set_option maxHeartbeats 4000000 in
/-- The kernel body on whole staging memrefs, the inputs' at read contents `x0 x1 x2` and the outputs' at anything,
    runs to the continuation holding the inputs' as they were and each output's at `out0_W` of the inputs'. -/
theorem sound_kernel0 (c : Dev nD) (E : Set ℕ) (i : grid0.Coords)
    (arg1 : Memref sig .tc .vmem S256x1024 .f32) (harg1 : arg1.IsWhole) (arg2 : Memref sig .tc .vmem S1024x3072 .f32) (harg2 : arg2.IsWhole)
    (arg3 : Memref sig .tc .vmem S1x3072 .f32) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S256x1024 .bf16) (harg6 : arg6.IsWhole)
    (x0 : Vec F S256x1024 .f32) (x1 : Vec F S1024x3072 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Defs.lean ====
/-
  One grid point of the attention kernel as a function of what it loads: the query block q, the key and value blocks
  k and v, and the three carried buffers (running maximum, running denominator, running numerator). At the first key
  block of a query tile the carried buffers are first reset; at the last one the quotient numerator / denominator is
  what the output block receives.
-/
import proofs.«146679_j72584947302555_2_alg».proof.Proof.Gen.Kernel.Skeleton

noncomputable section

namespace Cert.Kernel.Hand

open Idealize.ShloMosaic Idealize.SL.Sem
open Cert.Kernel Cert.Kernel.Gen

variable {F : FTy → Type} [FloatOps F]

/-- The carried buffers: running maximum [1024,1], running denominator [1024,1], running numerator [1024,1024]. -/
abbrev St1 (F : FTy → Type) [FloatOps F] : Type := Vec F S1024x1 .f32 × Vec F S1024x1 .f32 × Vec F S1024x1024 .f32

/-- The reset values: -∞, 0, 0. -/
def init1 : St1 F := (k1_pay4, k1_pay5, k1_pay6)

/-- One key block folded into the carried buffers. -/
def step1 (q : Vec F S1024x1024 .bf16) (k v : Vec F S512x1024 .bf16) (s : St1 F) : St1 F :=
  (k1_pay2 (k1_pay8 q k s.1),
   k1_pay11 q k s.1 s.1 s.2.1,
   k1_pay1 (k1_pay12 v) (k1_pay13 q k s.1 s.1 s.2.2) (k1_pay14 q k s.1))

/-- The output block: numerator / denominator. -/
def fin1 (s : St1 F) : Vec F S1024x1024 .f32 := k1_pay3 s.2.2 s.2.1

/-- The carried buffers after the point with coordinates `i`, from what the point found in them (`s0`): reset first
    when the key block is the first of its query tile. -/
def stepAt (i : grid1.Coords) (q : Vec F S1024x1024 .bf16) (k v : Vec F S512x1024 .bf16) (s0 : St1 F) : St1 F :=
  step1 q k v (if (i 1).val = 0 then init1 else s0)

end Cert.Kernel.Hand

end
-- ==== Proof.KR1Body.lean ====
/-
  The attention kernel's body at one grid point, as a triple: from the query, key and value blocks in their buffers,
  the output buffer at anything and the three carried buffers at what the point before left, the body runs to the end
  leaving the inputs as they were, the carried buffers at one more key block folded in (after a reset at the first key
  block of a query tile), and the output buffer untouched except at the last key block, where it receives the quotient.

  Three cases on the key block: the first (reset, then fold), one in between (fold), the last (fold, then quotient).
  In each the body is run through its memory operations; every buffer it hands back is a whole block read back after
  stores the last of which covered it, hence that store's value, and every value it loaded is the contents of a whole
  block, or the value of the covering store just before.
-/
import proofs.«146679_j72584947302555_2_alg».proof.Proof.Gen.Kernel.Launch
import proofs.«146679_j72584947302555_2_alg».proof.Proof.Gen.Kernel.Skeleton
import proofs.«146679_j72584947302555_2_alg».proof.Proof.Gen.Kernel.Points
import proofs.«146679_j72584947302555_2_alg».proof.Proof.KR1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two zero offsets of a rank-two block, as the constant function. -/
theorem zero_offsets : (![0, 0] : Fin 2 → Nat) = fun _ => 0 := funext fun a => by fin_cases a <;> rfl

/-- The first key block's test, as the kernel computes it from the second grid coordinate. -/
abbrev isFirst (i : grid1.Coords) : Prop :=
  (Scalar.cmpi .ne (Scalar.extui (Scalar.cmpi .eq (BitVec.ofNat 32 (i 1).val) 0#32)) 0#32) = 1#1
/-- The last key block's test. -/
abbrev isLast (i : grid1.Coords) : Prop := k1_cond2 i = 1#1

/-- The first test holds exactly at key block 0 (decided over the eight key blocks). -/
theorem isFirst_iff (i : grid1.Coords) : isFirst i ↔ (i 1).val = 0 := by
  have h : ∀ n : Fin 8, ((Scalar.cmpi .ne (Scalar.extui (Scalar.cmpi .eq (BitVec.ofNat 32 n.val) 0#32)) 0#32) = 1#1) ↔ n.val = 0 := by decide
  exact h (i 1)
/-- The last test holds exactly at key block 7. -/
theorem isLast_iff (i : grid1.Coords) : isLast i ↔ (i 1).val = 7 := by
  have h : ∀ n : Fin 8, ((Scalar.cmpi .ne (Scalar.extui (Scalar.cmpi .eq (BitVec.ofNat 32 n.val) 7#32)) 0#32) = 1#1) ↔ n.val = 7 := by decide
  exact h (i 1)

/-- A whole block read back after stores the last of which covered it whole: that last store's value, whatever the
    earlier stores and the contents before them. -/
theorem read_back {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load of a whole block through a whole memref held at the contents that read `X` reads `X`. -/
theorem load_whole {S : Shape} {e : EltTy} {κ : Kind} {sp : Space} {m : Memref sig κ sp S e} (h : m.IsWhole) (X : S.Idx → Elt F e)
    {off : Fin S.rank → Nat} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

set_option maxHeartbeats 4000000 in
/-- The first key block of a query tile: the carried buffers are reset to -∞, 0, 0, then the key block is folded in. -/
theorem first_block (c : Dev nD) (E : Set ℕ) (i : grid1.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (q : Vec F S1024x1024 .bf16) (k v : Vec F S512x1024 .bf16) (d5 : Vec F S1024x1024 .f32) (m0 l0 : Vec F S1024x1 .f32) (a0 : Vec F S1024x1024 .f32) (hc1 : isFirst i) (hc2 : ¬isLast i) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare d5
        ∗ owns (c : Thread nD τ) arg6 fullShare m0 ∗ owns (c : Thread nD τ) arg7 fullShare l0 ∗ owns (c : Thread nD τ) arg8 fullShare a0
        ∗ (iprop(owns (c : Thread nD τ) arg2 fullShare q ∗ owns (c : Thread nD τ) arg3 fullShare k ∗ owns (c : Thread nD τ) arg4 fullShare v
            ∗ owns (c : Thread nD τ) arg5 fullShare d5
            ∗ owns (c : Thread nD τ) arg6 fullShare (step1 q k v init1).1 ∗ owns (c : Thread nD τ) arg7 fullShare (step1 q k v init1).2.1
            ∗ owns (c : Thread nD τ) arg8 fullShare (step1 q k v init1).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  isplitl [H7]
  · iexists _; isplitr
    swap; · iexact H7
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  · iexists _; isplitr
    swap; · iexact H8
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl

set_option maxHeartbeats 4000000 in
/-- A key block that is neither first nor last: it is folded into the carried buffers. -/
theorem middle_block (c : Dev nD) (E : Set ℕ) (i : grid1.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (q : Vec F S1024x1024 .bf16) (k v : Vec F S512x1024 .bf16) (d5 : Vec F S1024x1024 .f32) (m0 l0 : Vec F S1024x1 .f32) (a0 : Vec F S1024x1024 .f32) (hc1 : ¬isFirst i) (hc2 : ¬isLast i) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare d5
        ∗ owns (c : Thread nD τ) arg6 fullShare m0 ∗ owns (c : Thread nD τ) arg7 fullShare l0 ∗ owns (c : Thread nD τ) arg8 fullShare a0
        ∗ (iprop(owns (c : Thread nD τ) arg2 fullShare q ∗ owns (c : Thread nD τ) arg3 fullShare k ∗ owns (c : Thread nD τ) arg4 fullShare v
            ∗ owns (c : Thread nD τ) arg5 fullShare d5
            ∗ owns (c : Thread nD τ) arg6 fullShare (step1 q k v (m0, l0, a0)).1 ∗ owns (c : Thread nD τ) arg7 fullShare (step1 q k v (m0, l0, a0)).2.1
            ∗ owns (c : Thread nD τ) arg8 fullShare (step1 q k v (m0, l0, a0)).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  isplitl [H7]
  · iexists _; isplitr
    swap; · iexact H7
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  · iexists _; isplitr
    swap; · iexact H8
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl

set_option maxHeartbeats 4000000 in
/-- The last key block: it is folded in, and the output block receives numerator / denominator. -/
theorem last_block (c : Dev nD) (E : Set ℕ) (i : grid1.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (q : Vec F S1024x1024 .bf16) (k v : Vec F S512x1024 .bf16) (d5 : Vec F S1024x1024 .f32) (m0 l0 : Vec F S1024x1 .f32) (a0 : Vec F S1024x1024 .f32) (hc1 : ¬isFirst i) (hc2 : isLast i) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare d5
        ∗ owns (c : Thread nD τ) arg6 fullShare m0 ∗ owns (c : Thread nD τ) arg7 fullShare l0 ∗ owns (c : Thread nD τ) arg8 fullShare a0
        ∗ (iprop(owns (c : Thread nD τ) arg2 fullShare q ∗ owns (c : Thread nD τ) arg3 fullShare k ∗ owns (c : Thread nD τ) arg4 fullShare v
            ∗ owns (c : Thread nD τ) arg5 fullShare (fin1 (step1 q k v (m0, l0, a0)))
            ∗ owns (c : Thread nD τ) arg6 fullShare (step1 q k v (m0, l0, a0)).1 ∗ owns (c : Thread nD τ) arg7 fullShare (step1 q k v (m0, l0, a0)).2.1
            ∗ owns (c : Thread nD τ) arg8 fullShare (step1 q k v (m0, l0, a0)).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  isplitl [H6]
  · iexists _; isplitr
    swap; · iexact H6
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  isplitl [H7]
  · iexists _; isplitr
    swap; · iexact H7
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  · iexists _; isplitr
    swap; · iexact H8
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl

set_option maxHeartbeats 4000000 in
theorem sound_kernel1 (c : Dev nD) (E : Set ℕ) (i : grid1.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (q : Vec F S1024x1024 .bf16) (k v : Vec F S512x1024 .bf16) (d5 : Vec F S1024x1024 .f32) (s0 : St1 F) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare d5
        ∗ owns (c : Thread nD τ) arg6 fullShare s0.1 ∗ owns (c : Thread nD τ) arg7 fullShare s0.2.1 ∗ owns (c : Thread nD τ) arg8 fullShare s0.2.2
        ∗ (iprop(owns (c : Thread nD τ) arg2 fullShare q ∗ owns (c : Thread nD τ) arg3 fullShare k ∗ owns (c : Thread nD τ) arg4 fullShare v
            ∗ owns (c : Thread nD τ) arg5 fullShare (if (i 1).val = 7 then fin1 (stepAt i q k v s0) else d5)
            ∗ owns (c : Thread nD τ) arg6 fullShare (stepAt i q k v s0).1 ∗ owns (c : Thread nD τ) arg7 fullShare (stepAt i q k v s0).2.1
            ∗ owns (c : Thread nD τ) arg8 fullShare (stepAt i q k v s0).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  obtain ⟨m0, l0, a0⟩ := s0
  have h8 : (i 1).val < 8 := (i 1).isLt
  have hj : (i 1).val = 0 ∨ (0 < (i 1).val ∧ (i 1).val < 7) ∨ (i 1).val = 7 := by omega
  rcases hj with h0 | ⟨hlo, hhi⟩ | h7
  · -- the first key block: the carried buffers are reset, then one block is folded in; the output is left alone
    have hc1 : isFirst i := (isFirst_iff i).2 h0
    have hc2 : ¬isLast i := fun h => by have := (isLast_iff i).1 h; omega
    have e1 : stepAt i q k v (m0, l0, a0) = step1 q k v init1 := by unfold stepAt; rw [if_pos h0]
    have e2 : (if (i 1).val = 7 then fin1 (stepAt i q k v (m0, l0, a0)) else d5) = d5 := if_neg (by omega)
    rw [e2, e1]
    exact first_block c E i arg2 harg2 arg3 harg3 arg4 harg4 arg5 harg5 arg6 harg6 arg7 harg7 arg8 harg8 q k v d5 m0 l0 a0 hc1 hc2 K
  · -- a key block in between: one block is folded in; the output is left alone
    have hc1 : ¬isFirst i := fun h => by have := (isFirst_iff i).1 h; omega
    have hc2 : ¬isLast i := fun h => by have := (isLast_iff i).1 h; omega
    have e1 : stepAt i q k v (m0, l0, a0) = step1 q k v (m0, l0, a0) := by unfold stepAt; rw [if_neg (by omega)]
    have e2 : (if (i 1).val = 7 then fin1 (stepAt i q k v (m0, l0, a0)) else d5) = d5 := if_neg (by omega)
    rw [e2, e1]
    exact middle_block c E i arg2 harg2 arg3 harg3 arg4 harg4 arg5 harg5 arg6 harg6 arg7 harg7 arg8 harg8 q k v d5 m0 l0 a0 hc1 hc2 K
  · -- the last key block: one block is folded in, and the output receives the quotient
    have hc1 : ¬isFirst i := fun h => by have := (isFirst_iff i).1 h; omega
    have hc2 : isLast i := (isLast_iff i).2 h7
    have e1 : stepAt i q k v (m0, l0, a0) = step1 q k v (m0, l0, a0) := by unfold stepAt; rw [if_neg (by omega)]
    have e2 : (if (i 1).val = 7 then fin1 (stepAt i q k v (m0, l0, a0)) else d5) = fin1 (step1 q k v (m0, l0, a0)) := by
      rw [if_pos h7, e1]
    rw [e2, e1]
    exact last_block c E i arg2 harg2 arg3 harg3 arg4 harg4 arg5 harg5 arg6 harg6 arg7 harg7 arg8 harg8 q k v d5 m0 l0 a0 hc1 hc2 K

end Cert.Kernel.Hand

end
-- ==== Proof.KR1.lean ====
/-
  The attention call's half of the frame proof: what the three carried buffers hold after each grid point (a fold of
  the point function over the positions), the proof data of the pipeline at any contents found when the region is
  entered, and the body obligation from the body's triple.
-/
import proofs.«146679_j72584947302555_2_alg».proof.Proof.Gen.Kernel.Launch
import proofs.«146679_j72584947302555_2_alg».proof.Proof.Gen.Kernel.Skeleton
import proofs.«146679_j72584947302555_2_alg».proof.Proof.Gen.Kernel.Points
import proofs.«146679_j72584947302555_2_alg».proof.Proof.KR1Defs
import proofs.«146679_j72584947302555_2_alg».proof.Proof.KR1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks and the carried buffers point by point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried buffers after position `n`: the point function folded over the positions up to `n`. At position 0
    the key block is the first of its query tile, so what was found there is irrelevant. -/
def scAt (c : Dev nD) : (n : ℕ) → n < cfg1.N → St1 F
  | 0, hn => stepAt (grid1.coords ⟨0, hn⟩) (iblk1 V c 0 ⟨0, hn⟩) (iblk1 V c 1 ⟨0, hn⟩) (iblk1 V c 2 ⟨0, hn⟩) init1
  | n + 1, hn => stepAt (grid1.coords ⟨n + 1, hn⟩) (iblk1 V c 0 ⟨n + 1, hn⟩) (iblk1 V c 1 ⟨n + 1, hn⟩) (iblk1 V c 2 ⟨n + 1, hn⟩) (scAt c n (Nat.lt_of_succ_lt hn))

/-- The scoped buffers that are no staging buffer of this call, the three carried buffers at `s`'s components and the
    others at some contents, with the generator register at some state. -/
def PhiAt (c : Dev nD) (s : St1 F) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ owns (c : Thread nD τ) (Memref.whole cc1_scratch0) fullShare s.1
      ∗ owns (c : Thread nD τ) (Memref.whole cc1_scratch1) fullShare s.2.1
      ∗ owns (c : Thread nD τ) (Memref.whole cc1_scratch2) fullShare s.2.2)
    ∗ (∃ r, prngReg c r))

/-- The region invariant before position `n`: before the first point every scoped buffer outside the call's staging at
    anything; afterwards the three carried buffers at what the point before left. -/
def PhiS (c : Dev nD) : (n : ℕ) → n ≤ cfg1.N → sProp 𝕄
  | 0, _ => Pipeline.ΦA spec1 c
  | n + 1, hn => PhiAt c (scAt V c n hn)

/-! ## The pipeline's proof data -/

/-- The proof data of the attention pipeline on core `c`: the arrays as the region finds them; after the body at a
    point each input's buffer at its block and the output's at the quotient of the carried numerator and denominator
    (consulted only at the last key block of a query tile: elsewhere the window is neither written back nor read);
    the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fin1 (scAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fin1 (scAt V c t.val t.isLt) := by dsimp only [dat1]

/-! ## The grid's points -/

/-- The key-block coordinate of a point is its position modulo 8. -/
theorem coord1 : ∀ t : Fin cfg1.N, ((grid1.coords t) 1).val = t.val % 8 :=
  (by decide +kernel : ∀ t : Fin grid1.N, ((grid1.coords t) 1).val = t.val % 8)

/-- The output window is live exactly at the last key block of a query tile. -/
theorem liveAt1_3 : ∀ t : Fin cfg1.N, t.val % 8 = 7 → cfg1.idle 3 (grid1.coords t) = false := by decide +kernel
theorem idleAt1_3 : ∀ t : Fin cfg1.N, ¬t.val % 8 = 7 → cfg1.idle 3 (grid1.coords t) = true := by decide +kernel
/-- Elsewhere its block is not written back. -/
theorem noFlush1_3 (t : Fin cfg1.N) (h : ¬t.val % 8 = 7) : (cfg1.win 3).flush t = false := by
  cases hf : (cfg1.win 3).flush t
  · rfl
  · exact absurd ((flush1_3 t).mp hf) h

/-! ## The carried buffers, one position at a time -/

/-- At a first key block the point function ignores what it finds. -/
theorem stepAt_first (i : grid1.Coords) (hi : (i 1).val = 0) (q : Vec F S1024x1024 .bf16) (k v : Vec F S512x1024 .bf16) (s s' : St1 F) :
    stepAt i q k v s = stepAt i q k v s' := by
  unfold stepAt; rw [if_pos hi, if_pos hi]

theorem scAt_zero (c : Dev nD) (t : Fin cfg1.N) (hz : t.val = 0) (s0 : St1 F) :
    stepAt (grid1.coords t) (iblk1 V c 0 t) (iblk1 V c 1 t) (iblk1 V c 2 t) s0 = scAt V c t.val t.isLt := by
  obtain ⟨n, hn⟩ := t
  cases n with
  | zero => exact stepAt_first _ ((coord1 ⟨0, hn⟩).trans (Nat.zero_mod _)) _ _ _ _ _
  | succ n => exact absurd hz (Nat.succ_ne_zero n)

theorem scAt_pos (c : Dev nD) (t : Fin cfg1.N) (hz : t.val ≠ 0) :
    stepAt (grid1.coords t) (iblk1 V c 0 t) (iblk1 V c 1 t) (iblk1 V c 2 t) (scAt V c (t.val - 1) (Nat.lt_of_le_of_lt (Nat.sub_le _ _) t.isLt))
      = scAt V c t.val t.isLt := by
  obtain ⟨n, hn⟩ := t
  cases n with
  | zero => exact absurd rfl hz
  | succ n => rfl

/-! ## The invariant -/

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) : PhiS V c (n + 1) hn = PhiAt c (scAt V c n hn) := rfl

theorem PhiS_pos (c : Dev nD) (n : ℕ) (h : n ≤ cfg1.N) (hz : n ≠ 0) :
    PhiS V c n h = PhiAt c (scAt V c (n - 1) (by omega)) := by
  cases n with
  | zero => exact absurd rfl hz
  | succ n => rfl

/-- What the launch hands the region, with the three carried buffers as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
          ∗ (∃ d, owns (c : Thread nD τ) (Memref.whole cc1_scratch0) fullShare d)
          ∗ (∃ d, owns (c : Thread nD τ) (Memref.whole cc1_scratch1) fullShare d)
          ∗ (∃ d, owns (c : Thread nD τ) (Memref.whole cc1_scratch2) fullShare d))
        ∗ (∃ r, prngReg c r)) := by
  unfold Pipeline.ΦA; rw [scopedRest1_eq]; simp only [owns_whole]; try rfl

theorem PhiS_castSucc (c : Dev nD) (t : Fin cfg1.N) :
    (dat1 V c).Φ t.castSucc = PhiS V c t.val (Nat.le_of_lt t.isLt) := by
  dsimp only [dat1]; simp only [Fin.coe_castSucc]

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body at a point -/

/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The body's triple at the last key block of a query tile: the output buffer receives the quotient. -/
theorem sound_last (c : Dev nD) (t : Fin cfg1.N) (h7 : t.val % 8 = 7) (q : Vec F S1024x1024 .bf16) (k v : Vec F S512x1024 .bf16)
    (d5 : Vec F S1024x1024 .f32) (s0 s1 : St1 F) (hs : stepAt (grid1.coords t) q k v s0 = s1) (K : PUnit → sProp 𝕄) :
    iprop(owns (c : Thread nD τ) (ms1_0 t) fullShare q ∗ owns (c : Thread nD τ) (ms1_1 t) fullShare k ∗ owns (c : Thread nD τ) (ms1_2 t) fullShare v
        ∗ owns (c : Thread nD τ) (ms1_3 t) fullShare d5
        ∗ owns (c : Thread nD τ) (Memref.whole cc1_scratch0) fullShare s0.1 ∗ owns (c : Thread nD τ) (Memref.whole cc1_scratch1) fullShare s0.2.1 ∗ owns (c : Thread nD τ) (Memref.whole cc1_scratch2) fullShare s0.2.2
        ∗ (iprop(owns (c : Thread nD τ) (ms1_0 t) fullShare q ∗ owns (c : Thread nD τ) (ms1_1 t) fullShare k ∗ owns (c : Thread nD τ) (ms1_2 t) fullShare v
        ∗ owns (c : Thread nD τ) (ms1_3 t) fullShare (fin1 s1)
        ∗ owns (c : Thread nD τ) (Memref.whole cc1_scratch0) fullShare s1.1 ∗ owns (c : Thread nD τ) (Memref.whole cc1_scratch1) fullShare s1.2.1 ∗ owns (c : Thread nD τ) (Memref.whole cc1_scratch2) fullShare s1.2.2) -∗ K ⟨⟩))
      ⊢ wp frame (wpE (defs₀ (F := F)) Variants.none c none) Set.univ (bodyAt1 t) K := by
  subst hs
  have h := sound_kernel1 c Set.univ (grid1.coords t) (ms1_0 t) (hs1_0 t) (ms1_1 t) (hs1_1 t) (ms1_2 t) (hs1_2 t) (ms1_3 t) (hs1_3 t) (Memref.whole cc1_scratch0) (Memref.isWhole_whole _) (Memref.whole cc1_scratch1) (Memref.isWhole_whole _) (Memref.whole cc1_scratch2) (Memref.isWhole_whole _) q k v d5 s0 K
  rw [if_pos ((coord1 t).trans h7)] at h
  exact h

/-- The body's triple at any other key block: the output buffer is left as found. -/
theorem sound_idle (c : Dev nD) (t : Fin cfg1.N) (h7 : ¬t.val % 8 = 7) (q : Vec F S1024x1024 .bf16) (k v : Vec F S512x1024 .bf16)
    (d5 : Vec F S1024x1024 .f32) (s0 s1 : St1 F) (hs : stepAt (grid1.coords t) q k v s0 = s1) (K : PUnit → sProp 𝕄) :
    iprop(owns (c : Thread nD τ) (ms1_0 t) fullShare q ∗ owns (c : Thread nD τ) (ms1_1 t) fullShare k ∗ owns (c : Thread nD τ) (ms1_2 t) fullShare v
        ∗ owns (c : Thread nD τ) (ms1_3 t) fullShare d5
        ∗ owns (c : Thread nD τ) (Memref.whole cc1_scratch0) fullShare s0.1 ∗ owns (c : Thread nD τ) (Memref.whole cc1_scratch1) fullShare s0.2.1 ∗ owns (c : Thread nD τ) (Memref.whole cc1_scratch2) fullShare s0.2.2
        ∗ (iprop(owns (c : Thread nD τ) (ms1_0 t) fullShare q ∗ owns (c : Thread nD τ) (ms1_1 t) fullShare k ∗ owns (c : Thread nD τ) (ms1_2 t) fullShare v
        ∗ owns (c : Thread nD τ) (ms1_3 t) fullShare d5
        ∗ owns (c : Thread nD τ) (Memref.whole cc1_scratch0) fullShare s1.1 ∗ owns (c : Thread nD τ) (Memref.whole cc1_scratch1) fullShare s1.2.1 ∗ owns (c : Thread nD τ) (Memref.whole cc1_scratch2) fullShare s1.2.2) -∗ K ⟨⟩))
      ⊢ wp frame (wpE (defs₀ (F := F)) Variants.none c none) Set.univ (bodyAt1 t) K := by
  subst hs
  have h := sound_kernel1 c Set.univ (grid1.coords t) (ms1_0 t) (hs1_0 t) (ms1_1 t) (hs1_1 t) (ms1_2 t) (hs1_2 t) (ms1_3 t) (hs1_3 t) (Memref.whole cc1_scratch0) (Memref.isWhole_whole _) (Memref.whole cc1_scratch1) (Memref.isWhole_whole _) (Memref.whole cc1_scratch2) (Memref.isWhole_whole _) q k v d5 s0 K
  rw [if_neg (fun e => h7 ((coord1 t).symm.trans e))] at h
  exact h

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at a point whose carried buffers hold `s0`, where folding the point's key block into `s0` gives the
    carried buffers of the position: the invariant hands the body the carried buffers and takes them back one key block
    further; the output buffer receives the quotient at the last key block of a query tile and is handed back as found
    elsewhere; the other scoped buffers, the generator register and what the core owes pass through unread. -/
theorem sound_from (c : Dev nD) (t : Fin cfg1.N) (s0 : St1 F)
    (hs : stepAt (grid1.coords t) (iblk1 V c 0 t) (iblk1 V c 1 t) (iblk1 V c 2 t) s0 = scAt V c t.val t.isLt) :
    iprop(PhiAt c s0 ∗ (dat1 V c).owesAt () t.castSucc
        ∗ (∃ d : (cfg1.win 0).block.Idx → Elt F (cfg1.win 0).elt, owns (c : Thread nD τ) (ms1_0 t) fullShare (iblk1 V c 0 t))
        ∗ (∃ d : (cfg1.win 1).block.Idx → Elt F (cfg1.win 1).elt, owns (c : Thread nD τ) (ms1_1 t) fullShare (iblk1 V c 1 t))
        ∗ (∃ d : (cfg1.win 2).block.Idx → Elt F (cfg1.win 2).elt, owns (c : Thread nD τ) (ms1_2 t) fullShare (iblk1 V c 2 t))
        ∗ (∃ d, owns (c : Thread nD τ) (ms1_3 t) fullShare ((dat1 V c).before 3 t d)))
      ⊢ wp frame (wpE (defs₀ (F := F)) Variants.none c none) Set.univ (bodyAt1 t) (fun _ =>
          iprop(PhiAt c (scAt V c t.val t.isLt) ∗ (dat1 V c).owesAt () t.castSucc
            ∗ owns (c : Thread nD τ) (ms1_0 t) fullShare (iblk1 V c 0 t)
            ∗ owns (c : Thread nD τ) (ms1_1 t) fullShare (iblk1 V c 1 t)
            ∗ owns (c : Thread nD τ) (ms1_2 t) fullShare (iblk1 V c 2 t)
            ∗ (dat1 V c).leavesExact 3 t)) := by
  unfold PhiAt
  by_cases h7 : t.val % 8 = 7
  · rw [show (dat1 V c).leavesExact 3 t = owns (c : Thread nD τ) (ms1_3 t) fullShare ((dat1 V c).after 3 t) from by
      unfold Dat.leavesExact; rw [liveAt1_3 t h7], after1_3]
    iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
    iapply (sound_last c t h7 (iblk1 V c 0 t) (iblk1 V c 1 t) (iblk1 V c 2 t) _ s0 _ hs _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [A0 A1 A2 A3 A4 A5 A6 A7 A8 A9 HS0 HS1 HS2 Hg]
    ·
      isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexact H3
  · rw [Dat.leavesExact_idle (dat1 V c) 3 t (idleAt1_3 t h7) (noFlush1_3 t h7)]
    iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
    iapply (sound_idle c t h7 (iblk1 V c 0 t) (iblk1 V c 1 t) (iblk1 V c 2 t) _ s0 _ hs _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [A0 A1 A2 A3 A4 A5 A6 A7 A8 A9 HS0 HS1 HS2 Hg]
    ·
      isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexists _; iexact H3

/-- The inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

set_option maxHeartbeats 4800000 in
/-- The body at any point: the inputs' memrefs hold their blocks; before the first point the carried buffers hold
    anything, which the first key block's reset makes irrelevant; afterwards they hold what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS_castSucc V c t]
  by_cases hz : t.val = 0
  · rw [PhiS_zero V c _ _ hz, PhiA1_eq]
    iintro ⟨⟨⟨A0, A1, A2, A3, A4, A5, A6, A7, A8, A9, ⟨%e0, HS0⟩, ⟨%e1, HS1⟩, ⟨%e2, HS2⟩⟩, Hg⟩, Hrest⟩
    iapply (sound_from V c t (e0, e1, e2) (scAt_zero V c t hz _))
    unfold PhiAt
    isplitl [A0 A1 A2 A3 A4 A5 A6 A7 A8 A9 HS0 HS1 HS2 Hg]
    · isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [HS0]; · iexact HS0
        isplitl [HS1]; · iexact HS1
        iexact HS2
      · iexact Hg
    iexact Hrest
  · rw [PhiS_pos V c _ _ hz]
    exact sound_from V c t _ (scAt_pos V c t hz)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: what the carried buffers hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold PhiAt
  iintro ⟨⟨A0, A1, A2, A3, A4, A5, A6, A7, A8, A9, HS0, HS1, HS2⟩, Hg⟩
  isplitr [Hg]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [HS0]; · iexists _; iexact HS0
    isplitl [HS1]; · iexists _; iexact HS1
    iexists _; iexact HS2
  · iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.KRun.lean ====
/-
  The whole program's run. @main is three host operations, the projection call and the attention call. Between two
  items a core holds every unscoped buffer at named contents: the launch memory; then the host operations applied; then
  the projection call's three output arrays at what its write-backs leave; then the attention call's output array at
  what its write-backs leave. Each call is entered from the contents before it and left at the contents after it; the
  last contents are read back against the final memory, so every buffer's final value is known by name.
-/
import proofs.«146679_j72584947302555_2_alg».proof.Proof.KR0
import proofs.«146679_j72584947302555_2_alg».proof.Proof.KR1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev U0 : Dev nD → Valuation τ sig (Elt F) := fun c b => (s₀ m ρ).mem ((c : Dev nD), b)
/-- After the host operations (the projection call's entry). -/
abbrev U1 : Dev nD → Valuation τ sig (Elt F) := fun c => StableHlo.after hostOps0 (U0 m ρ c)
/-- The same read at the TensorCore's references. -/
abbrev E1 : (c : Dev nD) → (b : Ref sig .tc) → Buf (Elt F) ((c : Thread nD τ).loc b) := fun c b => U1 m ρ c b
/-- At the projection call's exit: its arrays at what the pipeline leaves, every other buffer as entered. -/
def U2 (c : Dev nD) : Valuation τ sig (Elt F) :=
  Pipeline.withArrays spec0 c (U1 m ρ c) fun w => (dat0 (E1 m ρ) c).arrAt w cfg0.N
theorem U2_arr (c : Dev nD) (w : Fin cfg0.W) :
    U2 m ρ c (Proc.devRef .tc (Pipeline.arrRef spec0 w)) = (dat0 (E1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
/-- The same read at the TensorCore's references (the attention call's entry). -/
abbrev E2 : (c : Dev nD) → (b : Ref sig .tc) → Buf (Elt F) ((c : Thread nD τ).loc b) := fun c b => U2 m ρ c b
theorem hF0 (c : Dev nD) (w : Fin cfg0.W) : (dat0 (E1 m ρ) c).arrAt w cfg0.N = E2 m ρ c (Pipeline.arrRef spec0 w) :=
  (U2_arr m ρ c w).symm
theorem hrest0 (c : Dev nD) : ∀ b, b ∉ Finset.univ.image (Pipeline.arrRef spec0) → E2 m ρ c b = E1 m ρ c b :=
  fun b hb => U2_of_ne m ρ c b fun w e => hb (Finset.mem_image.mpr ⟨w, Finset.mem_univ _, e⟩)

/-- At the attention call's exit: its arrays at what the pipeline leaves, every other buffer as entered. -/
def U3 (c : Dev nD) : Valuation τ sig (Elt F) :=
  Pipeline.withArrays spec1 c (U2 m ρ c) fun w => (dat1 (E2 m ρ) c).arrAt w cfg1.N
theorem U3_arr (c : Dev nD) (w : Fin cfg1.W) :
    U3 m ρ c (Proc.devRef .tc (Pipeline.arrRef spec1 w)) = (dat1 (E2 m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) := by
  unfold U3; exact Pipeline.withArrays_of_ne spec1 c _ _ b hb
abbrev E3 : (c : Dev nD) → (b : Ref sig .tc) → Buf (Elt F) ((c : Thread nD τ).loc b) := fun c b => U3 m ρ c b
theorem hF1 (c : Dev nD) (w : Fin cfg1.W) : (dat1 (E2 m ρ) c).arrAt w cfg1.N = E3 m ρ c (Pipeline.arrRef spec1 w) :=
  (U3_arr m ρ c w).symm
theorem hrest1 (c : Dev nD) : ∀ b, b ∉ Finset.univ.image (Pipeline.arrRef spec1) → E3 m ρ c b = E2 m ρ c b :=
  fun b hb => U3_of_ne m ρ c b fun w e => hb (Finset.mem_image.mpr ⟨w, Finset.mem_univ _, e⟩)

/-! ## No item writes an argument -/

/-- No host operation allocates a buffer. -/
theorem hops_fresh : (hostOps0 : List (HloOp τ sig (Elt F))).Forall fun op => op.fresh = ∅ := by
  simp only [List.Forall]; repeat' constructor
/-- The references the host operations write. -/
abbrev hops_W : List (Ref sig .tc) := [main_v0, main_v1, main_v2]
theorem hops_writes : (hostOps0 : List (HloOp τ sig (Elt F))).Forall fun op => op.writes ⊆ (hops_W.map (Proc.devRef (τ := τ) .tc)).toFinset := by
  simp only [List.Forall]; exact ⟨by simp only [StableHlo.nary_writes, StableHlo.reshape_writes, Finset.singleton_subset_iff, List.mem_toFinset]; exact List.mem_map_of_mem (by decide), by simp only [StableHlo.nary_writes, StableHlo.reshape_writes, Finset.singleton_subset_iff, List.mem_toFinset]; exact List.mem_map_of_mem (by decide), by simp only [StableHlo.nary_writes, StableHlo.reshape_writes, Finset.singleton_subset_iff, List.mem_toFinset]; exact List.mem_map_of_mem (by decide)⟩

/-- No host operation writes the reference `b`. -/
theorem U1_of (c : Dev nD) (b : Ref sig .tc) (h : b ∉ hops_W) :
    U1 m ρ c (Proc.devRef .tc b) = U0 m ρ c (Proc.devRef .tc b) :=
  StableHlo.after_of_writes_sub hostOps0 _ hops_writes h

/-- An argument that is no array of either call reaches the end as launched. -/
theorem U3_bypass (c : Dev nD) (b : Ref sig .tc) (h1 : ∀ w, Pipeline.arrRef spec1 w ≠ b) (h0 : ∀ w, Pipeline.arrRef spec0 w ≠ b)
    (hh : b ∉ hops_W) : U3 m ρ c (Proc.devRef .tc b) = m ((c : Thread nD τ).loc b) :=
  (U3_of_ne m ρ c b h1).trans ((U2_of_ne m ρ c b h0).trans ((U1_of m ρ c b hh).trans rfl))

theorem U3_main_arg0 (c : Dev nD) : U3 m ρ c (Proc.devRef .tc main_arg0) = m ((c : Thread nD τ).loc main_arg0) :=
  calc U3 m ρ c (Proc.devRef .tc main_arg0)
    _ = U2 m ρ c (Proc.devRef .tc main_arg0) := U3_of_ne m ρ c main_arg0 (by decide)
    _ = U1 m ρ c (Proc.devRef .tc main_arg0) := (U2_arr m ρ c 0).trans (((dat0 (E1 m ρ) c).arrAt_in 0 rfl _).trans (A_eq0 (E1 m ρ) c 0))
    _ = U0 m ρ c (Proc.devRef .tc main_arg0) := U1_of m ρ c main_arg0 (by decide)
    _ = m ((c : Thread nD τ).loc main_arg0) := rfl
theorem U3_main_arg1 (c : Dev nD) : U3 m ρ c (Proc.devRef .tc main_arg1) = m ((c : Thread nD τ).loc main_arg1) :=
  U3_bypass m ρ c main_arg1 (by decide) (by decide) (by decide)
theorem U3_main_arg2 (c : Dev nD) : U3 m ρ c (Proc.devRef .tc main_arg2) = m ((c : Thread nD τ).loc main_arg2) :=
  U3_bypass m ρ c main_arg2 (by decide) (by decide) (by decide)
theorem U3_main_arg3 (c : Dev nD) : U3 m ρ c (Proc.devRef .tc main_arg3) = m ((c : Thread nD τ).loc main_arg3) :=
  U3_bypass m ρ c main_arg3 (by decide) (by decide) (by decide)
theorem U3_main_arg4 (c : Dev nD) : U3 m ρ c (Proc.devRef .tc main_arg4) = m ((c : Thread nD τ).loc main_arg4) :=
  U3_bypass m ρ c main_arg4 (by decide) (by decide) (by decide)
theorem U3_main_arg5 (c : Dev nD) : U3 m ρ c (Proc.devRef .tc main_arg5) = m ((c : Thread nD τ).loc main_arg5) :=
  U3_bypass m ρ c main_arg5 (by decide) (by decide) (by decide)
theorem U3_main_arg6 (c : Dev nD) : U3 m ρ c (Proc.devRef .tc main_arg6) = m ((c : Thread nD τ).loc main_arg6) :=
  U3_bypass m ρ c main_arg6 (by decide) (by decide) (by decide)
/-- The result array ends at what the attention call's write-backs leave. -/
theorem U3_main_v4 (c : Dev nD) : U3 m ρ c (Proc.devRef .tc main_v4) = (dat1 (E2 m ρ) c).arrAt 3 cfg1.N :=
  U3_arr m ρ c 3

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U3 m ρ c) ∗ ∃ r, prngReg c r)

/-! ## The calls as segments -/

set_option backward.isDefEq.respectTransparency.types false in
/-- The projection call over the thread state: entered from every unscoped buffer at `U1`, left at `U2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generator register and the scoped rest make the attention call's invariant before its first point, -/
theorem phiA_in (c : Dev nD) :
    (iprop((∃ r, prngReg c r) ∗ Pipeline.prefHeld (pcfgs (F := F) 1).pre c (fun _ => fullShare) (adm (F := F) 1).1
      ∗ Pipeline.scopedRest (Ix := Unit) (Name := ℕ) (U := UR sig nD τ) (Lvl := ℕ) (Val := Elt F) spec1 c) : sProp 𝕄) ⊢ Pipeline.ΦA spec1 c := by
  unfold Pipeline.ΦA
  iintro ⟨Hp, -, Hr⟩
  isplitl [Hr]; · iexact Hr
  iexact Hp
/-- and the invariant after its last point gives them back. -/
theorem phiA_out (c : Dev nD) :
    (Pipeline.ΦA spec1 c : sProp 𝕄) ⊢ iprop((∃ r, prngReg c r) ∗ BI.emp
      ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- The attention call over the thread state: entered from every unscoped buffer at `U2`, left at `U3`. Its invariant
    takes the scoped rest and the generator register in at the first point and gives them back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (U2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in c).trans (hin1 (E2 m ρ) c)
  hout c := by
    rw [Pipeline.ownSems0_none]
    exact (hout1 (E2 m ρ) c).trans (phiA_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hops_fresh (U0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds every unscoped buffer of every core at the last contents `U3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m ρ c b)
    (hfin := fun c s' => by
      iintro ⟨⟨Hh, -⟩, HSI⟩
      unfold StableHlo.held
      imodintro
      iapply (pointsTo_read_all (Pipeline.ucRefs τ sig) (fun b => (((c : Thread nD τ)).1, b)) (U3 m ρ c) s')
      isplitl [Hh] <;> iassumption)
    (hQ := fun s h c => h c)

/-- THE FRAME at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (U3_main_arg0 m ρ c),
     (h c _ (mem_uc main_arg1 (by decide))).trans (U3_main_arg1 m ρ c),
     (h c _ (mem_uc main_arg2 (by decide))).trans (U3_main_arg2 m ρ c),
     (h c _ (mem_uc main_arg3 (by decide))).trans (U3_main_arg3 m ρ c),
     (h c _ (mem_uc main_arg4 (by decide))).trans (U3_main_arg4 m ρ c),
     (h c _ (mem_uc main_arg5 (by decide))).trans (U3_main_arg5 m ρ c),
     (h c _ (mem_uc main_arg6 (by decide))).trans (U3_main_arg6 m ρ c)⟩) (run_all m ρ)

/-- THE VALUE RUN at any `F`: the result array ends at what the attention call's write-backs leave, every argument as launched. -/
theorem run_value : θ_run defs (onTc (τ := τ) (main (F := F))) ⟨m, fun _ => 0, ρ⟩ (fun r => ∀ c : Dev nD,
      r.2.mem ((c.tc : Thread nD τ).loc main_v4) = (dat1 (E2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (U3_main_v4 m ρ c),
     (h c _ (mem_uc main_arg0 (by decide))).trans (U3_main_arg0 m ρ c),
     (h c _ (mem_uc main_arg1 (by decide))).trans (U3_main_arg1 m ρ c),
     (h c _ (mem_uc main_arg2 (by decide))).trans (U3_main_arg2 m ρ c),
     (h c _ (mem_uc main_arg3 (by decide))).trans (U3_main_arg3 m ρ c),
     (h c _ (mem_uc main_arg4 (by decide))).trans (U3_main_arg4 m ρ c),
     (h c _ (mem_uc main_arg5 (by decide))).trans (U3_main_arg5 m ρ c),
     (h c _ (mem_uc main_arg6 (by decide))).trans (U3_main_arg6 m ρ c)⟩) (run_all m ρ)

end Cert.Kernel.Hand

end
-- ==== Proof.R0.lean ====
/- REGION 0's half of the frame proof of `KernelIdeal`: the first pallas_call (the fused Q|K|V projection,
   kernel `cc0__qkv_kernel`, pipeline `cfg0`), at a PARAMETER `V` — the TensorCore's buffer contents when the region
   is entered. Each window's block at a point (`iblk0`), what the body leaves in each output window's buffer
   (`out0_3`, `out0_4`, `out0_5`: the one store as a piece covering the whole buffer), the body's triple
   (`sound_kernel0`), the proof data (`dat0`) and the body obligation (`body_obligation0`), at any `F`. -/
import proofs.«146679_j72584947302555_2_alg».proof.Proof.Gen.KernelIdeal.Launch
import proofs.«146679_j72584947302555_2_alg».proof.Proof.Gen.KernelIdeal.Skeleton
import proofs.«146679_j72584947302555_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangles of production extents (256×1024, 1024×3072)
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data
    whose array is `V`'s (`hA`) and whose body leaves the block in place (`hafter`): unfetched, the index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the concatenated weights, one block for the whole grid): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the concatenated biases, one block for the whole grid): the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_x : Rect S256x1024 := Rect.unit (s := S256x1024) ![0, 0] S256x1024.size inb_S256x1024_S256x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-! ## What the body leaves in each output window's buffer -/

/-- Window 3's staging buffer after the body, from the input windows' blocks: its one store as a piece — columns
    0..1023 of the rounded `x·Wcat + bcat` (the Q slice). -/
def out0_3 (x0 : Vec F S256x1024 .f32) (x1 : Vec F S1024x3072 .f32) (x2 : Vec F S1x3072 .f32) : Vec F S256x1024 .bf16 :=
  View.canon [⟨r0_x, k0_pay2 (View.ld x0 r0_x) (View.ld x1 r0_w) (View.ld x2 r0_b)⟩]

/-- Window 4's: columns 1024..2047 (the K slice). -/
def out0_4 (x0 : Vec F S256x1024 .f32) (x1 : Vec F S1024x3072 .f32) (x2 : Vec F S1x3072 .f32) : Vec F S256x1024 .bf16 :=
  View.canon [⟨r0_x, k0_pay3 (View.ld x0 r0_x) (View.ld x1 r0_w) (View.ld x2 r0_b)⟩]

/-- Window 5's: columns 2048..3071 (the V slice). -/
def out0_5 (x0 : Vec F S256x1024 .f32) (x1 : Vec F S1024x3072 .f32) (x2 : Vec F S1x3072 .f32) : Vec F S256x1024 .bf16 :=
  View.canon [⟨r0_x, k0_pay4 (View.ld x0 r0_x) (View.ld x1 r0_w) (View.ld x2 r0_b)⟩]

/-- One store through the whole-buffer rectangle tiles the buffer, so it covers it. -/
theorem cover0_o (p0 : Vec F S256x1024 .bf16) (y : S256x1024.Idx) :
    ∃ pc ∈ ([⟨r0_x, p0⟩] : List (View.Piece (Elt F) S256x1024 .bf16)), y ∈ pc.1.set :=
  View.cover_of_tiled [⟨r0_x, p0⟩] S256x1024.size (by rfl) y

/-! ## The body's triple -/

set_option maxHeartbeats 4000000 in
/-- The kernel body on whole staging memrefs, the inputs' at read contents `x0 x1 x2` and the outputs' at anything,
    runs to the continuation holding the inputs' as they were and each output's at `out0_W` of the inputs'. -/
theorem sound_kernel0 (c : Dev nD) (E : Set ℕ) (i : grid0.Coords)
    (arg1 : Memref sig .tc .vmem S256x1024 .f32) (harg1 : arg1.IsWhole) (arg2 : Memref sig .tc .vmem S1024x3072 .f32) (harg2 : arg2.IsWhole)
    (arg3 : Memref sig .tc .vmem S1x3072 .f32) (harg3 : arg3.IsWhole) (arg4 : Memref sig .tc .vmem S256x1024 .bf16) (harg4 : arg4.IsWhole)
    (arg5 : Memref sig .tc .vmem S256x1024 .bf16) (harg5 : arg5.IsWhole) (arg6 : Memref sig .tc .vmem S256x1024 .bf16) (harg6 : arg6.IsWhole)
    (x0 : Vec F S256x1024 .f32) (x1 : Vec F S1024x3072 .f32) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_o _)
  isplitl [H4]
  · iexists _; isplitr
    swap; · iexact H4
    ipureintro
    exact View.read_writes_eq_canon _ _ _ (cover0_o _)
  iexists _; isplitr
  swap; · iexact H5
  ipureintro
  exact View.read_writes_eq_canon _ _ _ (cover0_o _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Defs.lean ====
/-
  One grid point of the attention kernel as a function of what it loads: the query block q, the key and value blocks
  k and v, and the three carried buffers (running maximum, running denominator, running numerator). At the first key
  block of a query tile the carried buffers are first reset; at the last one the quotient numerator / denominator is
  what the output block receives.
-/
import proofs.«146679_j72584947302555_2_alg».proof.Proof.Gen.KernelIdeal.Skeleton

noncomputable section

namespace Cert.KernelIdeal.Hand

open Idealize.ShloMosaic Idealize.SL.Sem
open Cert.KernelIdeal Cert.KernelIdeal.Gen

variable {F : FTy → Type} [FloatOps F]

/-- The carried buffers: running maximum [1024,1], running denominator [1024,1], running numerator [1024,1024]. -/
abbrev St1 (F : FTy → Type) [FloatOps F] : Type := Vec F S1024x1 .f32 × Vec F S1024x1 .f32 × Vec F S1024x1024 .f32

/-- The reset values: -∞, 0, 0. -/
def init1 : St1 F := (k1_pay4, k1_pay5, k1_pay6)

/-- One key block folded into the carried buffers. -/
def step1 (q : Vec F S1024x1024 .bf16) (k v : Vec F S512x1024 .bf16) (s : St1 F) : St1 F :=
  (k1_pay2 (k1_pay8 q k s.1),
   k1_pay11 q k s.1 s.1 s.2.1,
   k1_pay1 (k1_pay12 v) (k1_pay13 q k s.1 s.1 s.2.2) (k1_pay14 q k s.1))

/-- The output block: numerator / denominator. -/
def fin1 (s : St1 F) : Vec F S1024x1024 .f32 := k1_pay3 s.2.2 s.2.1

/-- The carried buffers after the point with coordinates `i`, from what the point found in them (`s0`): reset first
    when the key block is the first of its query tile. -/
def stepAt (i : grid1.Coords) (q : Vec F S1024x1024 .bf16) (k v : Vec F S512x1024 .bf16) (s0 : St1 F) : St1 F :=
  step1 q k v (if (i 1).val = 0 then init1 else s0)

end Cert.KernelIdeal.Hand

end
-- ==== Proof.R1Body.lean ====
/-
  The attention kernel's body at one grid point, as a triple: from the query, key and value blocks in their buffers,
  the output buffer at anything and the three carried buffers at what the point before left, the body runs to the end
  leaving the inputs as they were, the carried buffers at one more key block folded in (after a reset at the first key
  block of a query tile), and the output buffer untouched except at the last key block, where it receives the quotient.

  Three cases on the key block: the first (reset, then fold), one in between (fold), the last (fold, then quotient).
  In each the body is run through its memory operations; every buffer it hands back is a whole block read back after
  stores the last of which covered it, hence that store's value, and every value it loaded is the contents of a whole
  block, or the value of the covering store just before.
-/
import proofs.«146679_j72584947302555_2_alg».proof.Proof.Gen.KernelIdeal.Launch
import proofs.«146679_j72584947302555_2_alg».proof.Proof.Gen.KernelIdeal.Skeleton
import proofs.«146679_j72584947302555_2_alg».proof.Proof.Gen.KernelIdeal.Points
import proofs.«146679_j72584947302555_2_alg».proof.Proof.R1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two zero offsets of a rank-two block, as the constant function. -/
theorem zero_offsets : (![0, 0] : Fin 2 → Nat) = fun _ => 0 := funext fun a => by fin_cases a <;> rfl

/-- The first key block's test, as the kernel computes it from the second grid coordinate. -/
abbrev isFirst (i : grid1.Coords) : Prop :=
  (Scalar.cmpi .ne (Scalar.extui (Scalar.cmpi .eq (BitVec.ofNat 32 (i 1).val) 0#32)) 0#32) = 1#1
/-- The last key block's test. -/
abbrev isLast (i : grid1.Coords) : Prop := k1_cond2 i = 1#1

/-- The first test holds exactly at key block 0 (decided over the eight key blocks). -/
theorem isFirst_iff (i : grid1.Coords) : isFirst i ↔ (i 1).val = 0 := by
  have h : ∀ n : Fin 8, ((Scalar.cmpi .ne (Scalar.extui (Scalar.cmpi .eq (BitVec.ofNat 32 n.val) 0#32)) 0#32) = 1#1) ↔ n.val = 0 := by decide
  exact h (i 1)
/-- The last test holds exactly at key block 7. -/
theorem isLast_iff (i : grid1.Coords) : isLast i ↔ (i 1).val = 7 := by
  have h : ∀ n : Fin 8, ((Scalar.cmpi .ne (Scalar.extui (Scalar.cmpi .eq (BitVec.ofNat 32 n.val) 7#32)) 0#32) = 1#1) ↔ n.val = 7 := by decide
  exact h (i 1)

/-- A whole block read back after stores the last of which covered it whole: that last store's value, whatever the
    earlier stores and the contents before them. -/
theorem read_back {S : Shape} {e : EltTy} {κ : Kind} {sp : Space} (v : View sig κ sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-- A load of a whole block through a whole memref held at the contents that read `X` reads `X`. -/
theorem load_whole {S : Shape} {e : EltTy} {κ : Kind} {sp : Space} {m : Memref sig κ sp S e} (h : m.IsWhole) (X : S.Idx → Elt F e)
    {off : Fin S.rank → Nat} (hz : off = fun _ => 0) (inb : ∀ a, off a + S.size a ≤ S.size a) :
    m.view.readAt (Elt F) (Rect.unit off S.size inb).toLoadRect (h.unread X) = X := by
  rw [View.readAt_eq_ld, h.read_unread, View.ld_unit_zero hz]

set_option maxHeartbeats 4000000 in
/-- The first key block of a query tile: the carried buffers are reset to -∞, 0, 0, then the key block is folded in. -/
theorem first_block (c : Dev nD) (E : Set ℕ) (i : grid1.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (q : Vec F S1024x1024 .bf16) (k v : Vec F S512x1024 .bf16) (d5 : Vec F S1024x1024 .f32) (m0 l0 : Vec F S1024x1 .f32) (a0 : Vec F S1024x1024 .f32) (hc1 : isFirst i) (hc2 : ¬isLast i) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare d5
        ∗ owns (c : Thread nD τ) arg6 fullShare m0 ∗ owns (c : Thread nD τ) arg7 fullShare l0 ∗ owns (c : Thread nD τ) arg8 fullShare a0
        ∗ (iprop(owns (c : Thread nD τ) arg2 fullShare q ∗ owns (c : Thread nD τ) arg3 fullShare k ∗ owns (c : Thread nD τ) arg4 fullShare v
            ∗ owns (c : Thread nD τ) arg5 fullShare d5
            ∗ owns (c : Thread nD τ) arg6 fullShare (step1 q k v init1).1 ∗ owns (c : Thread nD τ) arg7 fullShare (step1 q k v init1).2.1
            ∗ owns (c : Thread nD τ) arg8 fullShare (step1 q k v init1).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  isplitl [H7]
  · iexists _; isplitr
    swap; · iexact H7
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  · iexists _; isplitr
    swap; · iexact H8
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl

set_option maxHeartbeats 4000000 in
/-- A key block that is neither first nor last: it is folded into the carried buffers. -/
theorem middle_block (c : Dev nD) (E : Set ℕ) (i : grid1.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (q : Vec F S1024x1024 .bf16) (k v : Vec F S512x1024 .bf16) (d5 : Vec F S1024x1024 .f32) (m0 l0 : Vec F S1024x1 .f32) (a0 : Vec F S1024x1024 .f32) (hc1 : ¬isFirst i) (hc2 : ¬isLast i) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare d5
        ∗ owns (c : Thread nD τ) arg6 fullShare m0 ∗ owns (c : Thread nD τ) arg7 fullShare l0 ∗ owns (c : Thread nD τ) arg8 fullShare a0
        ∗ (iprop(owns (c : Thread nD τ) arg2 fullShare q ∗ owns (c : Thread nD τ) arg3 fullShare k ∗ owns (c : Thread nD τ) arg4 fullShare v
            ∗ owns (c : Thread nD τ) arg5 fullShare d5
            ∗ owns (c : Thread nD τ) arg6 fullShare (step1 q k v (m0, l0, a0)).1 ∗ owns (c : Thread nD τ) arg7 fullShare (step1 q k v (m0, l0, a0)).2.1
            ∗ owns (c : Thread nD τ) arg8 fullShare (step1 q k v (m0, l0, a0)).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  isplitl [H7]
  · iexists _; isplitr
    swap; · iexact H7
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  · iexists _; isplitr
    swap; · iexact H8
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl

set_option maxHeartbeats 4000000 in
/-- The last key block: it is folded in, and the output block receives numerator / denominator. -/
theorem last_block (c : Dev nD) (E : Set ℕ) (i : grid1.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (q : Vec F S1024x1024 .bf16) (k v : Vec F S512x1024 .bf16) (d5 : Vec F S1024x1024 .f32) (m0 l0 : Vec F S1024x1 .f32) (a0 : Vec F S1024x1024 .f32) (hc1 : ¬isFirst i) (hc2 : isLast i) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare d5
        ∗ owns (c : Thread nD τ) arg6 fullShare m0 ∗ owns (c : Thread nD τ) arg7 fullShare l0 ∗ owns (c : Thread nD τ) arg8 fullShare a0
        ∗ (iprop(owns (c : Thread nD τ) arg2 fullShare q ∗ owns (c : Thread nD τ) arg3 fullShare k ∗ owns (c : Thread nD τ) arg4 fullShare v
            ∗ owns (c : Thread nD τ) arg5 fullShare (fin1 (step1 q k v (m0, l0, a0)))
            ∗ owns (c : Thread nD τ) arg6 fullShare (step1 q k v (m0, l0, a0)).1 ∗ owns (c : Thread nD τ) arg7 fullShare (step1 q k v (m0, l0, a0)).2.1
            ∗ owns (c : Thread nD τ) arg8 fullShare (step1 q k v (m0, l0, a0)).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  isplitl [H6]
  · iexists _; isplitr
    swap; · iexact H6
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  isplitl [H7]
  · iexists _; isplitr
    swap; · iexact H7
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl
  · iexists _; isplitr
    swap; · iexact H8
    ipureintro
    sl_unfold_run_names
    simp only [read_back (S := S1024x1) _ _ zero_offsets, read_back (S := S1024x1024) _ _ zero_offsets,
      load_whole (S := S1024x1024) _ _ zero_offsets, load_whole (S := S512x1024) _ _ zero_offsets,
      load_whole (S := S1024x1) _ _ zero_offsets,
      View.readCov_unit_zero (S := S1024x1) _ zero_offsets, View.readCov_unit_zero (S := S1024x1024) _ zero_offsets]
    rfl

set_option maxHeartbeats 4000000 in
theorem sound_kernel1 (c : Dev nD) (E : Set ℕ) (i : grid1.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1024 .f32) (harg8 : arg8.IsWhole)
    (q : Vec F S1024x1024 .bf16) (k v : Vec F S512x1024 .bf16) (d5 : Vec F S1024x1024 .f32) (s0 : St1 F) (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare d5
        ∗ owns (c : Thread nD τ) arg6 fullShare s0.1 ∗ owns (c : Thread nD τ) arg7 fullShare s0.2.1 ∗ owns (c : Thread nD τ) arg8 fullShare s0.2.2
        ∗ (iprop(owns (c : Thread nD τ) arg2 fullShare q ∗ owns (c : Thread nD τ) arg3 fullShare k ∗ owns (c : Thread nD τ) arg4 fullShare v
            ∗ owns (c : Thread nD τ) arg5 fullShare (if (i 1).val = 7 then fin1 (stepAt i q k v s0) else d5)
            ∗ owns (c : Thread nD τ) arg6 fullShare (stepAt i q k v s0).1 ∗ owns (c : Thread nD τ) arg7 fullShare (stepAt i q k v s0).2.1
            ∗ owns (c : Thread nD τ) arg8 fullShare (stepAt i q k v s0).2.2) -∗ K ⟨⟩))
      ⊢ wp frame (wpE (defs₀ (F := F)) Variants.none c none) E (cc1__attn_kernel i arg2 harg2 arg3 harg3 arg4 harg4 arg5 harg5 arg6 harg6 arg7 harg7 arg8 harg8) K := by
  obtain ⟨m0, l0, a0⟩ := s0
  have h8 : (i 1).val < 8 := (i 1).isLt
  have hj : (i 1).val = 0 ∨ (0 < (i 1).val ∧ (i 1).val < 7) ∨ (i 1).val = 7 := by omega
  rcases hj with h0 | ⟨hlo, hhi⟩ | h7
  · -- the first key block: the carried buffers are reset, then one block is folded in; the output is left alone
    have hc1 : isFirst i := (isFirst_iff i).2 h0
    have hc2 : ¬isLast i := fun h => by have := (isLast_iff i).1 h; omega
    have e1 : stepAt i q k v (m0, l0, a0) = step1 q k v init1 := by unfold stepAt; rw [if_pos h0]
    have e2 : (if (i 1).val = 7 then fin1 (stepAt i q k v (m0, l0, a0)) else d5) = d5 := if_neg (by omega)
    rw [e2, e1]
    exact first_block c E i arg2 harg2 arg3 harg3 arg4 harg4 arg5 harg5 arg6 harg6 arg7 harg7 arg8 harg8 q k v d5 m0 l0 a0 hc1 hc2 K
  · -- a key block in between: one block is folded in; the output is left alone
    have hc1 : ¬isFirst i := fun h => by have := (isFirst_iff i).1 h; omega
    have hc2 : ¬isLast i := fun h => by have := (isLast_iff i).1 h; omega
    have e1 : stepAt i q k v (m0, l0, a0) = step1 q k v (m0, l0, a0) := by unfold stepAt; rw [if_neg (by omega)]
    have e2 : (if (i 1).val = 7 then fin1 (stepAt i q k v (m0, l0, a0)) else d5) = d5 := if_neg (by omega)
    rw [e2, e1]
    exact middle_block c E i arg2 harg2 arg3 harg3 arg4 harg4 arg5 harg5 arg6 harg6 arg7 harg7 arg8 harg8 q k v d5 m0 l0 a0 hc1 hc2 K
  · -- the last key block: one block is folded in, and the output receives the quotient
    have hc1 : ¬isFirst i := fun h => by have := (isFirst_iff i).1 h; omega
    have hc2 : isLast i := (isLast_iff i).2 h7
    have e1 : stepAt i q k v (m0, l0, a0) = step1 q k v (m0, l0, a0) := by unfold stepAt; rw [if_neg (by omega)]
    have e2 : (if (i 1).val = 7 then fin1 (stepAt i q k v (m0, l0, a0)) else d5) = fin1 (step1 q k v (m0, l0, a0)) := by
      rw [if_pos h7, e1]
    rw [e2, e1]
    exact last_block c E i arg2 harg2 arg3 harg3 arg4 harg4 arg5 harg5 arg6 harg6 arg7 harg7 arg8 harg8 q k v d5 m0 l0 a0 hc1 hc2 K

end Cert.KernelIdeal.Hand

end
-- ==== Proof.R1.lean ====
/-
  The attention call's half of the frame proof: what the three carried buffers hold after each grid point (a fold of
  the point function over the positions), the proof data of the pipeline at any contents found when the region is
  entered, and the body obligation from the body's triple.
-/
import proofs.«146679_j72584947302555_2_alg».proof.Proof.Gen.KernelIdeal.Launch
import proofs.«146679_j72584947302555_2_alg».proof.Proof.Gen.KernelIdeal.Skeleton
import proofs.«146679_j72584947302555_2_alg».proof.Proof.Gen.KernelIdeal.Points
import proofs.«146679_j72584947302555_2_alg».proof.Proof.R1Defs
import proofs.«146679_j72584947302555_2_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

-- the TensorCore's buffer contents when the region is entered
variable (V : (c : Dev nD) → (b : Ref sig .tc) → Buf (Elt F) ((c : Thread nD τ).loc b))

/-! ## The windows' blocks and the carried buffers point by point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried buffers after position `n`: the point function folded over the positions up to `n`. At position 0
    the key block is the first of its query tile, so what was found there is irrelevant. -/
def scAt (c : Dev nD) : (n : ℕ) → n < cfg1.N → St1 F
  | 0, hn => stepAt (grid1.coords ⟨0, hn⟩) (iblk1 V c 0 ⟨0, hn⟩) (iblk1 V c 1 ⟨0, hn⟩) (iblk1 V c 2 ⟨0, hn⟩) init1
  | n + 1, hn => stepAt (grid1.coords ⟨n + 1, hn⟩) (iblk1 V c 0 ⟨n + 1, hn⟩) (iblk1 V c 1 ⟨n + 1, hn⟩) (iblk1 V c 2 ⟨n + 1, hn⟩) (scAt c n (Nat.lt_of_succ_lt hn))

/-- The scoped buffers that are no staging buffer of this call, the three carried buffers at `s`'s components and the
    others at some contents, with the generator register at some state. -/
def PhiAt (c : Dev nD) (s : St1 F) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
      ∗ owns (c : Thread nD τ) (Memref.whole cc1_scratch0) fullShare s.1
      ∗ owns (c : Thread nD τ) (Memref.whole cc1_scratch1) fullShare s.2.1
      ∗ owns (c : Thread nD τ) (Memref.whole cc1_scratch2) fullShare s.2.2)
    ∗ (∃ r, prngReg c r))

/-- The region invariant before position `n`: before the first point every scoped buffer outside the call's staging at
    anything; afterwards the three carried buffers at what the point before left. -/
def PhiS (c : Dev nD) : (n : ℕ) → n ≤ cfg1.N → sProp 𝕄
  | 0, _ => Pipeline.ΦA spec1 c
  | n + 1, hn => PhiAt c (scAt V c n hn)

/-! ## The pipeline's proof data -/

/-- The proof data of the attention pipeline on core `c`: the arrays as the region finds them; after the body at a
    point each input's buffer at its block and the output's at the quotient of the carried numerator and denominator
    (consulted only at the last key block of a query tile: elsewhere the window is neither written back nor read);
    the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => fin1 (scAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = fin1 (scAt V c t.val t.isLt) := by dsimp only [dat1]

/-! ## The grid's points -/

/-- The key-block coordinate of a point is its position modulo 8. -/
theorem coord1 : ∀ t : Fin cfg1.N, ((grid1.coords t) 1).val = t.val % 8 :=
  (by decide +kernel : ∀ t : Fin grid1.N, ((grid1.coords t) 1).val = t.val % 8)

/-- The output window is live exactly at the last key block of a query tile. -/
theorem liveAt1_3 : ∀ t : Fin cfg1.N, t.val % 8 = 7 → cfg1.idle 3 (grid1.coords t) = false := by decide +kernel
theorem idleAt1_3 : ∀ t : Fin cfg1.N, ¬t.val % 8 = 7 → cfg1.idle 3 (grid1.coords t) = true := by decide +kernel
/-- Elsewhere its block is not written back. -/
theorem noFlush1_3 (t : Fin cfg1.N) (h : ¬t.val % 8 = 7) : (cfg1.win 3).flush t = false := by
  cases hf : (cfg1.win 3).flush t
  · rfl
  · exact absurd ((flush1_3 t).mp hf) h

/-! ## The carried buffers, one position at a time -/

/-- At a first key block the point function ignores what it finds. -/
theorem stepAt_first (i : grid1.Coords) (hi : (i 1).val = 0) (q : Vec F S1024x1024 .bf16) (k v : Vec F S512x1024 .bf16) (s s' : St1 F) :
    stepAt i q k v s = stepAt i q k v s' := by
  unfold stepAt; rw [if_pos hi, if_pos hi]

theorem scAt_zero (c : Dev nD) (t : Fin cfg1.N) (hz : t.val = 0) (s0 : St1 F) :
    stepAt (grid1.coords t) (iblk1 V c 0 t) (iblk1 V c 1 t) (iblk1 V c 2 t) s0 = scAt V c t.val t.isLt := by
  obtain ⟨n, hn⟩ := t
  cases n with
  | zero => exact stepAt_first _ ((coord1 ⟨0, hn⟩).trans (Nat.zero_mod _)) _ _ _ _ _
  | succ n => exact absurd hz (Nat.succ_ne_zero n)

theorem scAt_pos (c : Dev nD) (t : Fin cfg1.N) (hz : t.val ≠ 0) :
    stepAt (grid1.coords t) (iblk1 V c 0 t) (iblk1 V c 1 t) (iblk1 V c 2 t) (scAt V c (t.val - 1) (Nat.lt_of_le_of_lt (Nat.sub_le _ _) t.isLt))
      = scAt V c t.val t.isLt := by
  obtain ⟨n, hn⟩ := t
  cases n with
  | zero => exact absurd rfl hz
  | succ n => rfl

/-! ## The invariant -/

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) : PhiS V c (n + 1) hn = PhiAt c (scAt V c n hn) := rfl

theorem PhiS_pos (c : Dev nD) (n : ℕ) (h : n ≤ cfg1.N) (hz : n ≠ 0) :
    PhiS V c n h = PhiAt c (scAt V c (n - 1) (by omega)) := by
  cases n with
  | zero => exact absurd rfl hz
  | succ n => rfl

/-- What the launch hands the region, with the three carried buffers as memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f)
          ∗ (∃ d, owns (c : Thread nD τ) (Memref.whole cc1_scratch0) fullShare d)
          ∗ (∃ d, owns (c : Thread nD τ) (Memref.whole cc1_scratch1) fullShare d)
          ∗ (∃ d, owns (c : Thread nD τ) (Memref.whole cc1_scratch2) fullShare d))
        ∗ (∃ r, prngReg c r)) := by
  unfold Pipeline.ΦA; rw [scopedRest1_eq]; simp only [owns_whole]; try rfl

theorem PhiS_castSucc (c : Dev nD) (t : Fin cfg1.N) :
    (dat1 V c).Φ t.castSucc = PhiS V c t.val (Nat.le_of_lt t.isLt) := by
  dsimp only [dat1]; simp only [Fin.coe_castSucc]

/-! ## The inputs' buffers hold their blocks at every point -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body at a point -/

/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The body's triple at the last key block of a query tile: the output buffer receives the quotient. -/
theorem sound_last (c : Dev nD) (t : Fin cfg1.N) (h7 : t.val % 8 = 7) (q : Vec F S1024x1024 .bf16) (k v : Vec F S512x1024 .bf16)
    (d5 : Vec F S1024x1024 .f32) (s0 s1 : St1 F) (hs : stepAt (grid1.coords t) q k v s0 = s1) (K : PUnit → sProp 𝕄) :
    iprop(owns (c : Thread nD τ) (ms1_0 t) fullShare q ∗ owns (c : Thread nD τ) (ms1_1 t) fullShare k ∗ owns (c : Thread nD τ) (ms1_2 t) fullShare v
        ∗ owns (c : Thread nD τ) (ms1_3 t) fullShare d5
        ∗ owns (c : Thread nD τ) (Memref.whole cc1_scratch0) fullShare s0.1 ∗ owns (c : Thread nD τ) (Memref.whole cc1_scratch1) fullShare s0.2.1 ∗ owns (c : Thread nD τ) (Memref.whole cc1_scratch2) fullShare s0.2.2
        ∗ (iprop(owns (c : Thread nD τ) (ms1_0 t) fullShare q ∗ owns (c : Thread nD τ) (ms1_1 t) fullShare k ∗ owns (c : Thread nD τ) (ms1_2 t) fullShare v
        ∗ owns (c : Thread nD τ) (ms1_3 t) fullShare (fin1 s1)
        ∗ owns (c : Thread nD τ) (Memref.whole cc1_scratch0) fullShare s1.1 ∗ owns (c : Thread nD τ) (Memref.whole cc1_scratch1) fullShare s1.2.1 ∗ owns (c : Thread nD τ) (Memref.whole cc1_scratch2) fullShare s1.2.2) -∗ K ⟨⟩))
      ⊢ wp frame (wpE (defs₀ (F := F)) Variants.none c none) Set.univ (bodyAt1 t) K := by
  subst hs
  have h := sound_kernel1 c Set.univ (grid1.coords t) (ms1_0 t) (hs1_0 t) (ms1_1 t) (hs1_1 t) (ms1_2 t) (hs1_2 t) (ms1_3 t) (hs1_3 t) (Memref.whole cc1_scratch0) (Memref.isWhole_whole _) (Memref.whole cc1_scratch1) (Memref.isWhole_whole _) (Memref.whole cc1_scratch2) (Memref.isWhole_whole _) q k v d5 s0 K
  rw [if_pos ((coord1 t).trans h7)] at h
  exact h

/-- The body's triple at any other key block: the output buffer is left as found. -/
theorem sound_idle (c : Dev nD) (t : Fin cfg1.N) (h7 : ¬t.val % 8 = 7) (q : Vec F S1024x1024 .bf16) (k v : Vec F S512x1024 .bf16)
    (d5 : Vec F S1024x1024 .f32) (s0 s1 : St1 F) (hs : stepAt (grid1.coords t) q k v s0 = s1) (K : PUnit → sProp 𝕄) :
    iprop(owns (c : Thread nD τ) (ms1_0 t) fullShare q ∗ owns (c : Thread nD τ) (ms1_1 t) fullShare k ∗ owns (c : Thread nD τ) (ms1_2 t) fullShare v
        ∗ owns (c : Thread nD τ) (ms1_3 t) fullShare d5
        ∗ owns (c : Thread nD τ) (Memref.whole cc1_scratch0) fullShare s0.1 ∗ owns (c : Thread nD τ) (Memref.whole cc1_scratch1) fullShare s0.2.1 ∗ owns (c : Thread nD τ) (Memref.whole cc1_scratch2) fullShare s0.2.2
        ∗ (iprop(owns (c : Thread nD τ) (ms1_0 t) fullShare q ∗ owns (c : Thread nD τ) (ms1_1 t) fullShare k ∗ owns (c : Thread nD τ) (ms1_2 t) fullShare v
        ∗ owns (c : Thread nD τ) (ms1_3 t) fullShare d5
        ∗ owns (c : Thread nD τ) (Memref.whole cc1_scratch0) fullShare s1.1 ∗ owns (c : Thread nD τ) (Memref.whole cc1_scratch1) fullShare s1.2.1 ∗ owns (c : Thread nD τ) (Memref.whole cc1_scratch2) fullShare s1.2.2) -∗ K ⟨⟩))
      ⊢ wp frame (wpE (defs₀ (F := F)) Variants.none c none) Set.univ (bodyAt1 t) K := by
  subst hs
  have h := sound_kernel1 c Set.univ (grid1.coords t) (ms1_0 t) (hs1_0 t) (ms1_1 t) (hs1_1 t) (ms1_2 t) (hs1_2 t) (ms1_3 t) (hs1_3 t) (Memref.whole cc1_scratch0) (Memref.isWhole_whole _) (Memref.whole cc1_scratch1) (Memref.isWhole_whole _) (Memref.whole cc1_scratch2) (Memref.isWhole_whole _) q k v d5 s0 K
  rw [if_neg (fun e => h7 ((coord1 t).symm.trans e))] at h
  exact h

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at a point whose carried buffers hold `s0`, where folding the point's key block into `s0` gives the
    carried buffers of the position: the invariant hands the body the carried buffers and takes them back one key block
    further; the output buffer receives the quotient at the last key block of a query tile and is handed back as found
    elsewhere; the other scoped buffers, the generator register and what the core owes pass through unread. -/
theorem sound_from (c : Dev nD) (t : Fin cfg1.N) (s0 : St1 F)
    (hs : stepAt (grid1.coords t) (iblk1 V c 0 t) (iblk1 V c 1 t) (iblk1 V c 2 t) s0 = scAt V c t.val t.isLt) :
    iprop(PhiAt c s0 ∗ (dat1 V c).owesAt () t.castSucc
        ∗ (∃ d : (cfg1.win 0).block.Idx → Elt F (cfg1.win 0).elt, owns (c : Thread nD τ) (ms1_0 t) fullShare (iblk1 V c 0 t))
        ∗ (∃ d : (cfg1.win 1).block.Idx → Elt F (cfg1.win 1).elt, owns (c : Thread nD τ) (ms1_1 t) fullShare (iblk1 V c 1 t))
        ∗ (∃ d : (cfg1.win 2).block.Idx → Elt F (cfg1.win 2).elt, owns (c : Thread nD τ) (ms1_2 t) fullShare (iblk1 V c 2 t))
        ∗ (∃ d, owns (c : Thread nD τ) (ms1_3 t) fullShare ((dat1 V c).before 3 t d)))
      ⊢ wp frame (wpE (defs₀ (F := F)) Variants.none c none) Set.univ (bodyAt1 t) (fun _ =>
          iprop(PhiAt c (scAt V c t.val t.isLt) ∗ (dat1 V c).owesAt () t.castSucc
            ∗ owns (c : Thread nD τ) (ms1_0 t) fullShare (iblk1 V c 0 t)
            ∗ owns (c : Thread nD τ) (ms1_1 t) fullShare (iblk1 V c 1 t)
            ∗ owns (c : Thread nD τ) (ms1_2 t) fullShare (iblk1 V c 2 t)
            ∗ (dat1 V c).leavesExact 3 t)) := by
  unfold PhiAt
  by_cases h7 : t.val % 8 = 7
  · rw [show (dat1 V c).leavesExact 3 t = owns (c : Thread nD τ) (ms1_3 t) fullShare ((dat1 V c).after 3 t) from by
      unfold Dat.leavesExact; rw [liveAt1_3 t h7], after1_3]
    iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
    iapply (sound_last c t h7 (iblk1 V c 0 t) (iblk1 V c 1 t) (iblk1 V c 2 t) _ s0 _ hs _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [A0 A1 A2 A3 A4 A5 A6 A7 A8 A9 HS0 HS1 HS2 Hg]
    ·
      isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexact H3
  · rw [Dat.leavesExact_idle (dat1 V c) 3 t (idleAt1_3 t h7) (noFlush1_3 t h7)]
    iintro ⟨⟨⟨A0, A1, A2, A3, A4, A5, A6, A7, A8, A9, HS0, HS1, HS2⟩, Hg⟩, Ho, ⟨%d0, H0⟩, ⟨%d1, H1⟩, ⟨%d2, H2⟩, ⟨%d3, H3⟩⟩
    iapply (sound_idle c t h7 (iblk1 V c 0 t) (iblk1 V c 1 t) (iblk1 V c 2 t) _ s0 _ hs _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, HS0, HS1, HS2⟩
    isplitl [A0 A1 A2 A3 A4 A5 A6 A7 A8 A9 HS0 HS1 HS2 Hg]
    ·
      isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [HS0]; · iexact HS0
        isplitl [HS1]; · iexact HS1
        iexact HS2
      · iexact Hg
    isplitl [Ho]; · iexact Ho
    isplitl [H0]; · iexact H0
    isplitl [H1]; · iexact H1
    isplitl [H2]; · iexact H2
    iexists _; iexact H3

/-- The inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl

set_option maxHeartbeats 4800000 in
/-- The body at any point: the inputs' memrefs hold their blocks; before the first point the carried buffers hold
    anything, which the first key block's reset makes irrelevant; afterwards they hold what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS_castSucc V c t]
  by_cases hz : t.val = 0
  · rw [PhiS_zero V c _ _ hz, PhiA1_eq]
    iintro ⟨⟨⟨A0, A1, A2, A3, A4, A5, A6, A7, A8, A9, ⟨%e0, HS0⟩, ⟨%e1, HS1⟩, ⟨%e2, HS2⟩⟩, Hg⟩, Hrest⟩
    iapply (sound_from V c t (e0, e1, e2) (scAt_zero V c t hz _))
    unfold PhiAt
    isplitl [A0 A1 A2 A3 A4 A5 A6 A7 A8 A9 HS0 HS1 HS2 Hg]
    · isplitr [Hg]
      ·
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [HS0]; · iexact HS0
        isplitl [HS1]; · iexact HS1
        iexact HS2
      · iexact Hg
    iexact Hrest
  · rw [PhiS_pos V c _ _ hz]
    exact sound_from V c t _ (scAt_pos V c t hz)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the launch's back: what the carried buffers hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  unfold PhiAt
  iintro ⟨⟨A0, A1, A2, A3, A4, A5, A6, A7, A8, A9, HS0, HS1, HS2⟩, Hg⟩
  isplitr [Hg]
  ·
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [HS0]; · iexists _; iexact HS0
    isplitl [HS1]; · iexists _; iexact HS1
    iexists _; iexact HS2
  · iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.Run.lean ====
/-
  The whole program's run. @main is three host operations, the projection call and the attention call. Between two
  items a core holds every unscoped buffer at named contents: the launch memory; then the host operations applied; then
  the projection call's three output arrays at what its write-backs leave; then the attention call's output array at
  what its write-backs leave. Each call is entered from the contents before it and left at the contents after it; the
  last contents are read back against the final memory, so every buffer's final value is known by name.
-/
import proofs.«146679_j72584947302555_2_alg».proof.Proof.R0
import proofs.«146679_j72584947302555_2_alg».proof.Proof.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev U0 : Dev nD → Valuation τ sig (Elt F) := fun c b => (s₀ m ρ).mem ((c : Dev nD), b)
/-- After the host operations (the projection call's entry). -/
abbrev U1 : Dev nD → Valuation τ sig (Elt F) := fun c => StableHlo.after hostOps0 (U0 m ρ c)
/-- The same read at the TensorCore's references. -/
abbrev E1 : (c : Dev nD) → (b : Ref sig .tc) → Buf (Elt F) ((c : Thread nD τ).loc b) := fun c b => U1 m ρ c b
/-- At the projection call's exit: its arrays at what the pipeline leaves, every other buffer as entered. -/
def U2 (c : Dev nD) : Valuation τ sig (Elt F) :=
  Pipeline.withArrays spec0 c (U1 m ρ c) fun w => (dat0 (E1 m ρ) c).arrAt w cfg0.N
theorem U2_arr (c : Dev nD) (w : Fin cfg0.W) :
    U2 m ρ c (Proc.devRef .tc (Pipeline.arrRef spec0 w)) = (dat0 (E1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
/-- The same read at the TensorCore's references (the attention call's entry). -/
abbrev E2 : (c : Dev nD) → (b : Ref sig .tc) → Buf (Elt F) ((c : Thread nD τ).loc b) := fun c b => U2 m ρ c b
theorem hF0 (c : Dev nD) (w : Fin cfg0.W) : (dat0 (E1 m ρ) c).arrAt w cfg0.N = E2 m ρ c (Pipeline.arrRef spec0 w) :=
  (U2_arr m ρ c w).symm
theorem hrest0 (c : Dev nD) : ∀ b, b ∉ Finset.univ.image (Pipeline.arrRef spec0) → E2 m ρ c b = E1 m ρ c b :=
  fun b hb => U2_of_ne m ρ c b fun w e => hb (Finset.mem_image.mpr ⟨w, Finset.mem_univ _, e⟩)

/-- At the attention call's exit: its arrays at what the pipeline leaves, every other buffer as entered. -/
def U3 (c : Dev nD) : Valuation τ sig (Elt F) :=
  Pipeline.withArrays spec1 c (U2 m ρ c) fun w => (dat1 (E2 m ρ) c).arrAt w cfg1.N
theorem U3_arr (c : Dev nD) (w : Fin cfg1.W) :
    U3 m ρ c (Proc.devRef .tc (Pipeline.arrRef spec1 w)) = (dat1 (E2 m ρ) c).arrAt w cfg1.N := by
  unfold U3; exact Pipeline.withArrays_arr spec1 launch1.win.arr_inj c _ _ w
theorem U3_of_ne (c : Dev nD) (b : Ref sig .tc) (hb : ∀ w, Pipeline.arrRef spec1 w ≠ b) :
    U3 m ρ c (Proc.devRef .tc b) = U2 m ρ c (Proc.devRef .tc b) := by
  unfold U3; exact Pipeline.withArrays_of_ne spec1 c _ _ b hb
abbrev E3 : (c : Dev nD) → (b : Ref sig .tc) → Buf (Elt F) ((c : Thread nD τ).loc b) := fun c b => U3 m ρ c b
theorem hF1 (c : Dev nD) (w : Fin cfg1.W) : (dat1 (E2 m ρ) c).arrAt w cfg1.N = E3 m ρ c (Pipeline.arrRef spec1 w) :=
  (U3_arr m ρ c w).symm
theorem hrest1 (c : Dev nD) : ∀ b, b ∉ Finset.univ.image (Pipeline.arrRef spec1) → E3 m ρ c b = E2 m ρ c b :=
  fun b hb => U3_of_ne m ρ c b fun w e => hb (Finset.mem_image.mpr ⟨w, Finset.mem_univ _, e⟩)

/-! ## No item writes an argument -/

/-- No host operation allocates a buffer. -/
theorem hops_fresh : (hostOps0 : List (HloOp τ sig (Elt F))).Forall fun op => op.fresh = ∅ := by
  simp only [List.Forall]; repeat' constructor
/-- The references the host operations write. -/
abbrev hops_W : List (Ref sig .tc) := [main_v0, main_v1, main_v2]
theorem hops_writes : (hostOps0 : List (HloOp τ sig (Elt F))).Forall fun op => op.writes ⊆ (hops_W.map (Proc.devRef (τ := τ) .tc)).toFinset := by
  simp only [List.Forall]; exact ⟨by simp only [StableHlo.nary_writes, StableHlo.reshape_writes, Finset.singleton_subset_iff, List.mem_toFinset]; exact List.mem_map_of_mem (by decide), by simp only [StableHlo.nary_writes, StableHlo.reshape_writes, Finset.singleton_subset_iff, List.mem_toFinset]; exact List.mem_map_of_mem (by decide), by simp only [StableHlo.nary_writes, StableHlo.reshape_writes, Finset.singleton_subset_iff, List.mem_toFinset]; exact List.mem_map_of_mem (by decide)⟩

/-- No host operation writes the reference `b`. -/
theorem U1_of (c : Dev nD) (b : Ref sig .tc) (h : b ∉ hops_W) :
    U1 m ρ c (Proc.devRef .tc b) = U0 m ρ c (Proc.devRef .tc b) :=
  StableHlo.after_of_writes_sub hostOps0 _ hops_writes h

/-- An argument that is no array of either call reaches the end as launched. -/
theorem U3_bypass (c : Dev nD) (b : Ref sig .tc) (h1 : ∀ w, Pipeline.arrRef spec1 w ≠ b) (h0 : ∀ w, Pipeline.arrRef spec0 w ≠ b)
    (hh : b ∉ hops_W) : U3 m ρ c (Proc.devRef .tc b) = m ((c : Thread nD τ).loc b) :=
  (U3_of_ne m ρ c b h1).trans ((U2_of_ne m ρ c b h0).trans ((U1_of m ρ c b hh).trans rfl))

theorem U3_main_arg0 (c : Dev nD) : U3 m ρ c (Proc.devRef .tc main_arg0) = m ((c : Thread nD τ).loc main_arg0) :=
  calc U3 m ρ c (Proc.devRef .tc main_arg0)
    _ = U2 m ρ c (Proc.devRef .tc main_arg0) := U3_of_ne m ρ c main_arg0 (by decide)
    _ = U1 m ρ c (Proc.devRef .tc main_arg0) := (U2_arr m ρ c 0).trans (((dat0 (E1 m ρ) c).arrAt_in 0 rfl _).trans (A_eq0 (E1 m ρ) c 0))
    _ = U0 m ρ c (Proc.devRef .tc main_arg0) := U1_of m ρ c main_arg0 (by decide)
    _ = m ((c : Thread nD τ).loc main_arg0) := rfl
theorem U3_main_arg1 (c : Dev nD) : U3 m ρ c (Proc.devRef .tc main_arg1) = m ((c : Thread nD τ).loc main_arg1) :=
  U3_bypass m ρ c main_arg1 (by decide) (by decide) (by decide)
theorem U3_main_arg2 (c : Dev nD) : U3 m ρ c (Proc.devRef .tc main_arg2) = m ((c : Thread nD τ).loc main_arg2) :=
  U3_bypass m ρ c main_arg2 (by decide) (by decide) (by decide)
theorem U3_main_arg3 (c : Dev nD) : U3 m ρ c (Proc.devRef .tc main_arg3) = m ((c : Thread nD τ).loc main_arg3) :=
  U3_bypass m ρ c main_arg3 (by decide) (by decide) (by decide)
theorem U3_main_arg4 (c : Dev nD) : U3 m ρ c (Proc.devRef .tc main_arg4) = m ((c : Thread nD τ).loc main_arg4) :=
  U3_bypass m ρ c main_arg4 (by decide) (by decide) (by decide)
theorem U3_main_arg5 (c : Dev nD) : U3 m ρ c (Proc.devRef .tc main_arg5) = m ((c : Thread nD τ).loc main_arg5) :=
  U3_bypass m ρ c main_arg5 (by decide) (by decide) (by decide)
theorem U3_main_arg6 (c : Dev nD) : U3 m ρ c (Proc.devRef .tc main_arg6) = m ((c : Thread nD τ).loc main_arg6) :=
  U3_bypass m ρ c main_arg6 (by decide) (by decide) (by decide)
/-- The result array ends at what the attention call's write-backs leave. -/
theorem U3_main_v4 (c : Dev nD) : U3 m ρ c (Proc.devRef .tc main_v4) = (dat1 (E2 m ρ) c).arrAt 3 cfg1.N :=
  U3_arr m ρ c 3

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (U3 m ρ c) ∗ ∃ r, prngReg c r)

/-! ## The calls as segments -/

set_option backward.isDefEq.respectTransparency.types false in
/-- The projection call over the thread state: entered from every unscoped buffer at `U1`, left at `U2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The generator register and the scoped rest make the attention call's invariant before its first point, -/
theorem phiA_in (c : Dev nD) :
    (iprop((∃ r, prngReg c r) ∗ Pipeline.prefHeld (pcfgs (F := F) 1).pre c (fun _ => fullShare) (adm (F := F) 1).1
      ∗ Pipeline.scopedRest (Ix := Unit) (Name := ℕ) (U := UR sig nD τ) (Lvl := ℕ) (Val := Elt F) spec1 c) : sProp 𝕄) ⊢ Pipeline.ΦA spec1 c := by
  unfold Pipeline.ΦA
  iintro ⟨Hp, -, Hr⟩
  isplitl [Hr]; · iexact Hr
  iexact Hp
/-- and the invariant after its last point gives them back. -/
theorem phiA_out (c : Dev nD) :
    (Pipeline.ΦA spec1 c : sProp 𝕄) ⊢ iprop((∃ r, prngReg c r) ∗ BI.emp
      ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

set_option backward.isDefEq.respectTransparency.types false in
/-- The attention call over the thread state: entered from every unscoped buffer at `U2`, left at `U3`. Its invariant
    takes the scoped rest and the generator register in at the first point and gives them back after the last. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (U2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (phiA_in c).trans (hin1 (E2 m ρ) c)
  hout c := by
    rw [Pipeline.ownSems0_none]
    exact (hout1 (E2 m ρ) c).trans (phiA_out c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hops_fresh (U0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds every unscoped buffer of every core at the last contents `U3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m ρ c b)
    (hfin := fun c s' => by
      iintro ⟨⟨Hh, -⟩, HSI⟩
      unfold StableHlo.held
      imodintro
      iapply (pointsTo_read_all (Pipeline.ucRefs τ sig) (fun b => (((c : Thread nD τ)).1, b)) (U3 m ρ c) s')
      isplitl [Hh] <;> iassumption)
    (hQ := fun s h c => h c)

/-- THE FRAME at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (U3_main_arg0 m ρ c),
     (h c _ (mem_uc main_arg1 (by decide))).trans (U3_main_arg1 m ρ c),
     (h c _ (mem_uc main_arg2 (by decide))).trans (U3_main_arg2 m ρ c),
     (h c _ (mem_uc main_arg3 (by decide))).trans (U3_main_arg3 m ρ c),
     (h c _ (mem_uc main_arg4 (by decide))).trans (U3_main_arg4 m ρ c),
     (h c _ (mem_uc main_arg5 (by decide))).trans (U3_main_arg5 m ρ c),
     (h c _ (mem_uc main_arg6 (by decide))).trans (U3_main_arg6 m ρ c)⟩) (run_all m ρ)

/-- THE VALUE RUN at any `F`: the result array ends at what the attention call's write-backs leave, every argument as launched. -/
theorem run_value : θ_run defs (onTc (τ := τ) (main (F := F))) ⟨m, fun _ => 0, ρ⟩ (fun r => ∀ c : Dev nD,
      r.2.mem ((c.tc : Thread nD τ).loc main_v4) = (dat1 (E2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (U3_main_v4 m ρ c),
     (h c _ (mem_uc main_arg0 (by decide))).trans (U3_main_arg0 m ρ c),
     (h c _ (mem_uc main_arg1 (by decide))).trans (U3_main_arg1 m ρ c),
     (h c _ (mem_uc main_arg2 (by decide))).trans (U3_main_arg2 m ρ c),
     (h c _ (mem_uc main_arg3 (by decide))).trans (U3_main_arg3 m ρ c),
     (h c _ (mem_uc main_arg4 (by decide))).trans (U3_main_arg4 m ρ c),
     (h c _ (mem_uc main_arg5 (by decide))).trans (U3_main_arg5 m ρ c),
     (h c _ (mem_uc main_arg6 (by decide))).trans (U3_main_arg6 m ρ c)⟩) (run_all m ρ)

end Cert.KernelIdeal.Hand

end
-- ==== Proof.LibNary3.lean ====
/-
  Two general facts about a straight line of host operations: two stretches run one after the other are their
  concatenation run as one; and a host operation with THREE operands given as a literal family (a concatenation of
  three arrays) leaves, at its result, its function of the three operands' contents, each read at its own reference.
-/
import Idealize.ShloMosaic.Lib.StableHlo.Run

noncomputable section

namespace Cert.Nary3

open Idealize.ShloMosaic Idealize.ShloMosaic.StableHlo

variable {τ : Topo} {sig : RefSig} {Val : EltTy → Type} {x a b y : Ref sig .tc}

/-- Two stretches of operations run one after the other. -/
theorem after_append (A B : List (HloOp τ sig Val)) (V : Valuation τ sig Val) :
    StableHlo.after (A ++ B) V = StableHlo.after B (StableHlo.after A V) := by
  induction A generalizing V with
  | nil => rfl
  | cons op A ih => exact ih _

/-- A three-operand operation leaves, at its result, its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.Nary3

end
-- ==== Proof.LibSageLayer.lean ====
/-
  One layer of a graph network with mean aggregation, over the extended reals: the pieces its two spellings share.

  The layer's entry (p, q) is  max( x(p,·)·ws(·,q) + bs(q) + nei(p,·)·wn(·,q) + bn(q), 0 ).
  One spelling forms the two products separately and adds the biases one at a time. The other lays x and nei side by
  side along the columns, stacks ws on wn along the rows, forms ONE product over the doubled axis and adds bs + bn.

  * `entry_eq`: the two spellings agree. A sum over an axis of length K + K is the sum over its first K positions plus
    the sum over its last K; the rest is commutativity and associativity of addition, which hold on all extended reals
    (no entry need be finite).
  * `cat_cols_left` / `cat_cols_right`, `cat_rows_left` / `cat_rows_right`: a two-piece concatenation of matrices read at
    an entry of either piece, along the columns and along the rows.
  * `dotGeneral_rows_cols`: a host matrix product [A, K] · [K, B] read at (p, q) is ∑ k, L(p,k) · R(k,q), for any
    dimension record whose index facts are supplied.
-/
import Idealize.ShloMosaic.Lib.ValueIdx
import Idealize.ShloMosaic.Lib.Pipeline.Value
import Idealize.ShloMosaic.PureOps.Ideal.Laws

noncomputable section

namespace Cert.SageLayer

open Idealize.ShloMosaic Idealize.ShloMosaic.ValueIdx

/-- The concatenated spelling of one entry equals the separate one. `cr` is a row of the side-by-side matrix (its
    first K entries the row `xr` of x, its last K the row `nr` of nei), `wq` a column of the stacked weights (first K
    entries the column `wsq` of ws, last K the column `wnq` of wn). -/
theorem entry_eq {K K2 : ℕ} (hK : K2 = K + K) (cr wq : Fin K2 → EReal) (xr nr wsq wnq : Fin K → EReal)
    (hcl : ∀ k : Fin K, cr ⟨k.val, by omega⟩ = xr k) (hcr : ∀ k : Fin K, cr ⟨K + k.val, by omega⟩ = nr k)
    (hwl : ∀ k : Fin K, wq ⟨k.val, by omega⟩ = wsq k) (hwr : ∀ k : Fin K, wq ⟨K + k.val, by omega⟩ = wnq k)
    (bs bn : EReal) :
    max ((∑ k, cr k * wq k) + (bs + bn)) 0
      = max ((((∑ k, xr k * wsq k) + bs) + ∑ k, nr k * wnq k) + bn) 0 := by
  subst hK
  -- the doubled axis splits into its two halves
  rw [Fin.sum_univ_add]
  have h1 : ∀ k : Fin K, cr (Fin.castAdd K k) * wq (Fin.castAdd K k) = xr k * wsq k := fun k => by
    rw [← hcl k, ← hwl k]; rfl
  have h2 : ∀ k : Fin K, cr (Fin.natAdd K k) * wq (Fin.natAdd K k) = nr k * wnq k := fun k => by
    rw [← hcr k, ← hwr k]; rfl
  simp only [h1, h2]
  -- (a + b) + (s + n) = ((a + s) + b) + n
  rw [add_add_add_comm, ← add_assoc]

/-- Row `r` of two [A, K] matrices laid side by side, as a function of the column: the first matrix's row on the first
    K columns, the second's on the next K. -/
def catRow {A K K2 : ℕ} (X NEI : (⟨2, ![A, K]⟩ : Shape).Idx → EReal) (r : Fin A) (k : Fin K2) : EReal :=
  if h : k.val < K then X (ix2 r ⟨k.val, h⟩) else if h2 : k.val - K < K then NEI (ix2 r ⟨k.val - K, h2⟩) else 0

theorem catRow_left {A K K2 : ℕ} (X NEI : (⟨2, ![A, K]⟩ : Shape).Idx → EReal) (r : Fin A) (k : Fin K) (hk : k.val < K2) :
    catRow X NEI r (⟨k.val, hk⟩ : Fin K2) = X (ix2 r k) := by
  unfold catRow; rw [dif_pos k.isLt]

theorem catRow_right {A K K2 : ℕ} (X NEI : (⟨2, ![A, K]⟩ : Shape).Idx → EReal) (r : Fin A) (k : Fin K) (hk : K + k.val < K2) :
    catRow X NEI r (⟨K + k.val, hk⟩ : Fin K2) = NEI (ix2 r k) := by
  unfold catRow
  have h1 : ¬ (K + k.val < K) := by omega
  have h2 : K + k.val - K < K := by have := k.isLt; omega
  rw [dif_neg h1, dif_pos h2]
  exact congrArg (fun z => NEI (ix2 r z)) (Fin.ext (by show K + k.val - K = k.val; omega))

/-- Entry (p, q) of the layer in its concatenated spelling: the side-by-side row p against column q of a [K2, M]
    matrix, plus entry q of a bias vector, and the maximum of that with zero. -/
def denseEntry {A K K2 M : ℕ} (X NEI : (⟨2, ![A, K]⟩ : Shape).Idx → EReal) (W : (⟨2, ![K2, M]⟩ : Shape).Idx → EReal)
    (B : (⟨1, ![M]⟩ : Shape).Idx → EReal) (p : Fin A) (q : Fin M) : EReal :=
  max ((∑ k : Fin K2, catRow X NEI p k * W (ix2 k q)) + B (ix1 q)) 0

/-- The layer in its concatenated spelling, as one function of whole arrays. -/
def dense {A K K2 M : ℕ} (X NEI : (⟨2, ![A, K]⟩ : Shape).Idx → EReal) (W : (⟨2, ![K2, M]⟩ : Shape).Idx → EReal)
    (B : (⟨1, ![M]⟩ : Shape).Idx → EReal) : (⟨2, ![A, M]⟩ : Shape).Idx → EReal :=
  fun i => denseEntry X NEI W B (i 0) (i 1)

/-- An entry depends only on row p of the two feature matrices, column q of the weights and entry q of the bias: two
    settings that agree on those (possibly at different row and column numbers, as a block and the array it is cut
    from do) have the same entry. -/
theorem denseEntry_congr {A A' K K2 M M' : ℕ}
    (X NEI : (⟨2, ![A, K]⟩ : Shape).Idx → EReal) (W : (⟨2, ![K2, M]⟩ : Shape).Idx → EReal) (B : (⟨1, ![M]⟩ : Shape).Idx → EReal)
    (X' NEI' : (⟨2, ![A', K]⟩ : Shape).Idx → EReal) (W' : (⟨2, ![K2, M']⟩ : Shape).Idx → EReal) (B' : (⟨1, ![M']⟩ : Shape).Idx → EReal)
    (p : Fin A) (q : Fin M) (p' : Fin A') (q' : Fin M')
    (hX : ∀ k : Fin K, X (ix2 p k) = X' (ix2 p' k)) (hN : ∀ k : Fin K, NEI (ix2 p k) = NEI' (ix2 p' k))
    (hW : ∀ k : Fin K2, W (ix2 k q) = W' (ix2 k q')) (hB : B (ix1 q) = B' (ix1 q')) :
    denseEntry X NEI W B p q = denseEntry X' NEI' W' B' p' q' := by
  unfold denseEntry
  rw [hB]
  refine congrArg (fun s => max (s + B' (ix1 q')) 0) (Finset.sum_congr rfl fun k _ => ?_)
  rw [hW k]
  refine congrArg (· * W' (ix2 k q')) ?_
  unfold catRow
  split
  · exact hX _
  · split
    · exact hN _
    · rfl

variable {α : Type}

/-- Two [A, K] matrices side by side: a column below K reads the first. -/
theorem cat_cols_left {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : k.val < K2) :
    concatenate ⟨2, ![A, K2]⟩ (1 : Fin 2) [⟨⟨2, ![A, K]⟩, x₁⟩, ⟨⟨2, ![A, K]⟩, x₂⟩] h (ix2 p ⟨k.val, hk⟩) = x₁ (ix2 p k) :=
  concatenate_pair_apply_left (t := ⟨2, ![A, K2]⟩) (1 : Fin 2) x₁ x₂ h (ix2 p ⟨k.val, hk⟩) rfl (ix2 p k) fun b => by
    match b with
    | ⟨0, _⟩ => rfl
    | ⟨1, _⟩ => rfl

/-- Two [A, K] matrices side by side: column K + k reads the second at column k. -/
theorem cat_cols_right {A K K2 : ℕ} (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K)
    (hk : K + k.val < K2) :
    concatenate ⟨2, ![A, K2]⟩ (1 : Fin 2) [⟨⟨2, ![A, K]⟩, x₁⟩, ⟨⟨2, ![A, K]⟩, x₂⟩] h (ix2 p ⟨K + k.val, hk⟩) = x₂ (ix2 p k) :=
  concatenate_pair_apply_right (t := ⟨2, ![A, K2]⟩) (1 : Fin 2) x₁ x₂ h (ix2 p ⟨K + k.val, hk⟩) rfl rfl (ix2 p k)
    (fun b hb => by
      match b with
      | ⟨0, _⟩ => rfl
      | ⟨1, _⟩ => exact absurd rfl hb)
    (by show k.val + K = K + k.val; omega)

/-- Two [K, M] matrices one above the other: a row below K reads the first. -/
theorem cat_rows_left {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : k.val < K2) :
    concatenate ⟨2, ![K2, M]⟩ (0 : Fin 2) [⟨⟨2, ![K, M]⟩, x₁⟩, ⟨⟨2, ![K, M]⟩, x₂⟩] h (ix2 ⟨k.val, hk⟩ q) = x₁ (ix2 k q) :=
  concatenate_pair_apply_left (t := ⟨2, ![K2, M]⟩) (0 : Fin 2) x₁ x₂ h (ix2 ⟨k.val, hk⟩ q) rfl (ix2 k q) fun b => by
    match b with
    | ⟨0, _⟩ => rfl
    | ⟨1, _⟩ => rfl

/-- Two [K, M] matrices one above the other: row K + k reads the second at row k. -/
theorem cat_rows_right {K K2 M : ℕ} (x₁ x₂ : (⟨2, ![K, M]⟩ : Shape).Idx → α)
    (h : Shape.Concatenates [(⟨2, ![K, M]⟩ : Shape), ⟨2, ![K, M]⟩] ⟨2, ![K2, M]⟩ (0 : Fin 2)) (k : Fin K) (q : Fin M)
    (hk : K + k.val < K2) :
    concatenate ⟨2, ![K2, M]⟩ (0 : Fin 2) [⟨⟨2, ![K, M]⟩, x₁⟩, ⟨⟨2, ![K, M]⟩, x₂⟩] h (ix2 ⟨K + k.val, hk⟩ q) = x₂ (ix2 k q) :=
  concatenate_pair_apply_right (t := ⟨2, ![K2, M]⟩) (0 : Fin 2) x₁ x₂ h (ix2 ⟨K + k.val, hk⟩ q) rfl rfl (ix2 k q)
    (fun b hb => by
      match b with
      | ⟨0, _⟩ => exact absurd rfl hb
      | ⟨1, _⟩ => rfl)
    (by show k.val + K = K + k.val; omega)

/-- A concatenation of two [A, K] matrices along the columns, read at (p, k), is the side-by-side row. -/
theorem cat_cols_eq_catRow {A K K2 : ℕ} (hK : K2 = K + K) (x₁ x₂ : (⟨2, ![A, K]⟩ : Shape).Idx → EReal)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k) = catRow x₁ x₂ p k := by
  by_cases hk : k.val < K
  · have e : k = ⟨(⟨k.val, hk⟩ : Fin K).val, k.isLt⟩ := rfl
    rw [e, cat_cols_left x₁ x₂ h p ⟨k.val, hk⟩ k.isLt, catRow_left x₁ x₂ p ⟨k.val, hk⟩ k.isLt]
  · have hk2 : k.val - K < K := by have := k.isLt; omega
    have hlt : K + (⟨k.val - K, hk2⟩ : Fin K).val < K2 := by show K + (k.val - K) < K2; have := k.isLt; omega
    have e : k = ⟨K + (⟨k.val - K, hk2⟩ : Fin K).val, hlt⟩ := Fin.ext (by show k.val = K + (k.val - K); omega)
    rw [e, cat_cols_right x₁ x₂ h p ⟨k.val - K, hk2⟩ hlt, catRow_right x₁ x₂ p ⟨k.val - K, hk2⟩ hlt]

/-- A host matrix product read at (p, q): the sum over the contracted axis of the left operand's row p times the
    right operand's column q. -/
theorem dotGeneral_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    Host.dotGeneral d prec L R (ix2 p q) = ∑ k : Fin K, L (ix2 p k) * R (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.SageLayer

end
-- ==== Proof.LibCatCols.lean ====
/-
  Matrices joined along their columns, read at an entry, and sums over the joined axis.

  Two or three [A, K] matrices side by side form an [A, 2K] or [A, 3K] matrix whose entry (p, k) is the first
  matrix's (p, k) for k < K, the second's (p, k - K) for K ≤ k < 2K, the third's (p, k - 2K) beyond. A sum over the
  joined axis is therefore the sum of the pieces' sums.
-/
import Idealize.ShloMosaic.Lib.ValueIdx
import Idealize.ShloMosaic.Lib.Pipeline.Value
import proofs.«146679_j72584947302555_2_alg».proof.Proof.LibSageLayer

noncomputable section

namespace Cert.CatCols

open Idealize.ShloMosaic Idealize.ShloMosaic.ValueIdx

variable {α : Type}

/-- Two matrices side by side, at column k: the first below K, the second at k - K from K on. -/
theorem cat2_apply {A K K2 : ℕ} (hK : K2 = K + K) (x₁ x₂ : (⟨2, ![A, K]⟩ : Shape).Idx → α)
    (h : Shape.Concatenates [(⟨2, ![A, K]⟩ : Shape), ⟨2, ![A, K]⟩] ⟨2, ![A, K2]⟩ (1 : Fin 2)) (p : Fin A) (k : Fin K2) :
    concatenate ⟨2, ![A, K2]⟩ (1 : Fin 2) [⟨⟨2, ![A, K]⟩, x₁⟩, ⟨⟨2, ![A, K]⟩, x₂⟩] h (ix2 p k)
      = if hk : k.val < K then x₁ (ix2 p ⟨k.val, hk⟩) else x₂ (ix2 p ⟨k.val - K, by omega⟩) := by
  by_cases hk : k.val < K
  · rw [dif_pos hk]
    exact Cert.SageLayer.cat_cols_left x₁ x₂ h p ⟨k.val, hk⟩ k.isLt
  · rw [dif_neg hk]
    have hlt : K + (k.val - K) < K2 := by omega
    have e : (⟨K + (k.val - K), hlt⟩ : Fin K2) = k := Fin.ext (by show K + (k.val - K) = k.val; omega)
    have := Cert.SageLayer.cat_cols_right x₁ x₂ h p ⟨k.val - K, by omega⟩ hlt
    rw [e] at this
    exact this

/-- Three matrices side by side, at column k. -/
theorem cat3_apply {A K K3 : ℕ} (hK : K3 = K + K + K) (x₁ x₂ x₃ : (⟨2, ![A, K]⟩ : Shape).Idx → α)
    (h : Shape.Concatenates [(⟨2, ![A, K]⟩ : Shape), ⟨2, ![A, K]⟩, ⟨2, ![A, K]⟩] ⟨2, ![A, K3]⟩ (1 : Fin 2)) (p : Fin A) (k : Fin K3) :
    concatenate ⟨2, ![A, K3]⟩ (1 : Fin 2) [⟨⟨2, ![A, K]⟩, x₁⟩, ⟨⟨2, ![A, K]⟩, x₂⟩, ⟨⟨2, ![A, K]⟩, x₃⟩] h (ix2 p k)
      = if hk : k.val < K then x₁ (ix2 p ⟨k.val, hk⟩)
        else if hk2 : k.val < K + K then x₂ (ix2 p ⟨k.val - K, by omega⟩)
        else x₃ (ix2 p ⟨k.val - (K + K), by omega⟩) := by
  by_cases hk : k.val < K
  · rw [dif_pos hk]
    refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 0 (by simp) ⟨2, ![A, K]⟩ x₁ rfl rfl 0 rfl
      (ix2 p ⟨k.val, hk⟩) (fun b hb => ?_) ?_
    · match b with
      | ⟨0, _⟩ => rfl
      | ⟨1, _⟩ => exact absurd rfl hb
    · show 0 + k.val = k.val; omega
  · rw [dif_neg hk]
    by_cases hk2 : k.val < K + K
    · rw [dif_pos hk2]
      refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 1 (by simp) ⟨2, ![A, K]⟩ x₂ rfl rfl K ?_
        (ix2 p ⟨k.val - K, by omega⟩) (fun b hb => ?_) ?_
      · simp
      · match b with
        | ⟨0, _⟩ => rfl
        | ⟨1, _⟩ => exact absurd rfl hb
      · show K + (k.val - K) = k.val; omega
    · rw [dif_neg hk2]
      refine concatenate_apply_piece (t := ⟨2, ![A, K3]⟩) (1 : Fin 2) [⟨⟨2, ![A, K]⟩, x₁⟩, ⟨⟨2, ![A, K]⟩, x₂⟩, ⟨⟨2, ![A, K]⟩, x₃⟩] h (ix2 p k) 2 (by simp) ⟨2, ![A, K]⟩ x₃ rfl rfl (K + K) ?_
        (ix2 p ⟨k.val - (K + K), by omega⟩) (fun b hb => ?_) ?_
      · simp
      · match b with
        | ⟨0, _⟩ => rfl
        | ⟨1, _⟩ => exact absurd rfl hb
      · show K + K + (k.val - (K + K)) = k.val; omega

/-- A sum over a doubled axis is the sum over its two halves. -/
theorem sum_two {M : Type} [AddCommMonoid M] {K K2 : ℕ} (hK : K2 = K + K) (f : Fin K2 → M) :
    ∑ k : Fin K2, f k = (∑ k : Fin K, f ⟨k.val, by omega⟩) + (∑ k : Fin K, f ⟨K + k.val, by omega⟩) := by
  subst hK
  exact Fin.sum_univ_add f

/-- A sum over a tripled axis is the sum over its three thirds. -/
theorem sum_three {M : Type} [AddCommMonoid M] {K K3 : ℕ} (hK : K3 = K + K + K) (f : Fin K3 → M) :
    ∑ k : Fin K3, f k
      = ((∑ k : Fin K, f ⟨k.val, by omega⟩) + (∑ k : Fin K, f ⟨K + k.val, by omega⟩)) + (∑ k : Fin K, f ⟨K + K + k.val, by omega⟩) := by
  subst hK
  rw [Fin.sum_univ_add f, Fin.sum_univ_add (fun i : Fin (K + K) => f (Fin.castAdd K i))]
  rfl

end Cert.CatCols

end
-- ==== Proof.Host0.lean ====
/- What the three host operations before the first call leave, from any contents `Vl` of the TensorCore's buffers:
   the three weight matrices joined along their columns into one [1024, 3072] matrix (`main_v0`), whose column
   `c + 1024·g` is column `c` of the g-th matrix; the three bias vectors joined into one of 3072 entries and re-laid
   as a single row (`main_v2`), whose entry `c + 1024·g` is entry `c` of the g-th vector; and the activations
   (`main_arg0`), which no operation writes. -/
import proofs.«146679_j72584947302555_2_alg».proof.Proof.Gen.KernelIdeal.Launch
import proofs.«146679_j72584947302555_2_alg».proof.Proof.Gen.KernelIdeal.Regions
import proofs.«146679_j72584947302555_2_alg».proof.Proof.LibNary3
import proofs.«146679_j72584947302555_2_alg».proof.Proof.LibCatCols
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.ValueIdx Idealize.ShloMosaic.StableHlo

/-- Three vectors of `K` entries joined end to end, at entry `k`: the first below `K`, the second at `k - K` below
    `2K`, the third at `k - 2K` beyond. -/
theorem cat3_vec_apply {α : Type} {K K3 : ℕ} (hK : K3 = K + K + K) (x₁ x₂ x₃ : (⟨1, ![K]⟩ : Shape).Idx → α)
    (h : Shape.Concatenates [(⟨1, ![K]⟩ : Shape), ⟨1, ![K]⟩, ⟨1, ![K]⟩] ⟨1, ![K3]⟩ (0 : Fin 1)) (k : Fin K3) :
    concatenate ⟨1, ![K3]⟩ (0 : Fin 1) [⟨⟨1, ![K]⟩, x₁⟩, ⟨⟨1, ![K]⟩, x₂⟩, ⟨⟨1, ![K]⟩, x₃⟩] h (ix1 k)
      = if hk : k.val < K then x₁ (ix1 ⟨k.val, hk⟩)
        else if hk2 : k.val < K + K then x₂ (ix1 ⟨k.val - K, by omega⟩)
        else x₃ (ix1 ⟨k.val - (K + K), by omega⟩) := by
  by_cases hk : k.val < K
  · rw [dif_pos hk]
    refine concatenate_apply_piece (t := ⟨1, ![K3]⟩) (0 : Fin 1) [⟨⟨1, ![K]⟩, x₁⟩, ⟨⟨1, ![K]⟩, x₂⟩, ⟨⟨1, ![K]⟩, x₃⟩] h (ix1 k) 0 (by simp) ⟨1, ![K]⟩ x₁ rfl rfl 0 rfl
      (ix1 ⟨k.val, hk⟩) (fun b hb => ?_) ?_
    · match b with
      | ⟨0, _⟩ => exact absurd rfl hb
    · show 0 + k.val = k.val; omega
  · rw [dif_neg hk]
    by_cases hk2 : k.val < K + K
    · rw [dif_pos hk2]
      refine concatenate_apply_piece (t := ⟨1, ![K3]⟩) (0 : Fin 1) [⟨⟨1, ![K]⟩, x₁⟩, ⟨⟨1, ![K]⟩, x₂⟩, ⟨⟨1, ![K]⟩, x₃⟩] h (ix1 k) 1 (by simp) ⟨1, ![K]⟩ x₂ rfl rfl K ?_
        (ix1 ⟨k.val - K, by omega⟩) (fun b hb => ?_) ?_
      · simp
      · match b with
        | ⟨0, _⟩ => exact absurd rfl hb
      · show K + (k.val - K) = k.val; omega
    · rw [dif_neg hk2]
      refine concatenate_apply_piece (t := ⟨1, ![K3]⟩) (0 : Fin 1) [⟨⟨1, ![K]⟩, x₁⟩, ⟨⟨1, ![K]⟩, x₂⟩, ⟨⟨1, ![K]⟩, x₃⟩] h (ix1 k) 2 (by simp) ⟨1, ![K]⟩ x₃ rfl rfl (K + K) ?_
        (ix1 ⟨k.val - (K + K), by omega⟩) (fun b hb => ?_) ?_
      · simp
      · match b with
        | ⟨0, _⟩ => exact absurd rfl hb
      · show K + K + (k.val - (K + K)) = k.val; omega

variable (Vl : Valuation τ sig (Elt Ideal))

/-! ## The joined weights -/

/-- After the host operations `main_v0` holds the three weight matrices joined along their columns. -/
theorem after0_v0_eq :
    (StableHlo.after (hostOps0 (F := Ideal)) Vl (Proc.devRef .tc main_v0) : S1024x3072.Idx → EReal)
      = concatenate S1024x3072 1 [⟨S1024x1024, (Vl (Proc.devRef .tc main_arg1) : S1024x1024.Idx → EReal)⟩,
          ⟨S1024x1024, (Vl (Proc.devRef .tc main_arg2) : S1024x1024.Idx → EReal)⟩,
          ⟨S1024x1024, (Vl (Proc.devRef .tc main_arg3) : S1024x1024.Idx → EReal)⟩]
          concatenates_S1024x1024_S1024x1024_S1024x1024_S1024x3072_d1 := by
  dsimp only [hostOps0]
  simp only [after_cons, after_nil]
  repeat (first
    | rw [Cert.Nary3.nary3_result] | rw [reshape_result]
    | (rw [reshape_result_ne]; rotate_left; decide)
    | (rw [nary_result_ne]; rotate_left; decide))
  rfl

/-- Columns 0..1023 of the joined weights are the first matrix. -/
theorem after0_v0_Q (k cc : Fin 1024) :
    (StableHlo.after (hostOps0 (F := Ideal)) Vl (Proc.devRef .tc main_v0) : S1024x3072.Idx → EReal) (ix2 k (⟨cc.val, by omega⟩ : Fin 3072))
      = (Vl (Proc.devRef .tc main_arg1) : S1024x1024.Idx → EReal) (ix2 k cc) := by
  rw [after0_v0_eq]
  refine (Cert.CatCols.cat3_apply (A := 1024) (K := 1024) (K3 := 3072) rfl _ _ _ _ k _).trans ?_
  rw [dif_pos (show cc.val < 1024 from cc.isLt)]

/-- Columns 1024..2047 are the second matrix. -/
theorem after0_v0_K (k cc : Fin 1024) :
    (StableHlo.after (hostOps0 (F := Ideal)) Vl (Proc.devRef .tc main_v0) : S1024x3072.Idx → EReal) (ix2 k (⟨cc.val + 1024, by omega⟩ : Fin 3072))
      = (Vl (Proc.devRef .tc main_arg2) : S1024x1024.Idx → EReal) (ix2 k cc) := by
  rw [after0_v0_eq]
  refine (Cert.CatCols.cat3_apply (A := 1024) (K := 1024) (K3 := 3072) rfl _ _ _ _ k _).trans ?_
  rw [dif_neg (show ¬ cc.val + 1024 < 1024 by omega), dif_pos (show cc.val + 1024 < 1024 + 1024 by omega)]
  exact congrArg (fun z : Fin 1024 => (Vl (Proc.devRef .tc main_arg2) : S1024x1024.Idx → EReal) (ix2 k z)) (Fin.ext (by show cc.val + 1024 - 1024 = cc.val; omega))

/-- Columns 2048..3071 are the third matrix. -/
theorem after0_v0_V (k cc : Fin 1024) :
    (StableHlo.after (hostOps0 (F := Ideal)) Vl (Proc.devRef .tc main_v0) : S1024x3072.Idx → EReal) (ix2 k (⟨cc.val + 2048, by omega⟩ : Fin 3072))
      = (Vl (Proc.devRef .tc main_arg3) : S1024x1024.Idx → EReal) (ix2 k cc) := by
  rw [after0_v0_eq]
  refine (Cert.CatCols.cat3_apply (A := 1024) (K := 1024) (K3 := 3072) rfl _ _ _ _ k _).trans ?_
  rw [dif_neg (show ¬ cc.val + 2048 < 1024 by omega), dif_neg (show ¬ cc.val + 2048 < 1024 + 1024 by omega)]
  exact congrArg (fun z : Fin 1024 => (Vl (Proc.devRef .tc main_arg3) : S1024x1024.Idx → EReal) (ix2 k z)) (Fin.ext (by show cc.val + 2048 - (1024 + 1024) = cc.val; omega))

/-! ## The joined biases, as one row -/

/-- After the host operations `main_v2` holds the three bias vectors joined end to end, re-laid as one row. -/
theorem after0_v2_eq :
    (StableHlo.after (hostOps0 (F := Ideal)) Vl (Proc.devRef .tc main_v2) : S1x3072.Idx → EReal)
      = shapeCast S1x3072 (concatenate S3072 0 [⟨S1024, (Vl (Proc.devRef .tc main_arg4) : S1024.Idx → EReal)⟩,
          ⟨S1024, (Vl (Proc.devRef .tc main_arg5) : S1024.Idx → EReal)⟩,
          ⟨S1024, (Vl (Proc.devRef .tc main_arg6) : S1024.Idx → EReal)⟩]
          concatenates_S1024_S1024_S1024_S3072_d0) shapeCasts_S3072_S1x3072 := by
  dsimp only [hostOps0]
  simp only [after_cons, after_nil]
  repeat (first
    | rw [Cert.Nary3.nary3_result] | rw [reshape_result]
    | (rw [reshape_result_ne]; rotate_left; decide)
    | (rw [nary_result_ne]; rotate_left; decide))
  rfl

/-- Entries 0..1023 of the bias row are the first vector. -/
theorem after0_v2_Q (cc : Fin 1024) :
    (StableHlo.after (hostOps0 (F := Ideal)) Vl (Proc.devRef .tc main_v2) : S1x3072.Idx → EReal) (ix2 (0 : Fin 1) (⟨cc.val, by omega⟩ : Fin 3072))
      = (Vl (Proc.devRef .tc main_arg4) : S1024.Idx → EReal) (ix1 cc) := by
  rw [after0_v2_eq]
  refine (shapeCast_a_1a_apply (a := 3072) _ _ (0 : Fin 1) _).trans ?_
  refine (cat3_vec_apply (K := 1024) (K3 := 3072) rfl _ _ _ _ _).trans ?_
  rw [dif_pos (show cc.val < 1024 from cc.isLt)]

/-- Entries 1024..2047 are the second vector. -/
theorem after0_v2_K (cc : Fin 1024) :
    (StableHlo.after (hostOps0 (F := Ideal)) Vl (Proc.devRef .tc main_v2) : S1x3072.Idx → EReal) (ix2 (0 : Fin 1) (⟨cc.val + 1024, by omega⟩ : Fin 3072))
      = (Vl (Proc.devRef .tc main_arg5) : S1024.Idx → EReal) (ix1 cc) := by
  rw [after0_v2_eq]
  refine (shapeCast_a_1a_apply (a := 3072) _ _ (0 : Fin 1) _).trans ?_
  refine (cat3_vec_apply (K := 1024) (K3 := 3072) rfl _ _ _ _ _).trans ?_
  rw [dif_neg (show ¬ cc.val + 1024 < 1024 by omega), dif_pos (show cc.val + 1024 < 1024 + 1024 by omega)]
  exact congrArg (fun z : Fin 1024 => (Vl (Proc.devRef .tc main_arg5) : S1024.Idx → EReal) (ix1 z)) (Fin.ext (by show cc.val + 1024 - 1024 = cc.val; omega))

/-- Entries 2048..3071 are the third vector. -/
theorem after0_v2_V (cc : Fin 1024) :
    (StableHlo.after (hostOps0 (F := Ideal)) Vl (Proc.devRef .tc main_v2) : S1x3072.Idx → EReal) (ix2 (0 : Fin 1) (⟨cc.val + 2048, by omega⟩ : Fin 3072))
      = (Vl (Proc.devRef .tc main_arg6) : S1024.Idx → EReal) (ix1 cc) := by
  rw [after0_v2_eq]
  refine (shapeCast_a_1a_apply (a := 3072) _ _ (0 : Fin 1) _).trans ?_
  refine (cat3_vec_apply (K := 1024) (K3 := 3072) rfl _ _ _ _ _).trans ?_
  rw [dif_neg (show ¬ cc.val + 2048 < 1024 by omega), dif_neg (show ¬ cc.val + 2048 < 1024 + 1024 by omega)]
  exact congrArg (fun z : Fin 1024 => (Vl (Proc.devRef .tc main_arg6) : S1024.Idx → EReal) (ix1 z)) (Fin.ext (by show cc.val + 2048 - (1024 + 1024) = cc.val; omega))

/-! ## The activations -/

/-- No host operation writes the activations. -/
theorem after0_arg0 :
    StableHlo.after (hostOps0 (F := Ideal)) Vl (Proc.devRef .tc main_arg0) = Vl (Proc.devRef .tc main_arg0) :=
  StableHlo.after_of_writes_sub hostOps0 Vl hostOps0_writes (by decide)

end Cert.KernelIdeal.Hand

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.V0.lean ====
/- Region 0's three output arrays after the region, each as one function of the arrays the region finds: entry
   (r, c) of the Q array is row r of the activations times column c of the joined weights plus entry c of the bias row;
   the K and V arrays the same at columns c + 1024 and c + 2048. Format changes are the identity on the extended reals
   and the matrix unit's product into a zero accumulator is the plain sum over the contracted axis. -/
import proofs.«146679_j72584947302555_2_alg».proof.Proof.R0
import proofs.«146679_j72584947302555_2_alg».proof.Proof.LibDenseLayer
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

/-! ## The body's arithmetic at an entry -/

/-- The product's index maps: the left operand is read at (output row, contraction position), the right one at
    (contraction position, output column). -/
theorem dot0_l0 (j : S256x3072.Idx) (k : dot_S256x1024_S1024x3072_S256x3072_1_0_0_1_n_n.contr.Idx) :
    (dot_S256x1024_S1024x3072_S256x3072_1_0_0_1_n_n.lhsIdx j k 0).val = (j 0).val := by
  simp [DotDims.lhsIdx, dot_S256x1024_S1024x3072_S256x3072_1_0_0_1_n_n]; rfl
theorem dot0_l1 (j : S256x3072.Idx) (k : dot_S256x1024_S1024x3072_S256x3072_1_0_0_1_n_n.contr.Idx) :
    (dot_S256x1024_S1024x3072_S256x3072_1_0_0_1_n_n.lhsIdx j k 1).val = (k ⟨0, by decide⟩).val := by
  simp [DotDims.lhsIdx, dot_S256x1024_S1024x3072_S256x3072_1_0_0_1_n_n]; rfl
theorem dot0_r0 (j : S256x3072.Idx) (k : dot_S256x1024_S1024x3072_S256x3072_1_0_0_1_n_n.contr.Idx) :
    (dot_S256x1024_S1024x3072_S256x3072_1_0_0_1_n_n.rhsIdx j k 0).val = (k ⟨0, by decide⟩).val := by
  simp [DotDims.rhsIdx, dot_S256x1024_S1024x3072_S256x3072_1_0_0_1_n_n]; rfl
theorem dot0_r1 (j : S256x3072.Idx) (k : dot_S256x1024_S1024x3072_S256x3072_1_0_0_1_n_n.contr.Idx) :
    (dot_S256x1024_S1024x3072_S256x3072_1_0_0_1_n_n.rhsIdx j k 1).val = (j 1).val := by
  simp [DotDims.rhsIdx, dot_S256x1024_S1024x3072_S256x3072_1_0_0_1_n_n]; rfl

/-- The rounded `x·W + b` of a row tile, at (p, c): row p of the tile times column c of the weights, plus entry c of
    the bias row. -/
theorem k0_pay1_apply (x0 : Vec Ideal S256x1024 .f32) (x1 : Vec Ideal S1024x3072 .f32) (x2 : Vec Ideal S1x3072 .f32)
    (p : Fin 256) (c : Fin 3072) :
    k0_pay1 x0 x1 x2 (ix2 p c) = (∑ k : Fin 1024, x0 (ix2 p k) * x1 (ix2 k c)) + x2 (ix2 (0 : Fin 1) c) := by
  unfold k0_pay1
  rw [truncf_apply, addf_apply, shapeCast_self, shapeCast_self, broadcastTo_1b_ab_apply]
  refine congrArg (· + x2 (ix2 (0 : Fin 1) c)) ?_
  exact Cert.DenseLayer.matmul_rows_cols dot_S256x1024_S1024x3072_S256x3072_1_0_0_1_n_n rfl rfl
    dot0_l0 dot0_l1 dot0_r0 dot0_r1 none _ _ p c

/-- The columns of the joined weights (and entries of the bias row) that the three output arrays read. -/
abbrev colQ (cc : Fin 1024) : Fin 3072 := ⟨cc.val, by omega⟩
abbrev colK (cc : Fin 1024) : Fin 3072 := ⟨cc.val + 1024, by omega⟩
abbrev colV (cc : Fin 1024) : Fin 3072 := ⟨cc.val + 2048, by omega⟩

/-- The three slices of the rounded `x·W + b`: columns 0.., 1024.., 2048... -/
theorem k0_pay2_apply (x0 : Vec Ideal S256x1024 .f32) (x1 : Vec Ideal S1024x3072 .f32) (x2 : Vec Ideal S1x3072 .f32)
    (p : Fin 256) (q : Fin 1024) :
    k0_pay2 x0 x1 x2 (ix2 p q) = (∑ k : Fin 1024, x0 (ix2 p k) * x1 (ix2 k (colQ q))) + x2 (ix2 (0 : Fin 1) (colQ q)) := by
  unfold k0_pay2
  refine (slice2_axis1_apply (n0 := 256) (n1 := 3072) (m := 1024) 0 (k0_pay1 x0 x1 x2) slices_S256x3072_o0_0_S256x1024 p q (colQ q)
    (by show q.val = 0 + q.val; omega)).trans ?_
  exact k0_pay1_apply x0 x1 x2 p (colQ q)
theorem k0_pay3_apply (x0 : Vec Ideal S256x1024 .f32) (x1 : Vec Ideal S1024x3072 .f32) (x2 : Vec Ideal S1x3072 .f32)
    (p : Fin 256) (q : Fin 1024) :
    k0_pay3 x0 x1 x2 (ix2 p q) = (∑ k : Fin 1024, x0 (ix2 p k) * x1 (ix2 k (colK q))) + x2 (ix2 (0 : Fin 1) (colK q)) := by
  unfold k0_pay3
  refine (slice2_axis1_apply (n0 := 256) (n1 := 3072) (m := 1024) 1024 (k0_pay1 x0 x1 x2) slices_S256x3072_o0_1024_S256x1024 p q (colK q)
    (by show q.val + 1024 = 1024 + q.val; omega)).trans ?_
  exact k0_pay1_apply x0 x1 x2 p (colK q)
theorem k0_pay4_apply (x0 : Vec Ideal S256x1024 .f32) (x1 : Vec Ideal S1024x3072 .f32) (x2 : Vec Ideal S1x3072 .f32)
    (p : Fin 256) (q : Fin 1024) :
    k0_pay4 x0 x1 x2 (ix2 p q) = (∑ k : Fin 1024, x0 (ix2 p k) * x1 (ix2 k (colV q))) + x2 (ix2 (0 : Fin 1) (colV q)) := by
  unfold k0_pay4
  refine (slice2_axis1_apply (n0 := 256) (n1 := 3072) (m := 1024) 2048 (k0_pay1 x0 x1 x2) slices_S256x3072_o0_2048_S256x1024 p q (colV q)
    (by show q.val + 2048 = 2048 + q.val; omega)).trans ?_
  exact k0_pay1_apply x0 x1 x2 p (colV q)

/-! ## The whole-array function -/

/-- Entry (r, cc) of a projection: row r of the activations `a` times column `col cc` of the joined weights `w`, plus
    entry `col cc` of the bias row `b`. -/
def projAt (a : S4096x1024.Idx → EReal) (w : S1024x3072.Idx → EReal) (b : S1x3072.Idx → EReal) (col : Fin 1024 → Fin 3072)
    (r : Fin 4096) (cc : Fin 1024) : EReal :=
  (∑ k : Fin 1024, a (ix2 r k) * w (ix2 k (col cc))) + b (ix2 (0 : Fin 1) (col cc))

/-- `projAt` written out. -/
theorem projAt_def (a : S4096x1024.Idx → EReal) (w : S1024x3072.Idx → EReal) (b : S1x3072.Idx → EReal) (col : Fin 1024 → Fin 3072)
    (r : Fin 4096) (cc : Fin 1024) :
    projAt a w b col r cc = (∑ k : Fin 1024, a (ix2 r k) * w (ix2 k (col cc))) + b (ix2 (0 : Fin 1) (col cc)) := rfl

/-- The projection as a whole [4096, 1024] array. -/
def projArr (a : S4096x1024.Idx → EReal) (w : S1024x3072.Idx → EReal) (b : S1x3072.Idx → EReal) (col : Fin 1024 → Fin 3072) :
    S4096x1024.Idx → EReal := fun i => projAt a w b col (i 0) (i 1)

theorem projArr_apply (a : S4096x1024.Idx → EReal) (w : S1024x3072.Idx → EReal) (b : S1x3072.Idx → EReal) (col : Fin 1024 → Fin 3072)
    (r : Fin 4096) (cc : Fin 1024) : projArr a w b col (ix2 r cc) = projAt a w b col r cc := rfl

/-! ## The windows' blocks as parts of their arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` the activations' window and the three output windows
    are on row block `t`; the weights' and the bias row's windows stay on their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The activations' block at point `t` is rows 256·t … 256·t + 255 of the array. -/
theorem iblk0_0_apply (c : Dev nD) (t : Fin cfg0.N) (p : Fin 256) (k : Fin 1024) (r : Fin 4096) (hr : r.val = 256 * t.val + p.val) :
    (iblk0 V c 0 t : Vec Ideal S256x1024 .f32) (ix2 p k) = (V c main_arg0 : S4096x1024.Idx → EReal) (ix2 r k) := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 256 + 1 * p.val = r.val; rw [e0, hr]; omega
  | ⟨1, _⟩ => show win0_0.index t 1 * 1024 + 1 * k.val = k.val; rw [e1]; omega

/-- The joined weights' block is the whole array at every point. -/
theorem iblk0_1_apply (c : Dev nD) (t : Fin cfg0.N) (k : Fin 1024) (cc : Fin 3072) :
    (iblk0 V c 1 t : Vec Ideal S1024x3072 .f32) (ix2 k cc) = (V c main_v0 : S1024x3072.Idx → EReal) (ix2 k cc) := by
  obtain ⟨-, -, e0, e1, -⟩ := idx_facts0 t
  unfold iblk0
  rw [View.read_apply]
  show V c main_v0 _ = V c main_v0 _
  congr 1
  funext a
  apply Fin.ext
  match a with
  | ⟨0, _⟩ => show win0_1.index t 0 * 1024 + 1 * k.val = k.val; rw [e0]; omega
  | ⟨1, _⟩ => show win0_1.index t 1 * 3072 + 1 * cc.val = cc.val; rw [e1]; omega

/-- The bias row's block is the whole row at every point. -/
theorem iblk0_2_apply (c : Dev nD) (t : Fin cfg0.N) (u : Fin 1) (cc : Fin 3072) :
    (iblk0 V c 2 t : Vec Ideal S1x3072 .f32) (ix2 u cc) = (V c main_v2 : S1x3072.Idx → EReal) (ix2 u cc) := by
  obtain ⟨-, -, -, -, e0, e1, -⟩ := idx_facts0 t
  unfold iblk0
  rw [View.read_apply]
  show V c main_v2 _ = V c main_v2 _
  congr 1
  funext a
  apply Fin.ext
  match a with
  | ⟨0, _⟩ => show win0_2.index t 0 * 1 + 1 * u.val = u.val; rw [e0]; omega
  | ⟨1, _⟩ => show win0_2.index t 1 * 3072 + 1 * cc.val = cc.val; rw [e1]; omega

/-! ## Output window 3 -/

/-- What point `t` writes back to the Q array is block `t` of the projection at columns `colQ`. -/
theorem flushed0_3_eq (c : Dev nD) (t : Fin cfg0.N) :
    (dat0 V c).flushed 3 t = ((cfg0.win 3).blk t).view.read (Elt Ideal)
      (projArr (V c main_arg0) (V c main_v0) (V c main_v2) colQ) := by
  show (cfg0.win 3).cut (grid0.coords t) ((dat0 V c).after 3 t) = _
  rw [after0_3]
  unfold out0_3
  rw [View.canon_unit_zero hz]
  simp only [View.ld_unit_zero (S := S256x1024) hz, View.ld_unit_zero (S := S1024x3072) hz, View.ld_unit_zero (S := S1x3072) hz]
  funext j
  obtain ⟨p, q, rfl⟩ : ∃ (p : Fin 256) (q : Fin 1024), j = ix2 p q := ⟨j 0, j 1, eq_ix2 j⟩
  obtain ⟨-, -, -, -, -, -, e3a, e3b, e4a, e4b, e5a, e5b⟩ := idx_facts0 t
  have hN : cfg0.N = 16 := N_0
  have hr : 256 * t.val + p.val < 4096 := by have := t.isLt; omega
  show k0_pay2 (iblk0 V c 0 t) (iblk0 V c 1 t) (iblk0 V c 2 t) (ix2 p q)
    = projArr (V c main_arg0) (V c main_v0) (V c main_v2) colQ (((cfg0.win 3).blk t).view.emb (ix2 p q))
  have hemb : ((cfg0.win 3).blk t).view.emb (ix2 p q) = (ix2 (⟨256 * t.val + p.val, hr⟩ : Fin 4096) q : S4096x1024.Idx) := by
    funext a; apply Fin.ext
    match a with
    | ⟨0, _⟩ => show win0_3.index t 0 * 256 + 1 * p.val = 256 * t.val + p.val; rw [e3a]; omega
    | ⟨1, _⟩ => show win0_3.index t 1 * 1024 + 1 * q.val = q.val; rw [e3b]; omega
  rw [hemb, projArr_apply]
  refine (k0_pay2_apply (iblk0 V c 0 t) (iblk0 V c 1 t) (iblk0 V c 2 t) p q).trans ?_
  unfold projAt
  rw [iblk0_2_apply V c t (0 : Fin 1) (colQ q)]
  refine congrArg (· + (V c main_v2 : S1x3072.Idx → EReal) (ix2 (0 : Fin 1) (colQ q))) (Finset.sum_congr rfl fun k _ => ?_)
  rw [iblk0_0_apply V c t p k ⟨256 * t.val + p.val, hr⟩ rfl, iblk0_1_apply V c t k (colQ q)]

/-- An index of the Q array is in point `t`'s block iff each coordinate is in the block's range on its axis. -/
theorem mem_blk0_3 (t : Fin cfg0.N) (i : S4096x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v3_0).slice (win0_3.rect t)).set ↔ _
  rw [View.set_slice_whole, Rect.mem_set_unit]
  exact Iff.rfl

/-- Row `r` of the Q array lies in the block of point `r / 256`, which is written back. -/
theorem cover3 (i : S4096x1024.Idx) : ∃ t : Fin cfg0.N, (cfg0.win 3).flush t = true ∧ i ∈ ((cfg0.win 3).blk t).view.set := by
  have hN : cfg0.N = 16 := N_0
  have hi0 : (i 0).val < 4096 := (i 0).isLt
  have hi1 : (i 1).val < 1024 := (i 1).isLt
  refine ⟨⟨(i 0).val / 256, by rw [hN]; omega⟩, flush0_3 _, ?_⟩
  rw [mem_blk0_3]
  obtain ⟨-, -, -, -, -, -, e3a, e3b, e4a, e4b, e5a, e5b⟩ := idx_facts0 ⟨(i 0).val / 256, by rw [hN]; omega⟩
  intro a
  match a with
  | ⟨0, _⟩ => show win0_3.index _ (0 : Fin 2) * 256 ≤ (i 0).val ∧ (i 0).val < win0_3.index _ (0 : Fin 2) * 256 + 256; rw [e3a]; show (i 0).val / 256 * 256 ≤ (i 0).val ∧ (i 0).val < (i 0).val / 256 * 256 + 256; omega
  | ⟨1, _⟩ => show win0_3.index _ (1 : Fin 2) * 1024 ≤ (i 1).val ∧ (i 1).val < win0_3.index _ (1 : Fin 2) * 1024 + 1024; rw [e3b]; omega

/-- The Q array after the region: the projection at columns `colQ` of the arrays the region finds. -/
theorem final3 (c : Dev nD) :
    (dat0 V c).arrAt 3 cfg0.N = projArr (V c main_arg0) (V c main_v0) (V c main_v2) colQ :=
  (dat0 V c).arrAt_eq_of_cover 3 (projArr (V c main_arg0) (V c main_v0) (V c main_v2) colQ) (fun t _ => flushed0_3_eq V c t) cover3

/-- Entry (r, cc) of the Q array after the region: row r of the activations times column `colQ cc` of the joined
    weights, plus entry `colQ cc` of the bias row (`projAt`, which unfolds to that sum by `rfl`). -/
theorem Q_final (c : Dev nD) (r : Fin 4096) (cc : Fin 1024) :
    (dat0 V c).arrAt 3 cfg0.N (ix2 r cc) = projAt (V c main_arg0) (V c main_v0) (V c main_v2) colQ r cc := by
  rw [final3]; rfl

/-! ## Output window 4 -/

/-- What point `t` writes back to the K array is block `t` of the projection at columns `colK`. -/
theorem flushed0_4_eq (c : Dev nD) (t : Fin cfg0.N) :
    (dat0 V c).flushed 4 t = ((cfg0.win 4).blk t).view.read (Elt Ideal)
      (projArr (V c main_arg0) (V c main_v0) (V c main_v2) colK) := by
  show (cfg0.win 4).cut (grid0.coords t) ((dat0 V c).after 4 t) = _
  rw [after0_4]
  unfold out0_4
  rw [View.canon_unit_zero hz]
  simp only [View.ld_unit_zero (S := S256x1024) hz, View.ld_unit_zero (S := S1024x3072) hz, View.ld_unit_zero (S := S1x3072) hz]
  funext j
  obtain ⟨p, q, rfl⟩ : ∃ (p : Fin 256) (q : Fin 1024), j = ix2 p q := ⟨j 0, j 1, eq_ix2 j⟩
  obtain ⟨-, -, -, -, -, -, e3a, e3b, e4a, e4b, e5a, e5b⟩ := idx_facts0 t
  have hN : cfg0.N = 16 := N_0
  have hr : 256 * t.val + p.val < 4096 := by have := t.isLt; omega
  show k0_pay3 (iblk0 V c 0 t) (iblk0 V c 1 t) (iblk0 V c 2 t) (ix2 p q)
    = projArr (V c main_arg0) (V c main_v0) (V c main_v2) colK (((cfg0.win 4).blk t).view.emb (ix2 p q))
  have hemb : ((cfg0.win 4).blk t).view.emb (ix2 p q) = (ix2 (⟨256 * t.val + p.val, hr⟩ : Fin 4096) q : S4096x1024.Idx) := by
    funext a; apply Fin.ext
    match a with
    | ⟨0, _⟩ => show win0_4.index t 0 * 256 + 1 * p.val = 256 * t.val + p.val; rw [e4a]; omega
    | ⟨1, _⟩ => show win0_4.index t 1 * 1024 + 1 * q.val = q.val; rw [e4b]; omega
  rw [hemb, projArr_apply]
  refine (k0_pay3_apply (iblk0 V c 0 t) (iblk0 V c 1 t) (iblk0 V c 2 t) p q).trans ?_
  unfold projAt
  rw [iblk0_2_apply V c t (0 : Fin 1) (colK q)]
  refine congrArg (· + (V c main_v2 : S1x3072.Idx → EReal) (ix2 (0 : Fin 1) (colK q))) (Finset.sum_congr rfl fun k _ => ?_)
  rw [iblk0_0_apply V c t p k ⟨256 * t.val + p.val, hr⟩ rfl, iblk0_1_apply V c t k (colK q)]

/-- An index of the K array is in point `t`'s block iff each coordinate is in the block's range on its axis. -/
theorem mem_blk0_4 (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v3_1).slice (win0_4.rect t)).set ↔ _
  rw [View.set_slice_whole, Rect.mem_set_unit]
  exact Iff.rfl

/-- Row `r` of the K array lies in the block of point `r / 256`, which is written back. -/
theorem cover4 (i : S4096x1024.Idx) : ∃ t : Fin cfg0.N, (cfg0.win 4).flush t = true ∧ i ∈ ((cfg0.win 4).blk t).view.set := by
  have hN : cfg0.N = 16 := N_0
  have hi0 : (i 0).val < 4096 := (i 0).isLt
  have hi1 : (i 1).val < 1024 := (i 1).isLt
  refine ⟨⟨(i 0).val / 256, by rw [hN]; omega⟩, flush0_4 _, ?_⟩
  rw [mem_blk0_4]
  obtain ⟨-, -, -, -, -, -, e3a, e3b, e4a, e4b, e5a, e5b⟩ := idx_facts0 ⟨(i 0).val / 256, by rw [hN]; omega⟩
  intro a
  match a with
  | ⟨0, _⟩ => show win0_4.index _ (0 : Fin 2) * 256 ≤ (i 0).val ∧ (i 0).val < win0_4.index _ (0 : Fin 2) * 256 + 256; rw [e4a]; show (i 0).val / 256 * 256 ≤ (i 0).val ∧ (i 0).val < (i 0).val / 256 * 256 + 256; omega
  | ⟨1, _⟩ => show win0_4.index _ (1 : Fin 2) * 1024 ≤ (i 1).val ∧ (i 1).val < win0_4.index _ (1 : Fin 2) * 1024 + 1024; rw [e4b]; omega

/-- The K array after the region: the projection at columns `colK` of the arrays the region finds. -/
theorem final4 (c : Dev nD) :
    (dat0 V c).arrAt 4 cfg0.N = projArr (V c main_arg0) (V c main_v0) (V c main_v2) colK :=
  (dat0 V c).arrAt_eq_of_cover 4 (projArr (V c main_arg0) (V c main_v0) (V c main_v2) colK) (fun t _ => flushed0_4_eq V c t) cover4

/-- Entry (r, cc) of the K array after the region: row r of the activations times column `colK cc` of the joined
    weights, plus entry `colK cc` of the bias row (`projAt`, which unfolds to that sum by `rfl`). -/
theorem K_final (c : Dev nD) (r : Fin 4096) (cc : Fin 1024) :
    (dat0 V c).arrAt 4 cfg0.N (ix2 r cc) = projAt (V c main_arg0) (V c main_v0) (V c main_v2) colK r cc := by
  rw [final4]; rfl

/-! ## Output window 5 -/

/-- What point `t` writes back to the V array is block `t` of the projection at columns `colV`. -/
theorem flushed0_5_eq (c : Dev nD) (t : Fin cfg0.N) :
    (dat0 V c).flushed 5 t = ((cfg0.win 5).blk t).view.read (Elt Ideal)
      (projArr (V c main_arg0) (V c main_v0) (V c main_v2) colV) := by
  show (cfg0.win 5).cut (grid0.coords t) ((dat0 V c).after 5 t) = _
  rw [after0_5]
  unfold out0_5
  rw [View.canon_unit_zero hz]
  simp only [View.ld_unit_zero (S := S256x1024) hz, View.ld_unit_zero (S := S1024x3072) hz, View.ld_unit_zero (S := S1x3072) hz]
  funext j
  obtain ⟨p, q, rfl⟩ : ∃ (p : Fin 256) (q : Fin 1024), j = ix2 p q := ⟨j 0, j 1, eq_ix2 j⟩
  obtain ⟨-, -, -, -, -, -, e3a, e3b, e4a, e4b, e5a, e5b⟩ := idx_facts0 t
  have hN : cfg0.N = 16 := N_0
  have hr : 256 * t.val + p.val < 4096 := by have := t.isLt; omega
  show k0_pay4 (iblk0 V c 0 t) (iblk0 V c 1 t) (iblk0 V c 2 t) (ix2 p q)
    = projArr (V c main_arg0) (V c main_v0) (V c main_v2) colV (((cfg0.win 5).blk t).view.emb (ix2 p q))
  have hemb : ((cfg0.win 5).blk t).view.emb (ix2 p q) = (ix2 (⟨256 * t.val + p.val, hr⟩ : Fin 4096) q : S4096x1024.Idx) := by
    funext a; apply Fin.ext
    match a with
    | ⟨0, _⟩ => show win0_5.index t 0 * 256 + 1 * p.val = 256 * t.val + p.val; rw [e5a]; omega
    | ⟨1, _⟩ => show win0_5.index t 1 * 1024 + 1 * q.val = q.val; rw [e5b]; omega
  rw [hemb, projArr_apply]
  refine (k0_pay4_apply (iblk0 V c 0 t) (iblk0 V c 1 t) (iblk0 V c 2 t) p q).trans ?_
  unfold projAt
  rw [iblk0_2_apply V c t (0 : Fin 1) (colV q)]
  refine congrArg (· + (V c main_v2 : S1x3072.Idx → EReal) (ix2 (0 : Fin 1) (colV q))) (Finset.sum_congr rfl fun k _ => ?_)
  rw [iblk0_0_apply V c t p k ⟨256 * t.val + p.val, hr⟩ rfl, iblk0_1_apply V c t k (colV q)]

/-- An index of the V array is in point `t`'s block iff each coordinate is in the block's range on its axis. -/
theorem mem_blk0_5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v3_2).slice (win0_5.rect t)).set ↔ _
  rw [View.set_slice_whole, Rect.mem_set_unit]
  exact Iff.rfl

/-- Row `r` of the V array lies in the block of point `r / 256`, which is written back. -/
theorem cover5 (i : S4096x1024.Idx) : ∃ t : Fin cfg0.N, (cfg0.win 5).flush t = true ∧ i ∈ ((cfg0.win 5).blk t).view.set := by
  have hN : cfg0.N = 16 := N_0
  have hi0 : (i 0).val < 4096 := (i 0).isLt
  have hi1 : (i 1).val < 1024 := (i 1).isLt
  refine ⟨⟨(i 0).val / 256, by rw [hN]; omega⟩, flush0_5 _, ?_⟩
  rw [mem_blk0_5]
  obtain ⟨-, -, -, -, -, -, e3a, e3b, e4a, e4b, e5a, e5b⟩ := idx_facts0 ⟨(i 0).val / 256, by rw [hN]; omega⟩
  intro a
  match a with
  | ⟨0, _⟩ => show win0_5.index _ (0 : Fin 2) * 256 ≤ (i 0).val ∧ (i 0).val < win0_5.index _ (0 : Fin 2) * 256 + 256; rw [e5a]; show (i 0).val / 256 * 256 ≤ (i 0).val ∧ (i 0).val < (i 0).val / 256 * 256 + 256; omega
  | ⟨1, _⟩ => show win0_5.index _ (1 : Fin 2) * 1024 ≤ (i 1).val ∧ (i 1).val < win0_5.index _ (1 : Fin 2) * 1024 + 1024; rw [e5b]; omega

/-- The V array after the region: the projection at columns `colV` of the arrays the region finds. -/
theorem final5 (c : Dev nD) :
    (dat0 V c).arrAt 5 cfg0.N = projArr (V c main_arg0) (V c main_v0) (V c main_v2) colV :=
  (dat0 V c).arrAt_eq_of_cover 5 (projArr (V c main_arg0) (V c main_v0) (V c main_v2) colV) (fun t _ => flushed0_5_eq V c t) cover5

/-- Entry (r, cc) of the V array after the region: row r of the activations times column `colV cc` of the joined
    weights, plus entry `colV cc` of the bias row (`projAt`, which unfolds to that sum by `rfl`). -/
theorem V_final (c : Dev nD) (r : Fin 4096) (cc : Fin 1024) :
    (dat0 V c).arrAt 5 cfg0.N (ix2 r cc) = projAt (V c main_arg0) (V c main_v0) (V c main_v2) colV r cc := by
  rw [final5]; rfl

end Cert.KernelIdeal.Hand

end
-- ==== Proof.SpecArr.lean ====
/-
  The projections of single-head attention, entry by entry: row r of x against column c of a weight, plus the bias.
-/
import Idealize.ShloMosaic.PureOps.Ideal
import Idealize.ShloMosaic.Lib.ValueIdx

noncomputable section

namespace Cert.Attn

open Idealize.ShloMosaic Idealize.ShloMosaic.ValueIdx

/-- Entry (r, c) of x · W + b for x : [4096, 1024], W : [1024, 1024], b : [1024]. -/
def proj (x : (⟨2, ![4096, 1024]⟩ : Shape).Idx → EReal) (W : (⟨2, ![1024, 1024]⟩ : Shape).Idx → EReal)
    (b : (⟨1, ![1024]⟩ : Shape).Idx → EReal) (r : Fin 4096) (c : Fin 1024) : EReal :=
  (∑ k : Fin 1024, x (ix2 r k) * W (ix2 k c)) + b (ix1 c)

/-- The raw score of query row r against key row n: the dot product of the two projected rows. -/
def dotRow (Q K : Fin 4096 → Fin 1024 → EReal) (r n : Fin 4096) : EReal := ∑ c : Fin 1024, Q r c * K n c

/-- Key row `κ` of key block `j` (blocks of 512 rows) as a row of the whole array. -/
def col (j : Fin 8) (κ : Fin 512) : Fin 4096 := ⟨512 * j.val + κ.val, by have := j.isLt; have := κ.isLt; omega⟩

/-- Query row `ρ` of query tile `i` (tiles of 1024 rows) as a row of the whole array. -/
def row (i : Fin 4) (ρ : Fin 1024) : Fin 4096 := ⟨1024 * i.val + ρ.val, by have := i.isLt; have := ρ.isLt; omega⟩

end Cert.Attn

end
-- ==== Proof.A1Blocks.lean ====
/-
  The attention call's blocks as parts of its arrays: the query block of a point is the rows of its query tile, the key
  and value blocks the rows of its key block, each read off the array the region finds; and the output array after the
  call is any function whose query tiles are the quotients left at the last key block of each tile.
-/
import proofs.«146679_j72584947302555_2_alg».proof.Proof.R1
import proofs.«146679_j72584947302555_2_alg».proof.Proof.SpecArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The grid's points and the windows' block indices -/

/-- A point's query tile and key block are in range. -/
theorem tile_lt (t : Fin cfg1.N) : t.val / 8 < 4 := by
  have h : t.val < 32 := lt_of_lt_of_eq t.isLt N_1
  omega
theorem kblk_lt (t : Fin cfg1.N) : t.val % 8 < 8 := Nat.mod_lt _ (by decide)

/-- The printed index maps, decided over the grid: the query and output windows sit at the point's query tile, the key
    and value windows at its key block, all at column block 0. -/
theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = t.val / 8 ∧ win1_3.index t (1 : Fin 2) = 0 :=
  (by decide +kernel : ∀ t : Fin grid1.N, _)

/-! ## The input blocks, read off their arrays -/

/-- The query block: row `ρ` of the point's query tile. -/
theorem blk1_q (c : Dev nD) (t : Fin cfg1.N) (ρ cc : Fin 1024) :
    (iblk1 V c 0 t (ix2 ρ cc) : EReal) = (V c main_v3_0 : S4096x1024.Idx → EReal) (ix2 (Cert.Attn.row ⟨t.val / 8, tile_lt t⟩ ρ) cc) := by
  show (V c main_v3_0 : S4096x1024.Idx → EReal) (((cfg1.win 0).blk t).view.emb (ix2 ρ cc)) = _
  refine congrArg (V c main_v3_0 : S4096x1024.Idx → EReal) ?_
  obtain ⟨e0, e1, -⟩ := idx1 t
  funext a; apply Fin.ext
  match a with
  | ⟨0, _⟩ => show win1_0.index t (0 : Fin 2) * 1024 + 1 * ρ.val = 1024 * (t.val / 8) + ρ.val; omega
  | ⟨1, _⟩ => show win1_0.index t (1 : Fin 2) * 1024 + 1 * cc.val = cc.val; omega

/-- The key block: row `κ` of the point's key block. -/
theorem blk1_k (c : Dev nD) (t : Fin cfg1.N) (κ : Fin 512) (cc : Fin 1024) :
    (iblk1 V c 1 t (ix2 κ cc) : EReal) = (V c main_v3_1 : S4096x1024.Idx → EReal) (ix2 (Cert.Attn.col ⟨t.val % 8, kblk_lt t⟩ κ) cc) := by
  show (V c main_v3_1 : S4096x1024.Idx → EReal) (((cfg1.win 1).blk t).view.emb (ix2 κ cc)) = _
  refine congrArg (V c main_v3_1 : S4096x1024.Idx → EReal) ?_
  obtain ⟨-, -, e0, e1, -⟩ := idx1 t
  funext a; apply Fin.ext
  match a with
  | ⟨0, _⟩ => show win1_1.index t (0 : Fin 2) * 512 + 1 * κ.val = 512 * (t.val % 8) + κ.val; omega
  | ⟨1, _⟩ => show win1_1.index t (1 : Fin 2) * 1024 + 1 * cc.val = cc.val; omega

/-- The value block: row `κ` of the point's key block. -/
theorem blk1_v (c : Dev nD) (t : Fin cfg1.N) (κ : Fin 512) (d : Fin 1024) :
    (iblk1 V c 2 t (ix2 κ d) : EReal) = (V c main_v3_2 : S4096x1024.Idx → EReal) (ix2 (Cert.Attn.col ⟨t.val % 8, kblk_lt t⟩ κ) d) := by
  show (V c main_v3_2 : S4096x1024.Idx → EReal) (((cfg1.win 2).blk t).view.emb (ix2 κ d)) = _
  refine congrArg (V c main_v3_2 : S4096x1024.Idx → EReal) ?_
  obtain ⟨-, -, -, -, e0, e1, -⟩ := idx1 t
  funext a; apply Fin.ext
  match a with
  | ⟨0, _⟩ => show win1_2.index t (0 : Fin 2) * 512 + 1 * κ.val = 512 * (t.val % 8) + κ.val; omega
  | ⟨1, _⟩ => show win1_2.index t (1 : Fin 2) * 1024 + 1 * d.val = d.val; omega

/-! ## The output array after the call -/

/-- An index of the output array is in point `t`'s block iff each coordinate is in the block's range on its axis. -/
theorem mem_blk3 (t : Fin cfg1.N) (i : S4096x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v4).slice (win1_3.rect t)).set ↔ _
  rw [View.set_slice_whole, Rect.mem_set_unit]
  exact Iff.rfl

/-- What the last key block of a query tile writes back is that tile of `G`, when the quotients left there are. -/
theorem flushed3_eq (c : Dev nD) (G : S4096x1024.Idx → EReal)
    (hG : ∀ (t : Fin cfg1.N), t.val % 8 = 7 → ∀ (ρ d : Fin 1024),
      (fin1 (scAt V c t.val t.isLt) (ix2 ρ d) : EReal) = G (ix2 (Cert.Attn.row ⟨t.val / 8, tile_lt t⟩ ρ) d))
    (t : Fin cfg1.N) (h7 : t.val % 8 = 7) :
    (dat1 V c).flushed 3 t = ((cfg1.win 3).blk t).view.read (Elt Ideal) G := by
  show (cfg1.win 3).cut (grid1.coords t) ((dat1 V c).after 3 t) = _
  rw [after1_3]
  funext j
  obtain ⟨ρ, d, rfl⟩ : ∃ (ρ d : Fin 1024), j = ix2 ρ d := ⟨j 0, j 1, eq_ix2 j⟩
  show (fin1 (scAt V c t.val t.isLt) (ix2 ρ d) : EReal) = G (((cfg1.win 3).blk t).view.emb (ix2 ρ d))
  rw [hG t h7 ρ d]
  refine congrArg G ?_
  obtain ⟨-, -, -, -, -, -, e0, e1⟩ := idx1 t
  funext a; apply Fin.ext
  match a with
  | ⟨0, _⟩ => show 1024 * (t.val / 8) + ρ.val = win1_3.index t (0 : Fin 2) * 1024 + 1 * ρ.val; omega
  | ⟨1, _⟩ => show d.val = win1_3.index t (1 : Fin 2) * 1024 + 1 * d.val; omega

/-- The output array after the call: its query tiles are written back once each, at the last key block of the tile, and
    together they cover it. -/
theorem arrAt3_eq (c : Dev nD) (G : S4096x1024.Idx → EReal)
    (hG : ∀ (t : Fin cfg1.N), t.val % 8 = 7 → ∀ (ρ d : Fin 1024),
      (fin1 (scAt V c t.val t.isLt) (ix2 ρ d) : EReal) = G (ix2 (Cert.Attn.row ⟨t.val / 8, tile_lt t⟩ ρ) d)) :
    (dat1 V c).arrAt 3 cfg1.N = G :=
  (dat1 V c).arrAt_eq_of_cover 3 G (fun t hf => flushed3_eq V c G hG t ((flush1_3 t).mp hf)) fun i => by
    have hi0 : (i 0).val < 4096 := (i 0).isLt
    have hi1 : (i 1).val < 1024 := (i 1).isLt
    have hN : cfg1.N = 32 := N_1
    refine ⟨⟨8 * ((i 0).val / 1024) + 7, by omega⟩, (flush1_3 _).mpr (by dsimp only; omega), ?_⟩
    rw [mem_blk3]
    obtain ⟨-, -, -, -, -, -, e0, e1⟩ := idx1 ⟨8 * ((i 0).val / 1024) + 7, by omega⟩
    intro a
    match a with
    | ⟨0, _⟩ =>
      show win1_3.index ⟨8 * ((i 0).val / 1024) + 7, _⟩ (0 : Fin 2) * 1024 ≤ (i 0).val ∧ (i 0).val < win1_3.index ⟨8 * ((i 0).val / 1024) + 7, _⟩ (0 : Fin 2) * 1024 + 1024
      dsimp only at e0; omega
    | ⟨1, _⟩ =>
      show win1_3.index ⟨8 * ((i 0).val / 1024) + 7, _⟩ (1 : Fin 2) * 1024 ≤ (i 1).val ∧ (i 1).val < win1_3.index ⟨8 * ((i 0).val / 1024) + 7, _⟩ (1 : Fin 2) * 1024 + 1024
      omega

end Cert.KernelIdeal.Hand

end
-- ==== Proof.Spec.lean ====
/-
  The running softmax of one attention row, block by block, and the softmax-weighted sum it computes.

  A row of scores is cut into 8 blocks of 512 columns. The running state is a triple (m, l, a): the maximum of
  the scores seen so far (from -∞), the sum of exp (score - m) over the columns seen so far, and — for one output
  column — the sum of exp (score - m) · value. One more block rescales the two sums by exp (m - m') for the new
  maximum m' and adds the block's terms. After the last block a / l is the softmax-weighted sum of the values.
-/
import Idealize.ShloMosaic.PureOps.Ideal
import Idealize.ShloMosaic.PureOps.Ideal.Laws

noncomputable section

namespace Cert.Attn

open Idealize.ShloMosaic

/-- The largest score of a block, taken from -∞. -/
def blockMax (s : Fin 512 → EReal) : EReal := (Finset.univ : Finset (Fin 512)).fold max (⊥ : EReal) s

/-- One block of the running softmax: the state (m, l, a) after a block with scores `s` and values `v`. -/
def step (s v : Fin 512 → EReal) (st : EReal × EReal × EReal) : EReal × EReal × EReal :=
  (max st.1 (blockMax s),
   Ideal.exp (st.1 - max st.1 (blockMax s)) * st.2.1 + ∑ κ : Fin 512, Ideal.exp (s κ - max st.1 (blockMax s)),
   Ideal.exp (st.1 - max st.1 (blockMax s)) * st.2.2 + ∑ κ : Fin 512, Ideal.exp (s κ - max st.1 (blockMax s)) * v κ)

/-- The state after the first `n` blocks, from (-∞, 0, 0). -/
def run (S V : Fin 8 → Fin 512 → EReal) : ℕ → EReal × EReal × EReal
  | 0 => (⊥, 0, 0)
  | n + 1 => if h : n < 8 then step (S ⟨n, h⟩) (V ⟨n, h⟩) (run S V n) else run S V n

/-- What the running softmax returns after all 8 blocks: a / l. -/
def online (S V : Fin 8 → Fin 512 → EReal) : EReal := Ideal.div (run S V 8).2.2 (run S V 8).2.1

/-- The softmax-weighted sum of real values under real scores, over all 4096 columns. -/
def soft (s v : Fin 4096 → ℝ) : ℝ := ∑ n : Fin 4096, Real.exp (s n) / (∑ n' : Fin 4096, Real.exp (s n')) * v n

/-- Column `n` of 4096 as its block and its place in the block. -/
def blk (n : Fin 4096) : Fin 8 := ⟨n.val / 512, by have := n.isLt; omega⟩
def pos (n : Fin 4096) : Fin 512 := ⟨n.val % 512, Nat.mod_lt _ (by norm_num)⟩

end Cert.Attn

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibMinReduce.lean ====
/-
  A float vector.multi_reduction <minimumf> over ONE axis, read at the ideal values: the fold of min, from the
  accumulator's value, over that axis's coordinates (the reduced index with the coordinate inserted). The mirror of
  the library's statement for <maximumf>; min on the extended reals commutes and associates, so the order in which
  the reduction visits the axis does not matter. Also the index the coordinate is inserted into, written by
  coordinates, for a matrix reduced along its columns (one value per row) and along its rows (one per column).
-/
import Idealize.ShloMosaic.PureOps.Ideal.Laws
import Idealize.ShloMosaic.PureOps.Reduce
import Idealize.ShloMosaic.Lib.ValueIdx

namespace Cert.MinReduce

open Idealize.ShloMosaic Idealize.ShloMosaic.ValueIdx

/-- A one-axis <minimumf> reduction at the ideal values is the fold of min over the axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- A matrix reduced along its columns: row p with column coordinate c inserted is the entry (p, c). -/
theorem lift_cols {a b : ℕ} (h : (⟨2, ![a, b]⟩ : Shape).Reduces [1] ⟨1, ![a]⟩) (p : Fin a) (c : Fin b) :
    h.lift (ix1 p) c = ix2 p c :=
  funext fun ax => Fin.ext (by match ax with | ⟨0, _⟩ => rfl | ⟨1, _⟩ => rfl)

/-- A matrix reduced along its rows: column c with row coordinate p inserted is the entry (p, c). -/
theorem lift_rows {a b : ℕ} (h : (⟨2, ![a, b]⟩ : Shape).Reduces [0] ⟨1, ![b]⟩) (c : Fin b) (p : Fin a) :
    h.lift (ix1 c) p = ix2 p c :=
  funext fun ax => Fin.ext (by match ax with | ⟨0, _⟩ => rfl | ⟨1, _⟩ => rfl)

end Cert.MinReduce
-- ==== Proof.LibRowReduce.lean ====
/-
  A matrix reduced along its columns (one value per row), and a per-row value spread back over the row.

  For an [a, b] matrix `src` of extended reals:
  * `rowMax_apply`: a one-axis maximum reduction over axis 1, read at row p, is the fold of max from the accumulator's
    value over the entries src(p, c) of that row;
  * `rowSum_apply`: a one-axis add reduction over axis 1 from the neutral accumulator, read at row p, is ∑ c, src(p, c);
  * `keepdims_apply`: a vector of `a` entries cast to a column [a, 1] and broadcast to [a, b] reads, at (p, c), the
    vector's entry p — the reduced axis kept as a unit axis and spread back over the row.
-/
import Idealize.ShloMosaic.PureOps.Ideal.Laws
import Idealize.ShloMosaic.PureOps.Reduce
import Idealize.ShloMosaic.Lib.ValueIdx
import Idealize.ShloMosaic.Lib.Pipeline.Value
import proofs.«146679_j72584947302555_2_alg».proof.Proof.LibKeepdims
import proofs.«146679_j72584947302555_2_alg».proof.Proof.LibMinReduce

noncomputable section

namespace Cert.RowReduce

open Idealize.ShloMosaic Idealize.ShloMosaic.ValueIdx

/-- The maximum of row p: the fold of max, from the accumulator's value, over the row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  refine congrArg (fun f => (Finset.univ : Finset (Fin b)).fold max (Ideal.ofBits φ acc) f) ?_
  funext c
  exact congrArg src (Cert.MinReduce.lift_cols h p c)

/-- The sum of row p: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (Cert.MinReduce.lift_cols h p c)

/-- A vector cast to a column and broadcast along the unit axis reads, at (p, c), the vector's entry p. -/
theorem keepdims_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ v hc) hb (ix2 p c) = v (ix1 p) :=
  (Cert.Keepdims.broadcastTo_a1_ab_apply (shapeCast ⟨2, ![a, 1]⟩ v hc) hb p c).trans
    (Cert.Keepdims.shapeCast_a_a1_apply v hc p 0)

end Cert.RowReduce

end
-- ==== Proof.P1.lean ====
/-
  The attention kernel's arithmetic at an index, over the extended reals.

  One grid point of the kernel takes a query block q [1024,1024], a key block k and a value block v [512,1024], and the
  three carried buffers (running maximum m [1024,1], running denominator l [1024,1], running numerator a [1024,1024]).
  Read at a row ρ and an output column d, what it leaves in the buffers is one block of the running softmax of that row:
  with the scores s κ = (∑ c, q(ρ,c) · k(κ,c)) · scale, the new maximum is m' = max m (max over κ of s κ), the new
  denominator exp (m − m') · l + ∑ κ, exp (s κ − m'), and the new numerator exp (m − m') · a + ∑ κ, exp (s κ − m') · v(κ,d).
  The reset values are (-∞, 0, 0) and the output is numerator / denominator.

  Each value the kernel computes is read at an index first: the two matrix products as sums over the contracted axis, the
  two row reductions as a fold of max from -∞ and a sum, the column [1024,1] spread over a row as its entry at that row,
  the narrowing to bf16 as the identity.
-/
import proofs.«146679_j72584947302555_2_alg».proof.Proof.R1Defs
import proofs.«146679_j72584947302555_2_alg».proof.Proof.Spec
import proofs.«146679_j72584947302555_2_alg».proof.Proof.LibMatmulRows
import proofs.«146679_j72584947302555_2_alg».proof.Proof.LibDenseLayer
import proofs.«146679_j72584947302555_2_alg».proof.Proof.LibRowReduce

noncomputable section

namespace Cert.KernelIdeal.Hand

open Idealize.ShloMosaic Idealize.ShloMosaic.ValueIdx Idealize.SL.Sem
open Cert.KernelIdeal Cert.KernelIdeal.Gen

/-! ## The two matrix products' index facts -/

theorem qk_l0 (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide),
    dif_pos (show (0 : Fin S1024x1024.rank) ∈ dot_S1024x1024_S512x1024_S1024x512_1_1_0_0_n_n.lhsNonContracting by decide)]
  rfl
theorem qk_l1 (i : S1024x512.Idx) (c : dot_S1024x1024_S512x1024_S1024x512_1_1_0_0_n_n.contr.Idx) :
    (dot_S1024x1024_S512x1024_S1024x512_1_1_0_0_n_n.lhsIdx i c 1).val = (c ⟨0, by decide⟩).val :=
  dot_S1024x1024_S512x1024_S1024x512_1_1_0_0_n_n.lhsIdx_val_of_single rfl i c
theorem qk_r0 (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide),
    dif_pos (show (0 : Fin S512x1024.rank) ∈ dot_S1024x1024_S512x1024_S1024x512_1_1_0_0_n_n.rhsNonContracting by decide)]
  rfl
theorem qk_r1 (i : S1024x512.Idx) (c : dot_S1024x1024_S512x1024_S1024x512_1_1_0_0_n_n.contr.Idx) :
    (dot_S1024x1024_S512x1024_S1024x512_1_1_0_0_n_n.rhsIdx i c 1).val = (c ⟨0, by decide⟩).val :=
  dot_S1024x1024_S512x1024_S1024x512_1_1_0_0_n_n.rhsIdx_val_of_single rfl i c

theorem pv_l0 (i : S1024x1024.Idx) (c : dot_S1024x512_S512x1024_S1024x1024_1_0_0_1_n_n.contr.Idx) :
    (dot_S1024x512_S512x1024_S1024x1024_1_0_0_1_n_n.lhsIdx i c 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
theorem pv_l1 (i : S1024x1024.Idx) (c : dot_S1024x512_S512x1024_S1024x1024_1_0_0_1_n_n.contr.Idx) :
    (dot_S1024x512_S512x1024_S1024x1024_1_0_0_1_n_n.lhsIdx i c 1).val = (c ⟨0, by decide⟩).val :=
  dot_S1024x512_S512x1024_S1024x1024_1_0_0_1_n_n.lhsIdx_val_of_single rfl i c
theorem pv_r0 (i : S1024x1024.Idx) (c : dot_S1024x512_S512x1024_S1024x1024_1_0_0_1_n_n.contr.Idx) :
    (dot_S1024x512_S512x1024_S1024x1024_1_0_0_1_n_n.rhsIdx i c 0).val = (c ⟨0, by decide⟩).val :=
  dot_S1024x512_S512x1024_S1024x1024_1_0_0_1_n_n.rhsIdx_val_of_single rfl i c
theorem pv_r1 (i : S1024x1024.Idx) (c : dot_S1024x512_S512x1024_S1024x1024_1_0_0_1_n_n.contr.Idx) :
    (dot_S1024x512_S512x1024_S1024x1024_1_0_0_1_n_n.rhsIdx i c 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The word of -∞ is ⊥. -/
theorem ofBits_negInf : Ideal.ofBits .f32 0xFF800000#32 = (⊥ : EReal) := by simp [Ideal.ofBits, Ideal.ieee]

/-! ## Each computed value at an index -/

/-- The scores at (ρ, κ): row ρ of q times row κ of k, scaled by the constant. -/
theorem pay7_apply (q : Vec Ideal S1024x1024 .bf16) (k : Vec Ideal S512x1024 .bf16) (ρ : Fin 1024) (κ : Fin 512) :
    k1_pay7 q k (ix2 ρ κ) = (∑ cc : Fin 1024, q (ix2 ρ cc) * k (ix2 κ cc)) * Ideal.ofBits .f32 0x3D000000#32 := by
  unfold k1_pay7
  refine congrArg (· * Ideal.ofBits .f32 0x3D000000#32) ?_
  exact (Cert.MatmulRows.matmul_rows_rows dot_S1024x1024_S512x1024_S1024x512_1_1_0_0_n_n rfl rfl qk_l0 qk_l1 qk_r0 qk_r1 none
    (shapeCast S1024x1024 q shapeCasts_S1024x1024_S1024x1024) (shapeCast S512x1024 k shapeCasts_S512x1024_S512x1024) ρ κ).trans (by
      rw [shapeCast_self, shapeCast_self])

/-- The new running maximum of row ρ: the larger of the old one and the block's largest score. -/
theorem pay8_apply (q : Vec Ideal S1024x1024 .bf16) (k : Vec Ideal S512x1024 .bf16) (m : Vec Ideal S1024x1 .f32) (ρ : Fin 1024) :
    k1_pay8 q k m (ix2 ρ (0 : Fin 1))
      = max (m (ix2 ρ (0 : Fin 1))) (Cert.Attn.blockMax fun κ : Fin 512 => k1_pay7 q k (ix2 ρ κ)) := by
  unfold k1_pay8
  refine congrArg (max (m (ix2 ρ (0 : Fin 1)))) ?_
  refine (Cert.Keepdims.shapeCast_a_a1_apply _ shapeCasts_S1024_S1024x1 ρ 0).trans ?_
  refine (Cert.RowReduce.rowMax_apply (k1_pay7 q k) 0xFF800000#32 reduces_S1024x512_S1024 (.inl rfl) rfl ρ).trans ?_
  unfold Cert.Attn.blockMax
  rw [ofBits_negInf]

/-- The rescale factor of row ρ: exp (old maximum − new maximum). -/
theorem pay9_apply (q : Vec Ideal S1024x1024 .bf16) (k : Vec Ideal S512x1024 .bf16) (m m' : Vec Ideal S1024x1 .f32) (ρ : Fin 1024) :
    k1_pay9 q k m m' (ix2 ρ (0 : Fin 1)) = Ideal.exp (m' (ix2 ρ (0 : Fin 1)) - k1_pay8 q k m (ix2 ρ (0 : Fin 1))) := rfl

/-- The block's weights at (ρ, κ): exp (score − new maximum). -/
theorem pay10_apply (q : Vec Ideal S1024x1024 .bf16) (k : Vec Ideal S512x1024 .bf16) (m : Vec Ideal S1024x1 .f32) (ρ : Fin 1024) (κ : Fin 512) :
    k1_pay10 q k m (ix2 ρ κ) = Ideal.exp (k1_pay7 q k (ix2 ρ κ) - k1_pay8 q k m (ix2 ρ (0 : Fin 1))) := by
  unfold k1_pay10
  refine congrArg (fun x => Ideal.exp (k1_pay7 q k (ix2 ρ κ) - x)) ?_
  exact Cert.Keepdims.broadcastTo_a1_ab_apply _ broadcasts_S1024x1_S1024x512 ρ κ

/-- The new denominator of row ρ: the old one rescaled plus the sum of the block's weights. -/
theorem pay11_apply (q : Vec Ideal S1024x1024 .bf16) (k : Vec Ideal S512x1024 .bf16) (m m' l : Vec Ideal S1024x1 .f32) (ρ : Fin 1024) :
    k1_pay11 q k m m' l (ix2 ρ (0 : Fin 1))
      = k1_pay9 q k m m' (ix2 ρ (0 : Fin 1)) * l (ix2 ρ (0 : Fin 1)) + ∑ κ : Fin 512, k1_pay10 q k m (ix2 ρ κ) := by
  unfold k1_pay11
  refine (congrFun (shapeCast_self _ shapeCasts_S1024x1_S1024x1) _).trans ?_
  refine congrArg (k1_pay9 q k m m' (ix2 ρ (0 : Fin 1)) * l (ix2 ρ (0 : Fin 1)) + ·) ?_
  refine (Cert.Keepdims.shapeCast_a_a1_apply _ shapeCasts_S1024_S1024x1 ρ 0).trans ?_
  exact Cert.RowReduce.rowSum_apply (k1_pay10 q k m) 0x00000000#32 reduces_S1024x512_S1024 (.inl rfl) rfl ρ

/-- The old numerator rescaled, at (ρ, d). -/
theorem pay13_apply (q : Vec Ideal S1024x1024 .bf16) (k : Vec Ideal S512x1024 .bf16) (m m' : Vec Ideal S1024x1 .f32)
    (a : Vec Ideal S1024x1024 .f32) (ρ d : Fin 1024) :
    k1_pay13 q k m m' a (ix2 ρ d) = k1_pay9 q k m m' (ix2 ρ (0 : Fin 1)) * a (ix2 ρ d) := by
  unfold k1_pay13
  refine congrArg (· * a (ix2 ρ d)) ?_
  exact Cert.Keepdims.broadcastTo_a1_ab_apply _ broadcasts_S1024x1_S1024x1024 ρ d

/-- The weights narrowed for the second product: the same extended reals. -/
theorem pay14_apply (q : Vec Ideal S1024x1024 .bf16) (k : Vec Ideal S512x1024 .bf16) (m : Vec Ideal S1024x1 .f32) (ρ : Fin 1024) (κ : Fin 512) :
    (k1_pay14 q k m (ix2 ρ κ) : EReal) = k1_pay10 q k m (ix2 ρ κ) := rfl

/-- The new numerator at (ρ, d): the rescaled old one plus row ρ of the weights times column d of the values. -/
theorem pay1_apply (v : FVec Ideal S512x1024 .bf16) (a : FVec Ideal S1024x1024 .f32) (p : FVec Ideal S1024x512 .bf16) (ρ d : Fin 1024) :
    k1_pay1 v a p (ix2 ρ d) = a (ix2 ρ d) + ∑ κ : Fin 512, p (ix2 ρ κ) * v (ix2 κ d) := by
  unfold k1_pay1
  refine (congrFun (shapeCast_self _ shapeCasts_S1024x1024_S1024x1024) _).trans ?_
  refine congrArg (a (ix2 ρ d) + ·) ?_
  exact Cert.DenseLayer.matmul_rows_cols dot_S1024x512_S512x1024_S1024x1024_1_0_0_1_n_n rfl rfl pv_l0 pv_l1 pv_r0 pv_r1 none p v ρ d

/-- The two casts to the same shape change nothing. -/
theorem pay2_eq (x : FVec Ideal S1024x1 .f32) : k1_pay2 x = x := shapeCast_self x shapeCasts_S1024x1_S1024x1
theorem pay12_eq (x : Vec Ideal S512x1024 .bf16) : k1_pay12 x = x := shapeCast_self x shapeCasts_S512x1024_S512x1024

/-- The quotient at (ρ, d): numerator over the row's denominator. -/
theorem pay3_apply (a : Vec Ideal S1024x1024 .f32) (l : Vec Ideal S1024x1 .f32) (ρ d : Fin 1024) :
    k1_pay3 a l (ix2 ρ d) = Ideal.div (a (ix2 ρ d)) (l (ix2 ρ (0 : Fin 1))) := by
  unfold k1_pay3
  refine congrArg (Ideal.div (a (ix2 ρ d))) ?_
  exact Cert.Keepdims.broadcastTo_a1_ab_apply _ broadcasts_S1024x1_S1024x1024 ρ d

/-- The reset values: -∞ for the maximum, 0 for the two sums. -/
theorem pay4_apply (i : S1024x1.Idx) : k1_pay4 (F := Ideal) i = (⊥ : EReal) := by
  unfold k1_pay4
  refine (congrFun (shapeCast_self _ shapeCasts_S1024x1_S1024x1) _).trans ?_
  exact ofBits_negInf
theorem pay5_apply (i : S1024x1.Idx) : k1_pay5 (F := Ideal) i = (0 : EReal) := by
  unfold k1_pay5
  refine (congrFun (shapeCast_self _ shapeCasts_S1024x1_S1024x1) _).trans ?_
  exact Ideal.ofBits_zero_f32
theorem pay6_apply (i : S1024x1024.Idx) : k1_pay6 (F := Ideal) i = (0 : EReal) := by
  unfold k1_pay6
  refine (congrFun (shapeCast_self _ shapeCasts_S1024x1024_S1024x1024) _).trans ?_
  exact Ideal.ofBits_zero_f32

/-! ## One grid point at an index -/

/-- The new maximum of row ρ. -/
theorem step1_max (q : Vec Ideal S1024x1024 .bf16) (k v : Vec Ideal S512x1024 .bf16) (s : St1 Ideal) (ρ : Fin 1024) :
    (step1 q k v s).1 (ix2 ρ (0 : Fin 1))
      = max (s.1 (ix2 ρ (0 : Fin 1))) (Cert.Attn.blockMax fun κ : Fin 512 =>
          (∑ cc : Fin 1024, q (ix2 ρ cc) * k (ix2 κ cc)) * Ideal.ofBits .f32 0x3D000000#32) := by
  show k1_pay2 (k1_pay8 q k s.1) (ix2 ρ (0 : Fin 1)) = _
  rw [pay2_eq, pay8_apply]
  simp only [pay7_apply]

/-- The new denominator of row ρ. -/
theorem step1_den (q : Vec Ideal S1024x1024 .bf16) (k v : Vec Ideal S512x1024 .bf16) (s : St1 Ideal) (ρ : Fin 1024) :
    (step1 q k v s).2.1 (ix2 ρ (0 : Fin 1))
      = Ideal.exp (s.1 (ix2 ρ (0 : Fin 1)) - (step1 q k v s).1 (ix2 ρ (0 : Fin 1))) * s.2.1 (ix2 ρ (0 : Fin 1))
        + ∑ κ : Fin 512, Ideal.exp ((∑ cc : Fin 1024, q (ix2 ρ cc) * k (ix2 κ cc)) * Ideal.ofBits .f32 0x3D000000#32
            - (step1 q k v s).1 (ix2 ρ (0 : Fin 1))) := by
  show k1_pay11 q k s.1 s.1 s.2.1 (ix2 ρ (0 : Fin 1))
    = Ideal.exp (s.1 (ix2 ρ (0 : Fin 1)) - k1_pay2 (k1_pay8 q k s.1) (ix2 ρ (0 : Fin 1))) * s.2.1 (ix2 ρ (0 : Fin 1))
      + ∑ κ : Fin 512, Ideal.exp ((∑ cc : Fin 1024, q (ix2 ρ cc) * k (ix2 κ cc)) * Ideal.ofBits .f32 0x3D000000#32
          - k1_pay2 (k1_pay8 q k s.1) (ix2 ρ (0 : Fin 1)))
  rw [pay2_eq, pay11_apply, pay9_apply]
  simp only [pay10_apply, pay7_apply]

/-- The new numerator at (ρ, d). -/
theorem step1_num (q : Vec Ideal S1024x1024 .bf16) (k v : Vec Ideal S512x1024 .bf16) (s : St1 Ideal) (ρ d : Fin 1024) :
    (step1 q k v s).2.2 (ix2 ρ d)
      = Ideal.exp (s.1 (ix2 ρ (0 : Fin 1)) - (step1 q k v s).1 (ix2 ρ (0 : Fin 1))) * s.2.2 (ix2 ρ d)
        + ∑ κ : Fin 512, Ideal.exp ((∑ cc : Fin 1024, q (ix2 ρ cc) * k (ix2 κ cc)) * Ideal.ofBits .f32 0x3D000000#32
            - (step1 q k v s).1 (ix2 ρ (0 : Fin 1))) * v (ix2 κ d) := by
  show k1_pay1 (k1_pay12 v) (k1_pay13 q k s.1 s.1 s.2.2) (k1_pay14 q k s.1) (ix2 ρ d)
    = Ideal.exp (s.1 (ix2 ρ (0 : Fin 1)) - k1_pay2 (k1_pay8 q k s.1) (ix2 ρ (0 : Fin 1))) * s.2.2 (ix2 ρ d)
      + ∑ κ : Fin 512, Ideal.exp ((∑ cc : Fin 1024, q (ix2 ρ cc) * k (ix2 κ cc)) * Ideal.ofBits .f32 0x3D000000#32
          - k1_pay2 (k1_pay8 q k s.1) (ix2 ρ (0 : Fin 1))) * v (ix2 κ d)
  rw [pay2_eq, pay12_eq, pay1_apply, pay13_apply, pay9_apply]
  simp only [pay14_apply, pay10_apply, pay7_apply]

/-- One key block folded into the carried buffers, read at row ρ and column d: one block of the running softmax of that
    row, with the block's scaled scores and column d of the value block. -/
theorem step1_apply (q : Vec Ideal S1024x1024 .bf16) (k v : Vec Ideal S512x1024 .bf16) (s : St1 Ideal) (ρ d : Fin 1024) :
    ((step1 q k v s).1 (ix2 ρ (0 : Fin 1)), (step1 q k v s).2.1 (ix2 ρ (0 : Fin 1)), (step1 q k v s).2.2 (ix2 ρ d))
      = Cert.Attn.step (fun κ : Fin 512 => (∑ cc : Fin 1024, q (ix2 ρ cc) * k (ix2 κ cc)) * Ideal.ofBits .f32 0x3D000000#32)
          (fun κ : Fin 512 => v (ix2 κ d)) (s.1 (ix2 ρ (0 : Fin 1)), s.2.1 (ix2 ρ (0 : Fin 1)), s.2.2 (ix2 ρ d)) := by
  rw [step1_den, step1_num, step1_max]
  rfl

/-- The reset buffers read at row ρ and column d: (-∞, 0, 0). -/
theorem init1_apply (ρ d : Fin 1024) :
    ((init1 (F := Ideal)).1 (ix2 ρ (0 : Fin 1)), (init1 (F := Ideal)).2.1 (ix2 ρ (0 : Fin 1)), (init1 (F := Ideal)).2.2 (ix2 ρ d))
      = ((⊥ : EReal), (0 : EReal), (0 : EReal)) := by
  show (k1_pay4 (F := Ideal) (ix2 ρ (0 : Fin 1)), k1_pay5 (F := Ideal) (ix2 ρ (0 : Fin 1)), k1_pay6 (F := Ideal) (ix2 ρ d)) = _
  rw [pay4_apply, pay5_apply, pay6_apply]

/-- The output block at (ρ, d): the numerator over row ρ's denominator. -/
theorem fin1_apply (s : St1 Ideal) (ρ d : Fin 1024) :
    fin1 s (ix2 ρ d) = Ideal.div (s.2.2 (ix2 ρ d)) (s.2.1 (ix2 ρ (0 : Fin 1))) :=
  pay3_apply s.2.2 s.2.1 ρ d

end Cert.KernelIdeal.Hand

end
-- ==== Proof.LibLogSoftmax.lean ====
import Idealize.ShloMosaic.PureOps.Ideal
noncomputable section
namespace Cert.LogSoftmax
open Idealize.ShloMosaic

/-- The embedding of the reals into the extended reals commutes with finite sums. -/
private theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The maximum, taken from -∞, of finitely many (at least one) reals is a real. -/
theorem fold_max_coe {n : ℕ} (hn : 0 < n) (x : Fin n → ℝ) :
    ∃ M : ℝ, (Finset.univ : Finset (Fin n)).fold max (⊥ : EReal) (fun c => (x c : EReal)) = (M : EReal) := by
  -- over a nonempty finite set the maximum is the larger of one real and either -∞ or a real
  have key : ∀ s : Finset (Fin n), s.Nonempty →
      ∃ M : ℝ, s.fold max (⊥ : EReal) (fun c => (x c : EReal)) = (M : EReal) := by
    intro s
    induction s using Finset.induction_on with
    | empty => intro h; exact absurd h Finset.not_nonempty_empty
    | insert a s ha ih =>
      intro _
      rw [Finset.fold_insert ha]
      rcases s.eq_empty_or_nonempty with rfl | hs
      · exact ⟨x a, by simp⟩
      · obtain ⟨M, hM⟩ := ih hs
        exact ⟨max (x a) M, by rw [hM]; exact (EReal.coe_strictMono.monotone.map_max).symm⟩
  exact key _ ⟨⟨0, hn⟩, Finset.mem_univ _⟩

/-- Log-softmax does not depend on the shift: for reals x and any real M, (x c - M) - log (0 + Σ exp (x c' - M)) = x c - log (Σ exp (x c')). -/
theorem logSoftmax_shift {n : ℕ} (hn : 0 < n) (x : Fin n → ℝ) (M : ℝ) (c : Fin n) :
    ((x c : EReal) - (M : EReal)) - Ideal.log ((0 : EReal) + ∑ c' : Fin n, Ideal.exp ((x c' : EReal) - (M : EReal)))
      = (x c : EReal) - Ideal.log (∑ c' : Fin n, Ideal.exp (x c' : EReal)) := by
  have hne : (Finset.univ : Finset (Fin n)).Nonempty := ⟨⟨0, hn⟩, Finset.mem_univ _⟩
  -- both sums of exponentials are positive reals
  have hS : 0 < ∑ c' : Fin n, Real.exp (x c') := Finset.sum_pos (fun i _ => Real.exp_pos _) hne
  have hSM : 0 < ∑ c' : Fin n, Real.exp (x c' - M) := Finset.sum_pos (fun i _ => Real.exp_pos _) hne
  -- Σ exp (x c' - M) = exp (-M) * Σ exp (x c')
  have hmul : ∑ c' : Fin n, Real.exp (x c' - M) = Real.exp (-M) * ∑ c' : Fin n, Real.exp (x c') := by
    rw [Finset.mul_sum]
    refine Finset.sum_congr rfl (fun i _ => ?_)
    rw [← Real.exp_add]
    congr 1
    ring
  -- so its logarithm is -M + log Σ exp (x c')
  have hlog : Real.log (∑ c' : Fin n, Real.exp (x c' - M)) = -M + Real.log (∑ c' : Fin n, Real.exp (x c')) := by
    rw [hmul, Real.log_mul (Real.exp_pos _).ne' hS.ne', Real.log_exp]
  -- both extended-real sums are the embedded real sums
  have e1 : (∑ c' : Fin n, Ideal.exp ((x c' : EReal) - (M : EReal)))
      = ((∑ c' : Fin n, Real.exp (x c' - M) : ℝ) : EReal) := by
    rw [coe_sum]
    refine Finset.sum_congr rfl (fun i _ => ?_)
    rw [← EReal.coe_sub, Ideal.exp_coe]
  have e2 : (∑ c' : Fin n, Ideal.exp (x c' : EReal)) = ((∑ c' : Fin n, Real.exp (x c') : ℝ) : EReal) := by
    rw [coe_sum]
    refine Finset.sum_congr rfl (fun i _ => ?_)
    rw [Ideal.exp_coe]
  rw [zero_add, e1, e2, Ideal.log_coe, Ideal.log_coe, if_neg (not_le.2 hSM), if_neg (not_le.2 hS), hlog,
    ← EReal.coe_sub, ← EReal.coe_sub, ← EReal.coe_sub]
  congr 1
  ring

/-- Summing a function of v * W + j over v below T and j below W is summing it over all indices below T * W. -/
private theorem sum_tiles (T W : ℕ) (g : ℕ → EReal) :
    (∑ v ∈ Finset.range T, ∑ j ∈ Finset.range W, g (v * W + j)) = ∑ q ∈ Finset.range (T * W), g q := by
  induction T with
  | zero => simp
  | succ T ih => rw [Finset.sum_range_succ, ih, Nat.succ_mul, Finset.sum_range_add]

/-- A sum over T tiles of width W in which the columns at or beyond n contribute zero is the sum over the first n columns. -/
theorem sum_tiles_masked (T W n : ℕ) (hn : n ≤ T * W) (f : ℕ → EReal) :
    (∑ v : Fin T, ∑ j : Fin W, (if v.val * W + j.val < n then f (v.val * W + j.val) else 0))
      = ∑ c : Fin n, f c.val := by
  -- the masked summand as a function of the flat column index
  let g : ℕ → EReal := fun q => if q < n then f q else 0
  have h1 : (∑ v : Fin T, ∑ j : Fin W, (if v.val * W + j.val < n then f (v.val * W + j.val) else 0))
      = ∑ v ∈ Finset.range T, ∑ j ∈ Finset.range W, g (v * W + j) := by
    rw [← Fin.sum_univ_eq_sum_range (fun v => ∑ j ∈ Finset.range W, g (v * W + j)) T]
    refine Finset.sum_congr rfl (fun v _ => ?_)
    rw [← Fin.sum_univ_eq_sum_range (fun j => g (v.val * W + j)) W]
  rw [h1, sum_tiles, Fin.sum_univ_eq_sum_range f n]
  -- below T * W the mask keeps exactly the indices below n
  show (∑ q ∈ Finset.range (T * W), if q < n then f q else 0) = _
  rw [← Finset.sum_filter]
  congr 1
  ext q
  simp only [Finset.mem_filter, Finset.mem_range]
  omega

/-- A running sum started at a and added to once per step is a plus the sum of the addends. -/
theorem run_sum (a : EReal) (s : ℕ → EReal) : ∀ k : ℕ, (Nat.rec a (fun j acc => acc + s j) k : EReal) = a + ∑ j ∈ Finset.range k, s j := by
  intro k
  induction k with
  | zero => simp
  | succ k ih =>
    show (Nat.rec a (fun j acc => acc + s j) k : EReal) + s k = _
    rw [ih, Finset.sum_range_succ, add_assoc]

end Cert.LogSoftmax
end
-- ==== Proof.Math.lean ====
/-
  The running softmax of one attention row equals the softmax-weighted sum of the values, for real scores and
  real values; and so does the softmax taken with the row maximum subtracted.

  Reals sit inside the extended reals, and sums, products, differences, maxima, exponentials and quotients (by a
  nonzero real) of reals stay there. After n ≥ 1 blocks the running state is (M, Σ exp (s - M), Σ exp (s - M) · v)
  for a real M, the sums running over the columns of the first n blocks: one more block multiplies both sums by
  exp (M - M'), which moves every term from exp (s - M) to exp (s - M'), and adds the block's own terms. The first
  block starts from (-∞, 0, 0): there exp (-∞ - M') = 0. At the end the quotient of the two sums does not depend
  on M: exp (s - M) / Σ exp (s' - M) = exp s / Σ exp s'.
-/
import proofs.«146679_j72584947302555_2_alg».proof.Proof.Spec
import proofs.«146679_j72584947302555_2_alg».proof.Proof.LibLogSoftmax

noncomputable section

namespace Cert.Attn

open Idealize.ShloMosaic

/-! ## Reals inside the extended reals -/

/-- A finite sum of coerced reals is the coerced sum. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The larger of two coerced reals is the coerced larger one. -/
theorem coe_max (x y : ℝ) : max (x : EReal) (y : EReal) = ((max x y : ℝ) : EReal) :=
  (EReal.coe_strictMono.monotone.map_max).symm

/-- The quotient of a real by a nonzero real. -/
theorem div_coe_coe (a : ℝ) {b : ℝ} (hb : b ≠ 0) : Ideal.div (a : EReal) (b : EReal) = ((a / b : ℝ) : EReal) := by
  rw [Ideal.div_coe hb, ← EReal.coe_mul, mul_one_div]

/-- √1024 = 32. -/
theorem sqrt_1024 : Real.sqrt 1024 = 32 := by
  rw [show (1024 : ℝ) = 32 ^ 2 by norm_num]
  exact Real.sqrt_sq (by norm_num)

/-- Dividing by √1024 is multiplying by 1/32, at every extended real. -/
theorem div_sqrt_1024_ereal (x : EReal) :
    Ideal.div x (Ideal.sqrt ((1024 : ℝ) : EReal)) = x * ((1 / 32 : ℝ) : EReal) := by
  rw [Ideal.sqrt_coe, if_neg (by norm_num), sqrt_1024, Ideal.div_coe (by norm_num)]

theorem div_sqrt_1024 (x : ℝ) :
    Ideal.div (x : EReal) (Ideal.sqrt ((1024 : ℝ) : EReal)) = (x : EReal) * ((1 / 32 : ℝ) : EReal) :=
  div_sqrt_1024_ereal _

/-! ## The weights do not depend on the shift -/

/-- exp (s n - M) / Σ exp (s n' - M) = exp (s n) / Σ exp (s n'). -/
theorem weight_shift {ι : Type*} [Fintype ι] (s : ι → ℝ) (M : ℝ) (n : ι) :
    Real.exp (s n - M) / (∑ n', Real.exp (s n' - M)) = Real.exp (s n) / ∑ n', Real.exp (s n') := by
  have hS : ∑ n', Real.exp (s n' - M) = (∑ n', Real.exp (s n')) / Real.exp M := by
    rw [Finset.sum_div]
    exact Finset.sum_congr rfl fun n' _ => Real.exp_sub _ _
  rw [hS, Real.exp_sub]
  have hM : Real.exp M ≠ 0 := Real.exp_ne_zero M
  by_cases hZ : (∑ n', Real.exp (s n')) = 0
  · rw [hZ]; simp
  · field_simp

/-- The shifted weighted sum over the shifted sum is the softmax-weighted sum. -/
theorem soft_shift (s v : Fin 4096 → ℝ) (M : ℝ) :
    (∑ n, Real.exp (s n - M) * v n) / (∑ n, Real.exp (s n - M)) = soft s v := by
  unfold soft
  rw [Finset.sum_div]
  refine Finset.sum_congr rfl fun n _ => ?_
  rw [← weight_shift s M n]
  ring

/-! ## The host's softmax -/

theorem host_eq_soft (s v : Fin 4096 → ℝ) :
    (∑ n : Fin 4096, Ideal.div (Ideal.exp ((s n : EReal) - max ⊥ ((Finset.univ : Finset (Fin 4096)).fold max ⊥ fun n' => (s n' : EReal))))
        ((0 : EReal) + ∑ n' : Fin 4096, Ideal.exp ((s n' : EReal) - max ⊥ ((Finset.univ : Finset (Fin 4096)).fold max ⊥ fun n'' => (s n'' : EReal)))) * (v n : EReal))
      = ((soft s v : ℝ) : EReal) := by
  obtain ⟨M, hM⟩ := Cert.LogSoftmax.fold_max_coe (by norm_num : 0 < 4096) s
  have hL : 0 < ∑ n' : Fin 4096, Real.exp (s n' - M) :=
    Finset.sum_pos (fun _ _ => Real.exp_pos _) Finset.univ_nonempty
  simp only [hM, max_bot_left, ← EReal.coe_sub, Ideal.exp_coe, coe_sum, zero_add]
  simp only [div_coe_coe _ hL.ne', ← EReal.coe_mul, coe_sum]
  refine congrArg Real.toEReal ?_
  unfold soft
  refine Finset.sum_congr rfl fun n _ => ?_
  rw [weight_shift s M n]

/-! ## One block of the running softmax on real data -/

/-- The largest of 512 real scores, from -∞, is a real. -/
theorem blockMax_coe (s : Fin 512 → ℝ) : ∃ B : ℝ, blockMax (fun κ => (s κ : EReal)) = (B : EReal) :=
  Cert.LogSoftmax.fold_max_coe (by norm_num) s

/-- The first block, from (-∞, 0, 0): nothing is carried over, since exp (-∞ - M) = 0. -/
theorem step_bot (s v : Fin 512 → ℝ) :
    ∃ M : ℝ, step (fun κ => (s κ : EReal)) (fun κ => (v κ : EReal)) (⊥, 0, 0)
      = ((M : EReal), ((∑ κ, Real.exp (s κ - M) : ℝ) : EReal), ((∑ κ, Real.exp (s κ - M) * v κ : ℝ) : EReal)) := by
  obtain ⟨B, hB⟩ := blockMax_coe s
  refine ⟨B, ?_⟩
  simp only [step, hB, max_bot_left, EReal.bot_sub, Ideal.exp_bot, mul_zero, zero_add,
    ← EReal.coe_sub, Ideal.exp_coe, ← EReal.coe_mul, coe_sum]

/-- A later block, from a real state (M, L, A): the new maximum M' is a real, and both sums are rescaled by
    exp (M - M'). -/
theorem step_coe (s v : Fin 512 → ℝ) (M L A : ℝ) :
    ∃ M' : ℝ, step (fun κ => (s κ : EReal)) (fun κ => (v κ : EReal)) ((M : EReal), (L : EReal), (A : EReal))
      = ((M' : EReal), ((Real.exp (M - M') * L + ∑ κ, Real.exp (s κ - M') : ℝ) : EReal),
          ((Real.exp (M - M') * A + ∑ κ, Real.exp (s κ - M') * v κ : ℝ) : EReal)) := by
  obtain ⟨B, hB⟩ := blockMax_coe s
  refine ⟨max M B, ?_⟩
  simp only [step, hB, coe_max, ← EReal.coe_sub, Ideal.exp_coe, ← EReal.coe_mul, coe_sum, ← EReal.coe_add]

/-- Multiplying by exp (M - M') moves every term exp (f - M) · g to exp (f - M') · g. -/
theorem rescale_mul {ι : Type*} (t : Finset ι) (f g : ι → Fin 512 → ℝ) (M M' : ℝ) :
    Real.exp (M - M') * ∑ j ∈ t, ∑ κ, Real.exp (f j κ - M) * g j κ
      = ∑ j ∈ t, ∑ κ, Real.exp (f j κ - M') * g j κ := by
  rw [Finset.mul_sum]
  refine Finset.sum_congr rfl fun j _ => ?_
  rw [Finset.mul_sum]
  refine Finset.sum_congr rfl fun κ _ => ?_
  rw [← mul_assoc, ← Real.exp_add]
  have h : M - M' + (f j κ - M) = f j κ - M' := by ring
  rw [h]

theorem rescale {ι : Type*} (t : Finset ι) (f : ι → Fin 512 → ℝ) (M M' : ℝ) :
    Real.exp (M - M') * ∑ j ∈ t, ∑ κ, Real.exp (f j κ - M) = ∑ j ∈ t, ∑ κ, Real.exp (f j κ - M') := by
  simpa using rescale_mul t f (fun _ _ => 1) M M'

/-! ## The state after n blocks -/

/-- Block n of an 8-block family, and zeros beyond the last block. -/
def blockAt (s : Fin 8 → Fin 512 → ℝ) (n : ℕ) : Fin 512 → ℝ := if h : n < 8 then s ⟨n, h⟩ else fun _ => 0

theorem blockAt_lt (s : Fin 8 → Fin 512 → ℝ) {n : ℕ} (h : n < 8) : blockAt s n = s ⟨n, h⟩ := dif_pos h

theorem run_succ (S V : Fin 8 → Fin 512 → EReal) {n : ℕ} (h : n < 8) :
    run S V (n + 1) = step (S ⟨n, h⟩) (V ⟨n, h⟩) (run S V n) := by
  rw [run, dif_pos h]

/-- After n + 1 blocks of real data the state is (M, Σ exp (s - M), Σ exp (s - M) · v) for a real M, the sums over
    the columns of the first n + 1 blocks. -/
theorem run_real (sR vR : Fin 8 → Fin 512 → ℝ) : ∀ n : ℕ, n < 8 → ∃ M : ℝ,
    run (fun j κ => (sR j κ : EReal)) (fun j κ => (vR j κ : EReal)) (n + 1)
      = ((M : EReal),
         ((∑ j ∈ Finset.range (n + 1), ∑ κ, Real.exp (blockAt sR j κ - M) : ℝ) : EReal),
         ((∑ j ∈ Finset.range (n + 1), ∑ κ, Real.exp (blockAt sR j κ - M) * blockAt vR j κ : ℝ) : EReal)) := by
  intro n
  induction n with
  | zero =>
    intro h
    obtain ⟨M, hM⟩ := step_bot (sR ⟨0, h⟩) (vR ⟨0, h⟩)
    refine ⟨M, ?_⟩
    rw [run_succ _ _ h]
    refine hM.trans ?_
    rw [Finset.sum_range_one, Finset.sum_range_one, blockAt_lt sR h, blockAt_lt vR h]
  | succ n ih =>
    intro h
    obtain ⟨M, hM⟩ := ih (by omega)
    obtain ⟨M', hM'⟩ := step_coe (sR ⟨n + 1, h⟩) (vR ⟨n + 1, h⟩) M
      (∑ j ∈ Finset.range (n + 1), ∑ κ, Real.exp (blockAt sR j κ - M))
      (∑ j ∈ Finset.range (n + 1), ∑ κ, Real.exp (blockAt sR j κ - M) * blockAt vR j κ)
    refine ⟨M', ?_⟩
    rw [run_succ _ _ h, hM]
    refine hM'.trans ?_
    rw [Finset.sum_range_succ _ (n + 1), Finset.sum_range_succ _ (n + 1), blockAt_lt sR h, blockAt_lt vR h,
      rescale, rescale_mul]

/-! ## Columns as blocks and places -/

theorem sum_blk_pos {M : Type*} [AddCommMonoid M] (F : Fin 8 → Fin 512 → M) :
    ∑ n : Fin 4096, F (blk n) (pos n) = ∑ j : Fin 8, ∑ κ : Fin 512, F j κ := by
  have e := Equiv.sum_comp (finProdFinEquiv (m := 8) (n := 512)) (fun n : Fin (8 * 512) => F (blk n) (pos n))
  rw [Fintype.sum_prod_type] at e
  refine e.symm.trans ?_
  refine Finset.sum_congr rfl fun j _ => Finset.sum_congr rfl fun κ _ => ?_
  have hb : blk (finProdFinEquiv (j, κ)) = j := by
    apply Fin.ext
    simp only [blk, finProdFinEquiv_apply_val]
    have := κ.isLt
    omega
  have hp : pos (finProdFinEquiv (j, κ)) = κ := by
    apply Fin.ext
    simp only [pos, finProdFinEquiv_apply_val]
    have := κ.isLt
    omega
  rw [hb, hp]

theorem sum_blocks (sR vR : Fin 8 → Fin 512 → ℝ) (F : ℝ → ℝ → ℝ) :
    ∑ j ∈ Finset.range 8, ∑ κ, F (blockAt sR j κ) (blockAt vR j κ)
      = ∑ n : Fin 4096, F (sR (blk n) (pos n)) (vR (blk n) (pos n)) := by
  rw [Finset.sum_range, sum_blk_pos (fun j κ => F (sR j κ) (vR j κ))]
  refine Finset.sum_congr rfl fun j _ => ?_
  rw [blockAt_lt sR j.isLt, blockAt_lt vR j.isLt]

/-! ## The running softmax is the softmax-weighted sum -/

theorem online_eq_soft (sR vR : Fin 8 → Fin 512 → ℝ) :
    online (fun j κ => (sR j κ : EReal)) (fun j κ => (vR j κ : EReal))
      = ((soft (fun n => sR (blk n) (pos n)) (fun n => vR (blk n) (pos n)) : ℝ) : EReal) := by
  obtain ⟨M, hM⟩ := run_real sR vR 7 (by norm_num)
  have hM8 : run (fun j κ => (sR j κ : EReal)) (fun j κ => (vR j κ : EReal)) 8 = _ := hM
  have hL : 0 < ∑ j ∈ Finset.range (7 + 1), ∑ κ : Fin 512, Real.exp (blockAt sR j κ - M) :=
    Finset.sum_pos (fun j _ => Finset.sum_pos (fun κ _ => Real.exp_pos _) Finset.univ_nonempty) (by simp)
  unfold online
  rw [hM8]
  refine (div_coe_coe _ hL.ne').trans ?_
  refine congrArg Real.toEReal ?_
  have hA := sum_blocks sR vR (fun x y => Real.exp (x - M) * y)
  have hB := sum_blocks sR vR (fun x _ => Real.exp (x - M))
  show (∑ j ∈ Finset.range 8, _) / (∑ j ∈ Finset.range 8, _) = _
  rw [hA, hB]
  exact soft_shift _ _ M

end Cert.Attn

end
-- ==== Proof.A1.lean ====
/-
  The attention call, from its grid points to its output array. Query tile i (1024 rows) meets the 8 key blocks
  (512 rows each) at the points 8 i + j, j = 0 … 7. Read at one query row ρ and one output column d, the three carried
  buffers after the point 8 i + j are the running softmax of that row after j + 1 key blocks: the point function is
  one block of the running softmax on the scaled scores of row ρ against key block j and on column d of value block j,
  started from (-∞, 0, 0) at j = 0. The output block written back at j = 7 is numerator / denominator, so the output
  array holds, at row 1024 i + ρ and column d, the block-by-block attention of the three arrays the call reads.
-/
import proofs.«146679_j72584947302555_2_alg».proof.Proof.A1Blocks
import proofs.«146679_j72584947302555_2_alg».proof.Proof.P1
import proofs.«146679_j72584947302555_2_alg».proof.Proof.Math

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## One row of the attention call, block by block -/

/-- The scaled scores of query row r against the 8 key blocks of 512 rows. -/
def scores (q k : S4096x1024.Idx → EReal) (r : Fin 4096) : Fin 8 → Fin 512 → EReal := fun j κ =>
  (∑ cc : Fin 1024, q (ix2 r cc) * k (ix2 (Cert.Attn.col j κ) cc)) * Ideal.ofBits .f32 0x3D000000#32

/-- Column d of the value rows, by key block. -/
def vals (v : S4096x1024.Idx → EReal) (d : Fin 1024) : Fin 8 → Fin 512 → EReal := fun j κ =>
  v (ix2 (Cert.Attn.col j κ) d)

/-- Entry (r, d) of single-head attention computed block by block: the running softmax of row r's scaled scores
    against column d of the values. -/
def attnAt (q k v : S4096x1024.Idx → EReal) (r : Fin 4096) (d : Fin 1024) : EReal :=
  Cert.Attn.online (fun j κ => (∑ cc : Fin 1024, q (ix2 r cc) * k (ix2 (Cert.Attn.col j κ) cc)) * Ideal.ofBits .f32 0x3D000000#32)
    (fun j κ => v (ix2 (Cert.Attn.col j κ) d))

theorem attnAt_eq (q k v : S4096x1024.Idx → EReal) (r : Fin 4096) (d : Fin 1024) :
    attnAt q k v r d = Cert.Attn.online (scores q k r) (vals v d) := rfl

/-- The carried buffers read at row ρ: maximum, denominator, and column d of the numerator. -/
def rd (s : St1 Ideal) (ρ d : Fin 1024) : EReal × EReal × EReal :=
  (s.1 (ix2 ρ (0 : Fin 1)), s.2.1 (ix2 ρ (0 : Fin 1)), s.2.2 (ix2 ρ d))

/-- One key block folded in, when the loaded blocks are rows of the arrays: query row ρ of the block is row ρ of
    tile i, key and value rows κ are rows κ of block j. -/
theorem step_read (q : Vec Ideal S1024x1024 .bf16) (k v : Vec Ideal S512x1024 .bf16) (Q K Vm : S4096x1024.Idx → EReal)
    (i : Fin 4) (j : Fin 8) (ρ d : Fin 1024)
    (hq : ∀ cc : Fin 1024, q (ix2 ρ cc) = Q (ix2 (Cert.Attn.row i ρ) cc))
    (hk : ∀ (κ : Fin 512) (cc : Fin 1024), k (ix2 κ cc) = K (ix2 (Cert.Attn.col j κ) cc))
    (hv : ∀ κ : Fin 512, v (ix2 κ d) = Vm (ix2 (Cert.Attn.col j κ) d)) (s : St1 Ideal) :
    rd (step1 q k v s) ρ d = Cert.Attn.step (scores Q K (Cert.Attn.row i ρ) j) (vals Vm d j) (rd s ρ d) := by
  refine (step1_apply q k v s ρ d).trans ?_
  have e1 : (fun κ : Fin 512 => (∑ cc : Fin 1024, q (ix2 ρ cc) * k (ix2 κ cc)) * Ideal.ofBits .f32 0x3D000000#32)
      = scores Q K (Cert.Attn.row i ρ) j := by
    funext κ
    unfold scores
    refine congrArg (· * Ideal.ofBits .f32 0x3D000000#32) (Finset.sum_congr rfl fun cc _ => ?_)
    rw [hq, hk]
  have e2 : (fun κ : Fin 512 => v (ix2 κ d)) = vals Vm d j := funext fun κ => hv κ
  rw [e1, e2]
  rfl

/-- The point with position 8 i + j folds key block j into row ρ of query tile i: one block of that row's running
    softmax, from (-∞, 0, 0) when j = 0. -/
theorem stepAt_read (c : Dev nD) (t : Fin cfg1.N) (i : Fin 4) (j : Fin 8) (ht : t.val = 8 * i.val + j.val)
    (s0 : St1 Ideal) (ρ d : Fin 1024) :
    rd (stepAt (grid1.coords t) (iblk1 V c 0 t) (iblk1 V c 1 t) (iblk1 V c 2 t) s0) ρ d
      = Cert.Attn.step (scores (V c main_v3_0) (V c main_v3_1) (Cert.Attn.row i ρ) j) (vals (V c main_v3_2) d j)
          (if j.val = 0 then ((⊥ : EReal), (0 : EReal), (0 : EReal)) else rd s0 ρ d) := by
  have hi : ∀ h, (⟨t.val / 8, h⟩ : Fin 4) = i := fun h => Fin.ext (by show t.val / 8 = i.val; have := j.isLt; omega)
  have hj : ∀ h, (⟨t.val % 8, h⟩ : Fin 8) = j := fun h => Fin.ext (by show t.val % 8 = j.val; have := j.isLt; omega)
  have hc : ((grid1.coords t) 1).val = j.val := by rw [coord1 t]; have := j.isLt; omega
  unfold stepAt
  refine (step_read (iblk1 V c 0 t) (iblk1 V c 1 t) (iblk1 V c 2 t) (V c main_v3_0) (V c main_v3_1) (V c main_v3_2)
    i j ρ d (fun cc => ?_) (fun κ cc => ?_) (fun κ => ?_) _).trans ?_
  · rw [blk1_q V c t ρ cc, hi]
  · rw [blk1_k V c t κ cc, hj]
  · rw [blk1_v V c t κ d, hj]
  · by_cases h0 : j.val = 0
    · rw [if_pos (hc.trans h0), if_pos h0]
      exact congrArg _ (init1_apply ρ d)
    · rw [if_neg (fun h => h0 (hc.symm.trans h)), if_neg h0]

/-- The carried buffers after a point are the point function of what the point found. -/
theorem scAt_step (c : Dev nD) (t : Fin cfg1.N) : ∃ s0 : St1 Ideal,
    scAt V c t.val t.isLt = stepAt (grid1.coords t) (iblk1 V c 0 t) (iblk1 V c 1 t) (iblk1 V c 2 t) s0
    ∧ (∀ hz : t.val ≠ 0, s0 = scAt V c (t.val - 1) (Nat.lt_of_le_of_lt (Nat.sub_le _ _) t.isLt)) := by
  by_cases hz : t.val = 0
  · exact ⟨init1, (scAt_zero V c t hz init1).symm, fun h => absurd hz h⟩
  · exact ⟨_, (scAt_pos V c t hz).symm, fun _ => rfl⟩

theorem scAt_congr (c : Dev nD) {n m : ℕ} (h : n = m) (hn : n < cfg1.N) (hm : m < cfg1.N) :
    scAt V c n hn = scAt V c m hm := by
  subst h; rfl

/-- After the point 8 i + j the carried buffers hold, at row ρ and column d, the running softmax of row ρ of query
    tile i after j + 1 key blocks. -/
theorem scAt_read (c : Dev nD) (i : Fin 4) (ρ d : Fin 1024) : ∀ (j : ℕ) (hj : j < 8) (hn : 8 * i.val + j < cfg1.N),
    rd (scAt V c (8 * i.val + j) hn) ρ d
      = Cert.Attn.run (scores (V c main_v3_0) (V c main_v3_1) (Cert.Attn.row i ρ)) (vals (V c main_v3_2) d) (j + 1) := by
  intro j
  induction j with
  | zero =>
    intro hj hn
    obtain ⟨s0, hs, -⟩ := scAt_step V c ⟨8 * i.val + 0, hn⟩
    have hs' : scAt V c (8 * i.val + 0) hn = _ := hs
    rw [hs', stepAt_read V c ⟨8 * i.val + 0, hn⟩ i ⟨0, hj⟩ rfl s0 ρ d, if_pos rfl, Cert.Attn.run_succ _ _ hj]
    rfl
  | succ j ih =>
    intro hj hn
    obtain ⟨s0, hs, hp⟩ := scAt_step V c ⟨8 * i.val + (j + 1), hn⟩
    have hs' : scAt V c (8 * i.val + (j + 1)) hn = _ := hs
    have hz : (⟨8 * i.val + (j + 1), hn⟩ : Fin cfg1.N).val ≠ 0 := by show 8 * i.val + (j + 1) ≠ 0; omega
    have hprev : s0 = scAt V c (8 * i.val + j) (by omega) :=
      (hp hz).trans (scAt_congr V c (by show 8 * i.val + (j + 1) - 1 = 8 * i.val + j; omega) _ _)
    rw [hs', stepAt_read V c ⟨8 * i.val + (j + 1), hn⟩ i ⟨j + 1, hj⟩ rfl s0 ρ d,
      if_neg (by show ¬ (j + 1 = 0); omega), hprev, ih (by omega) (by omega), Cert.Attn.run_succ _ _ hj]

/-! ## The output array -/

/-- After the call, entry (1024 i + ρ, d) of the output array is the block-by-block attention of that row and
    column of the three arrays the call read. -/
theorem out_final (c : Dev nD) (i : Fin 4) (ρ' : Fin 1024) (d : Fin 1024) :
    (dat1 V c).arrAt 3 cfg1.N (ix2 (Cert.Attn.row i ρ') d)
      = attnAt (V c main_v3_0) (V c main_v3_1) (V c main_v3_2) (Cert.Attn.row i ρ') d := by
  have hA := arrAt3_eq V c
    (fun idx => attnAt (V c main_v3_0) (V c main_v3_1) (V c main_v3_2) ⟨(idx 0).val, idx2_lt0 idx⟩ ⟨(idx 1).val, idx2_lt1 idx⟩)
    (fun t h7 ρ d' => by
      have hN : cfg1.N = 32 := N_1
      have ht := t.isLt
      have hn : 8 * (t.val / 8) + 7 < cfg1.N := by omega
      have h : rd (scAt V c (8 * (t.val / 8) + 7) hn) ρ d' = _ :=
        scAt_read V c ⟨t.val / 8, tile_lt t⟩ ρ d' 7 (by norm_num) hn
      have e : scAt V c (8 * (t.val / 8) + 7) hn = scAt V c t.val t.isLt := scAt_congr V c (by omega) _ _
      rw [e] at h
      rw [fin1_apply]
      show Ideal.div (rd (scAt V c t.val t.isLt) ρ d').2.2 (rd (scAt V c t.val t.isLt) ρ d').2.1 = _
      rw [h]
      rfl)
  exact congrFun hA (ix2 (Cert.Attn.row i ρ') d)

end Cert.KernelIdeal.Hand

end
-- ==== Proof.LibHostSoftmax.lean ====
/-
  The host's softmax over the rows of a matrix, read at an entry.

  For an [a, b] matrix `M` of extended reals scaled by a scalar `s`, the host computes, with the reduced axis kept as a
  unit axis and spread back over the row:
      m(p)   = max(n₁, the maximum over row p of M · s taken from n₀)        (n₀, n₁ scalars; −∞ where this is used)
      e(p,c) = exp(M(p,c) · s − m(p))
      out(p,c) = e(p,c) / (z + ∑ c', e(p,c'))                                (z a scalar; 0 where this is used)
  `rowMax_apply` and `rowSum_apply` read the two one-axis reductions at row p as a fold of max and a sum over the row's
  entries (a maximum commutes and associates, so the order the reduction visits the row in does not matter);
  `keepdims_apply` reads a vector placed as a column [a, 1] and spread to [a, b] at (p, c) as the vector's entry p;
  `scalar_apply` reads a scalar spread to any shape; `softmax_apply` puts them together. All are generic in a and b.
-/
import Idealize.ShloMosaic.PureOps.Ideal.Laws
import Idealize.ShloMosaic.PureOps.Reduce
import Idealize.ShloMosaic.Lib.ValueIdx
import Idealize.ShloMosaic.Lib.Pipeline.Value
import proofs.«146679_j72584947302555_2_alg».proof.Proof.LibMinReduce

noncomputable section

namespace Cert.HostSoftmax

open Idealize.ShloMosaic Idealize.ShloMosaic.ValueIdx

/-- A scalar spread to a shape reads the scalar at every index. -/
theorem scalar_apply {α : Type} {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

/-- A vector placed as a column [a, 1] and spread along the unit axis to [a, b] reads, at (p, c), the vector's entry p. -/
theorem keepdims_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  refine (broadcastInDim_apply ![0, 1] h2 _ (ix2 p c) (ix2 p (0 : Fin 1)) fun ax => ?_).trans
    (broadcastInDim_apply ![0] h1 v (ix2 p (0 : Fin 1)) (ix1 p) fun ax => ?_)
  · match ax with
    | ⟨0, _⟩ =>
      show p.val = if a = 1 then 0 else p.val
      split
      · have := p.isLt; omega
      · rfl
    | ⟨1, _⟩ => show 0 = if (1 : ℕ) = 1 then 0 else c.val; rw [if_pos rfl]
  · match ax with
    | ⟨0, _⟩ =>
      show p.val = if a = 1 then 0 else p.val
      split
      · have := p.isLt; omega
      · rfl

/-- The host's maximum reduction along the rows, read at row p: the fold of max from the initial value over the row. -/
theorem rowMax_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  exact congrArg (fun f => Finset.fold max (init (Shape.Idx.first hu)) f (Finset.univ : Finset (Fin b)))
    (funext fun c => congrArg x (Cert.MinReduce.lift_cols h p c))

/-- The host's sum along the rows, read at row p: the initial value plus the sum of the row's entries. -/
theorem rowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ c : Fin b, x (ix2 p c) := by
  simp only [Host.reduceAdd, Ideal.hostReduceAdd_def]
  rw [Ideal.hostReduceAdd_single h' h]
  exact congrArg (_ + ·) (Finset.sum_congr rfl fun c _ => congrArg x (Cert.MinReduce.lift_cols h p c))

/-- The host's softmax of the rows of `M · s`, read at (p, c). -/
theorem softmax_apply {a b : ℕ} (M : FVec Ideal ⟨2, ![a, b]⟩ .f32) (sc n₀ n₁ z : (⟨0, ![]⟩ : Shape).Idx → Ideal .f32)
    (hs : (⟨0, ![]⟩ : Shape).BroadcastsInDim ⟨2, ![a, b]⟩ ![]) (hv : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1])
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (c : Fin b) :
    Host.divf
        (Host.exp (subf (mulf M (broadcastInDim ⟨2, ![a, b]⟩ ![] hs sc))
          (broadcastInDim ⟨2, ![a, b]⟩ ![0, 1] h2 (broadcastInDim ⟨2, ![a, 1]⟩ ![0] h1
            (maximumf (broadcastInDim ⟨1, ![a]⟩ ![] hv n₁)
              (Host.reduce FloatOps.maximumf (mulf M (broadcastInDim ⟨2, ![a, b]⟩ ![] hs sc)) n₀ h' hu))))))
        (broadcastInDim ⟨2, ![a, b]⟩ ![0, 1] h2 (broadcastInDim ⟨2, ![a, 1]⟩ ![0] h1
          (Host.reduceAdd
            (Host.exp (subf (mulf M (broadcastInDim ⟨2, ![a, b]⟩ ![] hs sc))
              (broadcastInDim ⟨2, ![a, b]⟩ ![0, 1] h2 (broadcastInDim ⟨2, ![a, 1]⟩ ![0] h1
                (maximumf (broadcastInDim ⟨1, ![a]⟩ ![] hv n₁)
                  (Host.reduce FloatOps.maximumf (mulf M (broadcastInDim ⟨2, ![a, b]⟩ ![] hs sc)) n₀ h' hu))))))
            z h' hu)))
        (ix2 p c)
      = Ideal.div
          (Ideal.exp (M (ix2 p c) * sc ix0
            - max (n₁ ix0) ((Finset.univ : Finset (Fin b)).fold max (n₀ (Shape.Idx.first hu)) fun c' => M (ix2 p c') * sc ix0)))
          (z (Shape.Idx.first hu) + ∑ c'' : Fin b, Ideal.exp (M (ix2 p c'') * sc ix0
            - max (n₁ ix0) ((Finset.univ : Finset (Fin b)).fold max (n₀ (Shape.Idx.first hu)) fun c' => M (ix2 p c') * sc ix0))) := by
  -- the scaled scores at an entry, the row maximum spread back, the exponentials
  have hX : ∀ c' : Fin b, mulf M (broadcastInDim ⟨2, ![a, b]⟩ ![] hs sc) (ix2 p c') = M (ix2 p c') * sc ix0 := fun c' =>
    congrArg (M (ix2 p c') * ·) (scalar_apply sc ![] hs (ix2 p c'))
  have hK : ∀ c' : Fin b,
      broadcastInDim ⟨2, ![a, b]⟩ ![0, 1] h2 (broadcastInDim ⟨2, ![a, 1]⟩ ![0] h1
        (maximumf (broadcastInDim ⟨1, ![a]⟩ ![] hv n₁)
          (Host.reduce FloatOps.maximumf (mulf M (broadcastInDim ⟨2, ![a, b]⟩ ![] hs sc)) n₀ h' hu))) (ix2 p c')
        = max (n₁ ix0) ((Finset.univ : Finset (Fin b)).fold max (n₀ (Shape.Idx.first hu)) fun c'' => M (ix2 p c'') * sc ix0) := fun c' =>
    (keepdims_apply _ h1 h2 p c').trans (congrArg₂ max (scalar_apply n₁ ![] hv (ix1 p))
      ((rowMax_apply _ n₀ h' h hu p).trans
        (congrArg (fun f => Finset.fold max (n₀ (Shape.Idx.first hu)) f (Finset.univ : Finset (Fin b))) (funext hX))))
  have hE : ∀ c' : Fin b,
      Host.exp (subf (mulf M (broadcastInDim ⟨2, ![a, b]⟩ ![] hs sc))
        (broadcastInDim ⟨2, ![a, b]⟩ ![0, 1] h2 (broadcastInDim ⟨2, ![a, 1]⟩ ![0] h1
          (maximumf (broadcastInDim ⟨1, ![a]⟩ ![] hv n₁)
            (Host.reduce FloatOps.maximumf (mulf M (broadcastInDim ⟨2, ![a, b]⟩ ![] hs sc)) n₀ h' hu))))) (ix2 p c')
        = Ideal.exp (M (ix2 p c') * sc ix0
            - max (n₁ ix0) ((Finset.univ : Finset (Fin b)).fold max (n₀ (Shape.Idx.first hu)) fun c'' => M (ix2 p c'') * sc ix0)) := fun c' =>
    congrArg₂ (fun u v => Ideal.exp (u - v)) (hX c') (hK c')
  exact congrArg₂ Ideal.div (hE c)
    ((keepdims_apply _ h1 h2 p c).trans ((rowSum_apply _ z h' h hu p).trans
      (congrArg (z (Shape.Idx.first hu) + ·) (Finset.sum_congr rfl fun c' _ => hE c'))))

end Cert.HostSoftmax

end
-- ==== Proof.Ref.lean ====
/-
  The reference computation of single-head attention, read entry by entry.

  For x : [4096, 1024], weights W_Q, W_K, W_V : [1024, 1024] and biases b_Q, b_K, b_V : [1024] the reference forms the
  three projections x·W + b, the scores (Q·Kᵀ) / sqrt(1024), subtracts from each row of scores its maximum, takes
  exponentials, divides each row by its sum, and multiplies by V. Here each of those stages is read at one entry, so the
  whole result at (r, d) is the sum over the key rows n of  exp(s(r,n) − m(r)) / (0 + ∑ n', exp(s(r,n') − m(r)))  times
  V(n, d), where s(r,n) is the scaled dot product of projected row r of Q with projected row n of K and m(r) the largest
  score of row r.
-/
import proofs.«146679_j72584947302555_2_alg».proof.Proof.Gen.ReferenceIdeal.Read
import proofs.«146679_j72584947302555_2_alg».proof.Proof.SpecArr
import proofs.«146679_j72584947302555_2_alg».proof.Proof.LibHostSoftmax

noncomputable section

namespace Cert.RefSide

open Idealize.ShloMosaic Idealize.ShloMosaic.ValueIdx Cert.ReferenceIdeal Cert.ReferenceIdeal.Gen Cert.ReferenceIdeal.Read

/-- The matrix x and the three weight matrices, the three bias vectors, as arrays of extended reals. -/
abbrev XArr := (⟨S4096x1024, .f32⟩ : BufTy).Contents (Elt Ideal)
abbrev WArr := (⟨S1024x1024, .f32⟩ : BufTy).Contents (Elt Ideal)
abbrev BArr := (⟨S1024, .f32⟩ : BufTy).Contents (Elt Ideal)

/-- The f32 word of −∞ is the bottom of the extended reals. -/
theorem ofBits_neg_inf : Ideal.ofBits .f32 0xFF800000#32 = (⊥ : EReal) := by
  simp [Ideal.ofBits, Ideal.ieee]

/-- The scaled score of query row r against key row n. -/
def sc (x0 : XArr) (x1 x2 : WArr) (x4 x5 : BArr) (r n : Fin 4096) : EReal :=
  Ideal.div (Cert.Attn.dotRow (Cert.Attn.proj x0 x1 x4) (Cert.Attn.proj x0 x2 x5) r n)
    (Ideal.sqrt (Ideal.ofBits .f32 0x44800000#32))

/-- The largest scaled score of query row r (taken from −∞, and once more against −∞). -/
def mx (x0 : XArr) (x1 x2 : WArr) (x4 x5 : BArr) (r : Fin 4096) : EReal :=
  max ⊥ ((Finset.univ : Finset (Fin 4096)).fold max ⊥ (sc x0 x1 x2 x4 x5 r))

/-! ## The index maps of the stages, at coordinates -/

theorem lidx0 (r : Fin 4096) (c k : Fin 1024) : lidx_main_v0 (ix2 r c) k = ix2 r k :=
  funext fun a => by match a with | ⟨0, _⟩ => rfl | ⟨1, _⟩ => rfl
theorem ridx0 (r : Fin 4096) (c k : Fin 1024) : ridx_main_v0 (ix2 r c) k = ix2 k c :=
  funext fun a => by match a with | ⟨0, _⟩ => rfl | ⟨1, _⟩ => rfl
theorem lidx4 (r : Fin 4096) (c k : Fin 1024) : lidx_main_v4 (ix2 r c) k = ix2 r k :=
  funext fun a => by match a with | ⟨0, _⟩ => rfl | ⟨1, _⟩ => rfl
theorem ridx4 (r : Fin 4096) (c k : Fin 1024) : ridx_main_v4 (ix2 r c) k = ix2 k c :=
  funext fun a => by match a with | ⟨0, _⟩ => rfl | ⟨1, _⟩ => rfl
theorem lidx8 (r : Fin 4096) (c k : Fin 1024) : lidx_main_v8 (ix2 r c) k = ix2 r k :=
  funext fun a => by match a with | ⟨0, _⟩ => rfl | ⟨1, _⟩ => rfl
theorem ridx8 (r : Fin 4096) (c k : Fin 1024) : ridx_main_v8 (ix2 r c) k = ix2 k c :=
  funext fun a => by match a with | ⟨0, _⟩ => rfl | ⟨1, _⟩ => rfl
theorem bidx (r : Fin 4096) (c : Fin 1024) : idx_main_v1 (idx_main_v2 (ix2 r c)) = ix1 c :=
  funext fun a => by match a with | ⟨0, _⟩ => rfl
theorem tidx (k : Fin 1024) (n : Fin 4096) : idx_main_v12 (ix2 k n) = ix2 n k :=
  funext fun a => by match a with | ⟨0, _⟩ => rfl | ⟨1, _⟩ => rfl
theorem lidx13 (r n : Fin 4096) (k : Fin 1024) : lidx_main_v13 (ix2 r n) k = ix2 r k :=
  funext fun a => by match a with | ⟨0, _⟩ => rfl | ⟨1, _⟩ => rfl
theorem ridx13 (r n : Fin 4096) (k : Fin 1024) : ridx_main_v13 (ix2 r n) k = ix2 k n :=
  funext fun a => by match a with | ⟨0, _⟩ => rfl | ⟨1, _⟩ => rfl
theorem kidx (r n : Fin 4096) : idx_main_v20 (idx_main_v21 (ix2 r n)) = ix1 r :=
  funext fun a => by match a with | ⟨0, _⟩ => rfl
theorem sidx (r n : Fin 4096) : idx_main_v24 (ix1 r) n = ix2 r n :=
  funext fun a => by match a with | ⟨0, _⟩ => rfl | ⟨1, _⟩ => rfl
theorem lidx28 (r : Fin 4096) (d : Fin 1024) (n : Fin 4096) : lidx_main_v28 (ix2 r d) n = ix2 r n :=
  funext fun a => by match a with | ⟨0, _⟩ => rfl | ⟨1, _⟩ => rfl
theorem ridx28 (r : Fin 4096) (d : Fin 1024) (n : Fin 4096) : ridx_main_v28 (ix2 r d) n = ix2 n d :=
  funext fun a => by match a with | ⟨0, _⟩ => rfl | ⟨1, _⟩ => rfl

/-! ## The three projections -/

/-- Q = x·W_Q + b_Q at (r, c). -/
theorem q_apply (x0 : XArr) (x1 : WArr) (x4 : BArr) (r : Fin 4096) (c : Fin 1024) :
    val_main_v3 (F := Ideal) x0 x1 x4 (ix2 r c) = Cert.Attn.proj x0 x1 x4 r c := by
  rw [val_main_v3_apply, val_main_v0_apply, val_main_v2_apply, val_main_v1_apply, bidx]
  simp only [lidx0, ridx0, Ideal.addf_def]
  rfl

/-- K = x·W_K + b_K at (n, c). -/
theorem k_apply (x0 : XArr) (x2 : WArr) (x5 : BArr) (n : Fin 4096) (c : Fin 1024) :
    val_main_v7 (F := Ideal) x0 x2 x5 (ix2 n c) = Cert.Attn.proj x0 x2 x5 n c := by
  rw [val_main_v7_apply, val_main_v4_apply, val_main_v6_apply, val_main_v5_apply]
  rw [show idx_main_v5 (idx_main_v6 (ix2 n c)) = ix1 c from bidx n c]
  simp only [lidx4, ridx4, Ideal.addf_def]
  rfl

/-- V = x·W_V + b_V at (n, d). -/
theorem v_apply (x0 : XArr) (x3 : WArr) (x6 : BArr) (n : Fin 4096) (d : Fin 1024) :
    val_main_v11 (F := Ideal) x0 x3 x6 (ix2 n d) = Cert.Attn.proj x0 x3 x6 n d := by
  rw [val_main_v11_apply, val_main_v8_apply, val_main_v10_apply, val_main_v9_apply]
  rw [show idx_main_v9 (idx_main_v10 (ix2 n d)) = ix1 d from bidx n d]
  simp only [lidx8, ridx8, Ideal.addf_def]
  rfl

/-! ## The scores -/

/-- The scaled score at (r, n): the dot product of row r of Q with row n of K (the transposed K read at (k, n) is K
    at (n, k)), divided by the square root of 1024. -/
theorem score_apply (x0 : XArr) (x1 x2 : WArr) (x4 x5 : BArr) (r n : Fin 4096) :
    val_main_v16 (F := Ideal) x0 x1 x2 x4 x5 (ix2 r n) = sc x0 x1 x2 x4 x5 r n := by
  rw [val_main_v16_apply, val_main_v13_apply, val_main_v15_apply, val_main_v14_apply, val_main_cst_apply]
  simp only [lidx13, ridx13, val_main_v12_apply, tidx, q_apply, k_apply, Ideal.hostDivf_def, Ideal.hostUnary_sqrt_def,
    Ideal.ofBits_def]
  rfl

/-- The row maximum at r. -/
theorem max_apply (x0 : XArr) (x1 x2 : WArr) (x4 x5 : BArr) (r : Fin 4096) :
    val_main_v19 (F := Ideal) x0 x1 x2 x4 x5 (ix1 r) = mx x0 x1 x2 x4 x5 r := by
  rw [val_main_v19_apply, val_main_v18_apply, val_main_cst_1_apply]
  unfold val_main_v17
  rw [Cert.HostSoftmax.rowMax_apply _ _ reducesTo_S4096x4096_S4096_d1 (by decide) h_S_ r, val_main_cst_0_apply]
  simp only [score_apply, Ideal.ofBits_def, ofBits_neg_inf, Ideal.maximumf_def]
  rfl

/-- The exponential of a score less its row's maximum, at (r, n). -/
theorem exp_apply (x0 : XArr) (x1 x2 : WArr) (x4 x5 : BArr) (r n : Fin 4096) :
    val_main_v23 (F := Ideal) x0 x1 x2 x4 x5 (ix2 r n)
      = Ideal.exp (sc x0 x1 x2 x4 x5 r n - mx x0 x1 x2 x4 x5 r) := by
  rw [val_main_v23_apply, val_main_v22_apply, val_main_v21_apply, val_main_v20_apply, kidx, max_apply, score_apply]
  rfl

/-- The row sum of the exponentials at r, taken from zero. -/
theorem sum_apply (x0 : XArr) (x1 x2 : WArr) (x4 x5 : BArr) (r : Fin 4096) :
    val_main_v24 (F := Ideal) x0 x1 x2 x4 x5 (ix1 r)
      = (0 : EReal) + ∑ n' : Fin 4096, Ideal.exp (sc x0 x1 x2 x4 x5 r n' - mx x0 x1 x2 x4 x5 r) := by
  rw [val_main_v24_apply, val_main_cst_2_apply]
  simp only [sidx, exp_apply, Ideal.ofBits_def, Ideal.ofBits_zero_f32]

/-- The softmax weight at (r, n). -/
theorem weight_apply (x0 : XArr) (x1 x2 : WArr) (x4 x5 : BArr) (r n : Fin 4096) :
    val_main_v27 (F := Ideal) x0 x1 x2 x4 x5 (ix2 r n)
      = Ideal.div (Ideal.exp (sc x0 x1 x2 x4 x5 r n - mx x0 x1 x2 x4 x5 r))
          ((0 : EReal) + ∑ n' : Fin 4096, Ideal.exp (sc x0 x1 x2 x4 x5 r n' - mx x0 x1 x2 x4 x5 r)) := by
  rw [val_main_v27_apply, val_main_v26_apply, val_main_v25_apply]
  rw [show idx_main_v25 (idx_main_v26 (ix2 r n)) = ix1 r from kidx r n, sum_apply, exp_apply]
  rfl

/-! ## The result -/

/-- The reference's result at (r, d): the softmax weights of row r against column d of V. -/
theorem ref_apply (x0 : XArr) (x1 x2 x3 : WArr) (x4 x5 x6 : BArr) (r : Fin 4096) (d : Fin 1024) :
    val_main_v28 (F := Ideal) x0 x1 x2 x3 x4 x5 x6 (ix2 r d)
      = ∑ n : Fin 4096,
          Ideal.div (Ideal.exp (sc x0 x1 x2 x4 x5 r n - mx x0 x1 x2 x4 x5 r))
              ((0 : EReal) + ∑ n' : Fin 4096, Ideal.exp (sc x0 x1 x2 x4 x5 r n' - mx x0 x1 x2 x4 x5 r))
            * Cert.Attn.proj x0 x3 x6 n d := by
  rw [val_main_v28_apply]
  simp only [lidx28, ridx28, weight_apply, v_apply]

end Cert.RefSide

end
-- ==== Proof.Fin.lean ====
/-
  Finiteness of the inputs, read off the precondition.

  The precondition is the conjunction, over the seven input arrays, of "every entry has absolute value below +∞". A
  conjunction of one-bit words is 1 only if both are; a reduction by conjunction from 1 that comes out 1 met a 1 at every
  entry; and an extended real whose absolute value max(x, −x) lies strictly below +∞ is neither −∞ nor +∞, so it is a
  real number.
-/
import proofs.«146679_j72584947302555_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.RefSide

open Idealize.ShloMosaic Idealize.ShloMosaic.ValueIdx Cert.Pre_finite_inputs

/-- The scalar shape has one index. -/
instance subsingleton_scalar_idx : Subsingleton S_.Idx := ⟨fun a b => funext fun d => d.elim0⟩

/-- The f32 word of +∞ is the top of the extended reals. -/
theorem ofBits_pos_inf : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ t : ℝ, x = (t : EReal) := by
  rw [ofBits_pos_inf] at h
  have hlt : max x (-x) < ⊤ := by
    by_contra hn
    simp [Ideal.cmp, hn] at h
  induction x using EReal.rec with
  | bot => simp at hlt
  | coe t => exact ⟨t, rfl⟩
  | top => simp at hlt

/-- One conjunct of the precondition: if the reduction by conjunction of "|a| < +∞" over all of an array comes out 1,
    every entry of the array is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : ∃ t : ℝ, a i = (t : EReal) := by
  have hi := Host.reduce_andi_all _ _ hr hu ix0 e i
  refine real_of_abs_lt_inf (a i) ?_
  rw [← hi]
  show _ = Ideal.cmp .olt (max (a i) (-(a i))) (broadcastInDim s ![] hb (constant (F := Ideal) S_ .f32 0x7F800000#32) i)
  rw [broadcastInDim_apply ![] hb _ i ix0 fun ax => ax.elim0]
  rfl

/-- Under the precondition every entry of every input is a real number. -/
theorem finite_of_pre (a0 : FVec Ideal S4096x1024 .f32) (a1 a2 a3 : FVec Ideal S1024x1024 .f32)
    (a4 a5 a6 : FVec Ideal S1024 .f32)
    (h : Cert.Pre_finite_inputs.fn (F := Ideal) a0 a1 a2 a3 a4 a5 a6 = fun _ => 1#1) :
    (∀ i, ∃ t : ℝ, a0 i = (t : EReal)) ∧ (∀ i, ∃ t : ℝ, a1 i = (t : EReal)) ∧ (∀ i, ∃ t : ℝ, a2 i = (t : EReal))
      ∧ (∀ i, ∃ t : ℝ, a3 i = (t : EReal)) ∧ (∀ i, ∃ t : ℝ, a4 i = (t : EReal)) ∧ (∀ i, ∃ t : ℝ, a5 i = (t : EReal))
      ∧ (∀ i, ∃ t : ℝ, a6 i = (t : EReal)) := by
  have h0 := congrFun h ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3,
    all_real a4 _ _ _ e4, all_real a5 _ _ _ e5, all_real a6 _ _ _ e6⟩

end Cert.RefSide

end
-- ==== Proof.Glue.lean ====
/-
  The running softmax of the kernel against the reference's softmax, for real inputs.

  With every input entry a real number, the three projections x·W + b are real at every entry, so the raw scores (dot
  products of projected rows) are real, and both sides scale them by the same real: the word 0x3D000000 is 1/32, and
  dividing by the square root of the word 0x44800000 = 1024 is multiplying by 1/32. The running softmax over the 8 key
  blocks of 512 rows and the reference's softmax with the row maximum subtracted are then both the softmax-weighted sum
  of the values, over the same 4096 key rows: row 512·j + κ of block j, place κ, and every row n is row n mod 512 of
  block n / 512.
-/
import proofs.«146679_j72584947302555_2_alg».proof.Proof.Ref
import proofs.«146679_j72584947302555_2_alg».proof.Proof.Fin
import proofs.«146679_j72584947302555_2_alg».proof.Proof.Math
import proofs.«146679_j72584947302555_2_alg».proof.Proof.SpecArr

noncomputable section

namespace Cert.RefSide

open Idealize.ShloMosaic Idealize.ShloMosaic.ValueIdx

/-! ## The two scale words -/

/-- The f32 word 0x44800000 is the real 1024. -/
theorem ofBits_1024 : Ideal.ofBits .f32 0x44800000#32 = ((1024 : ℝ) : EReal) := by
  simp [Ideal.ofBits, Ideal.ieee, -EReal.coe_mul]; norm_num

/-- The f32 word 0x3D000000 is the real 1/32. -/
theorem ofBits_inv32 : Ideal.ofBits .f32 0x3D000000#32 = ((1 / 32 : ℝ) : EReal) := by
  simp [Ideal.ofBits, Ideal.ieee, -EReal.coe_mul]; norm_num

/-! ## Real projections -/

/-- A projection of real inputs is real at every entry. -/
theorem proj_real (x : XArr) (W : WArr) (b : BArr) (hx : ∀ i, ∃ t : ℝ, x i = (t : EReal))
    (hW : ∀ i, ∃ t : ℝ, W i = (t : EReal)) (hb : ∀ i, ∃ t : ℝ, b i = (t : EReal)) (r : Fin 4096) (c : Fin 1024) :
    ∃ t : ℝ, Cert.Attn.proj x W b r c = (t : EReal) := by
  choose x' hx' using hx
  choose W' hW' using hW
  choose b' hb' using hb
  refine ⟨(∑ k : Fin 1024, x' (ix2 r k) * W' (ix2 k c)) + b' (ix1 c), ?_⟩
  unfold Cert.Attn.proj
  simp only [hx', hW', hb', ← EReal.coe_mul, Cert.Attn.coe_sum, ← EReal.coe_add]

/-- Every key row is row n mod 512 of block n / 512. -/
theorem col_blk_pos (n : Fin 4096) : Cert.Attn.col (Cert.Attn.blk n) (Cert.Attn.pos n) = n := by
  apply Fin.ext
  simp only [Cert.Attn.col, Cert.Attn.blk, Cert.Attn.pos]
  omega

/-! ## The bridge -/

/-- For real inputs the running softmax over the key blocks, on the scores scaled by the word 1/32, is the reference's
    row of softmax weights against the values. -/
theorem kernel_eq_ref (x0 : XArr) (x1 x2 x3 : WArr) (x4 x5 x6 : BArr)
    (h0 : ∀ i, ∃ t : ℝ, x0 i = (t : EReal)) (h1 : ∀ i, ∃ t : ℝ, x1 i = (t : EReal))
    (h2 : ∀ i, ∃ t : ℝ, x2 i = (t : EReal)) (h3 : ∀ i, ∃ t : ℝ, x3 i = (t : EReal))
    (h4 : ∀ i, ∃ t : ℝ, x4 i = (t : EReal)) (h5 : ∀ i, ∃ t : ℝ, x5 i = (t : EReal))
    (h6 : ∀ i, ∃ t : ℝ, x6 i = (t : EReal)) (r : Fin 4096) (d : Fin 1024) :
    Cert.Attn.online
        (fun j κ => Cert.Attn.dotRow (Cert.Attn.proj x0 x1 x4) (Cert.Attn.proj x0 x2 x5) r (Cert.Attn.col j κ)
          * Ideal.ofBits .f32 0x3D000000#32)
        (fun j κ => Cert.Attn.proj x0 x3 x6 (Cert.Attn.col j κ) d)
      = ∑ n : Fin 4096,
          Ideal.div (Ideal.exp (sc x0 x1 x2 x4 x5 r n - mx x0 x1 x2 x4 x5 r))
              ((0 : EReal) + ∑ n' : Fin 4096, Ideal.exp (sc x0 x1 x2 x4 x5 r n' - mx x0 x1 x2 x4 x5 r))
            * Cert.Attn.proj x0 x3 x6 n d := by
  -- the three projections are real
  choose qR hq using fun r c => proj_real x0 x1 x4 h0 h1 h4 r c
  choose kR hk using fun r c => proj_real x0 x2 x5 h0 h2 h5 r c
  choose vR hv using fun r c => proj_real x0 x3 x6 h0 h3 h6 r c
  -- so the raw scores are real
  have hd : ∀ r n : Fin 4096,
      Cert.Attn.dotRow (Cert.Attn.proj x0 x1 x4) (Cert.Attn.proj x0 x2 x5) r n
        = ((∑ c : Fin 1024, qR r c * kR n c : ℝ) : EReal) := by
    intro r n
    unfold Cert.Attn.dotRow
    simp only [hq, hk, ← EReal.coe_mul, Cert.Attn.coe_sum]
  -- the reference's scaled score: dividing by the square root of 1024 is multiplying by 1/32
  have hsc : ∀ n : Fin 4096,
      sc x0 x1 x2 x4 x5 r n = (((∑ c : Fin 1024, qR r c * kR n c) * (1 / 32) : ℝ) : EReal) := by
    intro n
    unfold sc
    rw [hd, ofBits_1024, Cert.Attn.div_sqrt_1024, ← EReal.coe_mul]
  have hmx : mx x0 x1 x2 x4 x5 r
      = max ⊥ ((Finset.univ : Finset (Fin 4096)).fold max ⊥
          fun n' => (((∑ c : Fin 1024, qR r c * kR n' c) * (1 / 32) : ℝ) : EReal)) := by
    unfold mx
    rw [show sc x0 x1 x2 x4 x5 r
        = fun n' => (((∑ c : Fin 1024, qR r c * kR n' c) * (1 / 32) : ℝ) : EReal) from funext hsc]
  -- both sides are the softmax-weighted sum of column d of the values under the scaled scores of row r
  have hR := Cert.Attn.host_eq_soft (fun n => (∑ c : Fin 1024, qR r c * kR n c) * (1 / 32)) (fun n => vR n d)
  have hL := Cert.Attn.online_eq_soft
    (fun j κ => (∑ c : Fin 1024, qR r c * kR (Cert.Attn.col j κ) c) * (1 / 32)) (fun j κ => vR (Cert.Attn.col j κ) d)
  simp only [col_blk_pos] at hL
  simp only [hd, hv, hsc, hmx, ofBits_inv32, ← EReal.coe_mul]
  exact hL.trans hR.symm

end Cert.RefSide

end
-- ==== Proof.Final.lean ====
/-
  The kernel's result array is the reference's, entry by entry, at the ideal instance under finite inputs.

  The kernel's run ends with the result array at what the attention call's write-backs leave: entry (r, d) is the
  running softmax over the eight key blocks of the scaled dot products of projected query row r against the projected
  key rows, weighting the projected value rows' entries d. The three projected arrays are the projection call's
  write-backs: entry (r, c) of x · [W_Q | W_K | W_V] + [b_Q | b_K | b_V], read through the concatenations, is the
  reference's own projection. The reference's result at (r, d) is the softmax-weighted sum over all key rows of the
  same scores divided by √1024 = 32. For finite inputs all these are real numbers and the running softmax equals the
  softmax-weighted sum.
-/
import proofs.«146679_j72584947302555_2_alg».proof.Defs
import proofs.«146679_j72584947302555_2_alg».proof.Proof.Run
import proofs.«146679_j72584947302555_2_alg».proof.Proof.Host0
import proofs.«146679_j72584947302555_2_alg».proof.Proof.V0
import proofs.«146679_j72584947302555_2_alg».proof.Proof.A1
import proofs.«146679_j72584947302555_2_alg».proof.Proof.Glue

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The argument arrays as the launch memory holds them. -/
abbrev ax (c : Dev nD) : S4096x1024.Idx → EReal := m ((c.tc : Thread nD τ).loc main_arg0)
abbrev aWQ (c : Dev nD) : S1024x1024.Idx → EReal := m ((c.tc : Thread nD τ).loc main_arg1)
abbrev aWK (c : Dev nD) : S1024x1024.Idx → EReal := m ((c.tc : Thread nD τ).loc main_arg2)
abbrev aWV (c : Dev nD) : S1024x1024.Idx → EReal := m ((c.tc : Thread nD τ).loc main_arg3)
abbrev abQ (c : Dev nD) : S1024.Idx → EReal := m ((c.tc : Thread nD τ).loc main_arg4)
abbrev abK (c : Dev nD) : S1024.Idx → EReal := m ((c.tc : Thread nD τ).loc main_arg5)
abbrev abV (c : Dev nD) : S1024.Idx → EReal := m ((c.tc : Thread nD τ).loc main_arg6)

/-! ## The three projected arrays -/

/-- The projected query array the attention call reads is the reference's projection of x by W_Q and b_Q. -/
theorem Qarr (c : Dev nD) (r : Fin 4096) (cc : Fin 1024) :
    (E2 m ρ c main_v3_0 : S4096x1024.Idx → EReal) (ix2 r cc) = Cert.Attn.proj (ax m c) (aWQ m c) (abQ m c) r cc := by
  have h : (E2 m ρ c main_v3_0 : S4096x1024.Idx → EReal) = (dat0 (E1 m ρ) c).arrAt 3 cfg0.N := U2_arr m ρ c 3
  rw [h]
  refine (Q_final (E1 m ρ) c r cc).trans ?_
  unfold projAt Cert.Attn.proj
  refine congrArg₂ (· + ·) (Finset.sum_congr rfl fun k _ => congrArg₂ (· * ·) ?_ ?_) ?_
  · exact congrFun (after0_arg0 (U0 m ρ c)) (ix2 r k)
  · exact after0_v0_Q (U0 m ρ c) k cc
  · exact after0_v2_Q (U0 m ρ c) cc

/-- The projected key array is the reference's projection of x by W_K and b_K. -/
theorem Karr (c : Dev nD) (r : Fin 4096) (cc : Fin 1024) :
    (E2 m ρ c main_v3_1 : S4096x1024.Idx → EReal) (ix2 r cc) = Cert.Attn.proj (ax m c) (aWK m c) (abK m c) r cc := by
  have h : (E2 m ρ c main_v3_1 : S4096x1024.Idx → EReal) = (dat0 (E1 m ρ) c).arrAt 4 cfg0.N := U2_arr m ρ c 4
  rw [h]
  refine (K_final (E1 m ρ) c r cc).trans ?_
  unfold projAt Cert.Attn.proj
  refine congrArg₂ (· + ·) (Finset.sum_congr rfl fun k _ => congrArg₂ (· * ·) ?_ ?_) ?_
  · exact congrFun (after0_arg0 (U0 m ρ c)) (ix2 r k)
  · exact after0_v0_K (U0 m ρ c) k cc
  · exact after0_v2_K (U0 m ρ c) cc

/-- The projected value array is the reference's projection of x by W_V and b_V. -/
theorem Varr (c : Dev nD) (r : Fin 4096) (cc : Fin 1024) :
    (E2 m ρ c main_v3_2 : S4096x1024.Idx → EReal) (ix2 r cc) = Cert.Attn.proj (ax m c) (aWV m c) (abV m c) r cc := by
  have h : (E2 m ρ c main_v3_2 : S4096x1024.Idx → EReal) = (dat0 (E1 m ρ) c).arrAt 5 cfg0.N := U2_arr m ρ c 5
  rw [h]
  refine (V_final (E1 m ρ) c r cc).trans ?_
  unfold projAt Cert.Attn.proj
  refine congrArg₂ (· + ·) (Finset.sum_congr rfl fun k _ => congrArg₂ (· * ·) ?_ ?_) ?_
  · exact congrFun (after0_arg0 (U0 m ρ c)) (ix2 r k)
  · exact after0_v0_V (U0 m ρ c) k cc
  · exact after0_v2_V (U0 m ρ c) cc

/-! ## The result -/

/-- Every row of the 4096 is row r mod 1024 of query tile r / 1024. -/
theorem row_split (r : Fin 4096) : ∃ (it : Fin 4) (ρ' : Fin 1024), r = Cert.Attn.row it ρ' :=
  ⟨⟨r.val / 1024, by have := r.isLt; omega⟩, ⟨r.val % 1024, Nat.mod_lt _ (by norm_num)⟩,
    Fin.ext (by simp only [Cert.Attn.row]; omega)⟩

/-- Under the precondition, from memories agreeing on the arguments, the reference's result is the array the
    attention call's write-backs leave. -/
theorem result_eq
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev nD) :
    Cert.ReferenceIdeal.Value.res_main_v28 m' c = (dat1 (E2 m ρ) c).arrAt 3 cfg1.N := by
  obtain ⟨a0, a1, a2, a3, a4, a5, a6⟩ := hagree c
  obtain ⟨h0, h1, h2, h3, h4, h5, h6⟩ :=
    Cert.RefSide.finite_of_pre (ax m c) (aWQ m c) (aWK m c) (aWV m c) (abQ m c) (abK m c) (abV m c) (hpre c)
  rw [Cert.ReferenceIdeal.Read.val_main_v28_eq, a0, a1, a2, a3, a4, a5, a6]
  funext i
  obtain ⟨r, d, rfl⟩ : ∃ (r : Fin 4096) (d : Fin 1024), i = ix2 r d := ⟨i 0, i 1, eq_ix2 i⟩
  obtain ⟨it, ρ', rfl⟩ := row_split r
  refine Eq.trans ?_ (out_final (E2 m ρ) c it ρ' d).symm
  unfold attnAt
  refine ((Cert.RefSide.ref_apply (ax m c) (aWQ m c) (aWK m c) (aWV m c) (abQ m c) (abK m c) (abV m c)
      (Cert.Attn.row it ρ') d).trans
    (Cert.RefSide.kernel_eq_ref (ax m c) (aWQ m c) (aWK m c) (aWV m c) (abQ m c) (abK m c) (abV m c)
      h0 h1 h2 h3 h4 h5 h6 (Cert.Attn.row it ρ') d).symm).trans ?_
  refine congrArg₂ Cert.Attn.online
    (funext fun j => funext fun κ => congrArg (· * Ideal.ofBits .f32 0x3D000000#32) ?_)
    (funext fun j => funext fun κ => (Varr m ρ c (Cert.Attn.col j κ) d).symm)
  unfold Cert.Attn.dotRow
  exact Finset.sum_congr rfl fun cc _ =>
    congrArg₂ (· * ·) (Qarr m ρ c (Cert.Attn.row it ρ') cc).symm (Karr m ρ c (Cert.Attn.col j κ) cc).symm

/-! ## The claims -/

/-- At the ideal instance, under finite inputs, both programs run and end with equal results. -/
theorem algebraic : Cert.algebraic_KernelIdeal_ReferenceIdeal := by
  intro m ρ m' ρ' hpre hagree
  refine ⟨fun c => (dat1 (E2 m ρ) c).arrAt 3 cfg1.N, run_value (F := Ideal) m ρ, ?_⟩
  exact (θ_run Cert.ReferenceIdeal.defs _ _).mono
    (fun _ h c => ⟨(h c).1.trans (result_eq m ρ m' hpre hagree c), (h c).2⟩)
    (Cert.ReferenceIdeal.Value.run (F := Ideal) m' ρ')

/-- The reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel runs and leaves its arguments as launched. -/
theorem frame_pi : Cert.frame_KernelIdeal := fun m ρ _ => frame (F := Ideal) m ρ

end Cert.KernelIdeal.Hand

end
-- ==== Proof.lean ====
/-
  Single-head attention in two calls — a fused projection x · [W_Q | W_K | W_V] + [b_Q | b_K | b_V] written as three
  arrays, then a tiled attention with a running softmax over eight key blocks per query tile — against the plain
  softmax((x W_Q + b_Q)(x W_K + b_K)ᵀ / √1024)(x W_V + b_V).

  Each kernel program's run is followed item by item: the three host operations, the projection call (every grid point
  stores its three output blocks whole), the attention call (three buffers carried between grid points: running
  maximum, running denominator, running numerator; the output block stored at the last key block of each query tile).
  Between items every unscoped buffer is held at named contents, so the argument arrays end as launched and the result
  array ends at what the attention call's write-backs leave. At the ideal instance that array is, entry by entry, the
  running softmax of the scaled scores; for finite inputs everything is a real number, the running softmax equals the
  softmax-weighted sum, 1/32 is 1/√1024, and the reference computes the same sum.
-/
import proofs.«146679_j72584947302555_2_alg».proof.Defs
import proofs.«146679_j72584947302555_2_alg».proof.Proof.Gen.Kernel
import proofs.«146679_j72584947302555_2_alg».proof.Proof.Gen.KernelIdeal
import proofs.«146679_j72584947302555_2_alg».proof.Proof.Gen.ReferenceIdeal
import proofs.«146679_j72584947302555_2_alg».proof.Proof.Gen.Pre_finite_inputs
import proofs.«146679_j72584947302555_2_alg».proof.Proof.KRun
import proofs.«146679_j72584947302555_2_alg».proof.Proof.Final

noncomputable section

namespace Cert.Proof

open Idealize.ShloMosaic Idealize.SL.Sem

/-- The word-level kernel program runs to the end and leaves its arguments as launched. -/
theorem frame_p : Cert.frame_Kernel (hKernel := Cert.Kernel.Gen.facts) (hPre_finite_inputs := Cert.Pre_finite_inputs.Gen.facts) :=
  fun m ρ _ => Cert.Kernel.Hand.frame (F := Bits) m ρ

theorem claim : Cert.Claim :=
  ⟨Cert.Kernel.Gen.facts, Cert.KernelIdeal.Gen.facts, Cert.ReferenceIdeal.Gen.facts, Cert.Pre_finite_inputs.Gen.facts,
    frame_p, Cert.KernelIdeal.Hand.frame_pi, Cert.KernelIdeal.Hand.frame_ri, trivial, Cert.KernelIdeal.Hand.algebraic⟩

end Cert.Proof

end
